-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_v108) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S8000x128 : Shape := ⟨2, ![8000, 128]⟩
abbrev S640000 : Shape := ⟨1, ![640000]⟩
abbrev S200000 : Shape := ⟨1, ![200000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S8000x128 : S_.BroadcastsInDim S8000x128 (![] : Fin 0 → Fin S8000x128.rank)
  reducesTo_S8000x128_S_d0_1 : S8000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg25 : FVec F S256 .f32) (main_arg26 : FVec F S256x1 .f32) (main_arg27 : FVec F S1 .f32) (main_v98 : IVec S_ 1) (main_v101 : IVec S512x256 1) (main_c_39 : IVec S_ 1) : IVec S_ 1 :=
  let main_v102 : IVec S_ 1 := (fun x v => Host.reduce IntOp.andi x v reducesTo_S512x256_S_d0_1 h_S_) main_v101 main_c_39
  let main_v103 : IVec S_ 1 := andi main_v98 main_v102
  let main_v104 : FVec F S256 .f32 := Host.absf main_arg25
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x1 .f32 := Host.absf main_arg26
  let main_cst_42 : FVec F S_ .f32 := constant S_ .f32 0x7F800000#32
  let main_v110 : FVec F S256x1 .f32 := broadcastInDim S256x1 ![] bcast_S_S256x1 main_cst_42
  let main_v111 : IVec S256x1 1 := cmpf .olt main_v109 main_v110
  let main_c_43 : IVec S_ 1 := constantI S_ 1 1#1
  let main_v112 : IVec S_ 1 := (fun x v => Host.reduce IntOp.andi x v reducesTo_S256x1_S_d0_1 h_S_) main_v111 main_c_43
  let main_v113 : IVec S_ 1 := andi main_v108 main_v112
  let main_v114 : FVec F S1 .f32 := Host.absf main_arg27
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg22 : FVec F S256 .f32) (main_arg23 : FVec F S256x256 .f32) (main_arg24 : FVec F S512x256 .f32) (main_arg25 : FVec F S256 .f32) (main_arg26 : FVec F S256x1 .f32) (main_arg27 : FVec F S1 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg22
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg23
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S512x256 .f32 := Host.absf main_arg24
  let main_cst_38 : FVec F S_ .f32 := constant S_ .f32 0x7F800000#32
  let main_v100 : FVec F S512x256 .f32 := broadcastInDim S512x256 ![] bcast_S_S512x256 main_cst_38
  let main_v101 : IVec S512x256 1 := cmpf .olt main_v99 main_v100
  let main_c_39 : IVec S_ 1 := constantI S_ 1 1#1
  fn_part6 (F := F) main_arg25 main_arg26 main_arg27 main_v98 main_v101 main_c_39

def fn_part4 {F : FTy → Type} [FloatOps F] (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S512x256 .f32) (main_arg25 : FVec F S256 .f32) (main_arg26 : FVec F S256x1 .f32) (main_arg27 : FVec F S1 .f32) (main_v63 : IVec S_ 1) (main_v67 : IVec S_ 1) : IVec S_ 1 :=
  let main_v68 : IVec S_ 1 := andi main_v63 main_v67
  let main_v69 : FVec F S256x256 .f32 := Host.absf main_arg18
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg20
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg21
  let main_cst_32 : FVec F S_ .f32 := constant S_ .f32 0x7F800000#32
  fn_part5 (F := F) main_arg22 main_arg23 main_arg24 main_arg25 main_arg26 main_arg27 main_v83 main_v84 main_cst_32

def fn_part3 {F : FTy → Type} [FloatOps F] (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S512x256 .f32) (main_arg25 : FVec F S256 .f32) (main_arg26 : FVec F S256x1 .f32) (main_arg27 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_arg20 main_arg21 main_arg22 main_arg23 main_arg24 main_arg25 main_arg26 main_arg27 main_v63 main_v67

def fn_part2 {F : FTy → Type} [FloatOps F] (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S512x256 .f32) (main_arg25 : FVec F S256 .f32) (main_arg26 : FVec F S256x1 .f32) (main_arg27 : FVec F S1 .f32) (main_v33 : IVec S_ 1) : IVec S_ 1 :=
  let main_v34 : FVec F S128x256 .f32 := Host.absf main_arg11
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_arg17 main_arg18 main_arg19 main_arg20 main_arg21 main_arg22 main_arg23 main_arg24 main_arg25 main_arg26 main_arg27 main_v48 main_v49 main_v50

def fn_part1 {F : FTy → Type} [FloatOps F] (main_arg8 : FVec F S128x256 .f32) (main_arg9 : FVec F S128x256 .f32) (main_arg10 : FVec F S256 .f32) (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S512x256 .f32) (main_arg25 : FVec F S256 .f32) (main_arg26 : FVec F S256x1 .f32) (main_arg27 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg8
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S20000x128 .f32) (main_arg1 : FVec F S8000x128 .f32) (main_arg2 : IVec S640000 32) (main_arg3 : IVec S640000 32) (main_arg4 : IVec S200000 32) (main_arg5 : IVec S200000 32) (main_arg6 : FVec F S128x256 .f32) (main_arg7 : FVec F S256 .f32) (main_arg8 : FVec F S128x256 .f32) (main_arg9 : FVec F S128x256 .f32) (main_arg10 : FVec F S256 .f32) (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S512x256 .f32) (main_arg25 : FVec F S256 .f32) (main_arg26 : FVec F S256x1 .f32) (main_arg27 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S8000x128 .f32 := Host.absf main_arg1
  let main_cst_0 : FVec F S_ .f32 := constant S_ .f32 0x7F800000#32
  let main_v5 : FVec F S8000x128 .f32 := broadcastInDim S8000x128 ![] bcast_S_S8000x128 main_cst_0
  let main_v6 : IVec S8000x128 1 := cmpf .olt main_v4 main_v5
  let main_c_1 : IVec S_ 1 := constantI S_ 1 1#1
  let main_v7 : IVec S_ 1 := (fun x v => Host.reduce IntOp.andi x v reducesTo_S8000x128_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S20000x128 : Shape := ⟨2, ![20000, 128]⟩
abbrev S8000x128 : Shape := ⟨2, ![8000, 128]⟩
abbrev S640000 : Shape := ⟨1, ![640000]⟩
abbrev S200000 : Shape := ⟨1, ![200000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S_ : Shape := ⟨0, ![]⟩
abbrev S640000x1 : Shape := ⟨2, ![640000, 1]⟩
abbrev S640000x128 : Shape := ⟨2, ![640000, 128]⟩
abbrev S8000x256 : Shape := ⟨2, ![8000, 256]⟩
abbrev S2000x128 : Shape := ⟨2, ![2000, 128]⟩
abbrev S2000x256 : Shape := ⟨2, ![2000, 256]⟩
abbrev S1x256 : Shape := ⟨2, ![1, 256]⟩
abbrev S20000x256 : Shape := ⟨2, ![20000, 256]⟩
abbrev S640000x256 : Shape := ⟨2, ![640000, 256]⟩
abbrev S200000x1 : Shape := ⟨2, ![200000, 1]⟩
abbrev S200000x256 : Shape := ⟨2, ![200000, 256]⟩
abbrev S4000x256 : Shape := ⟨2, ![4000, 256]⟩
abbrev S4000x1 : Shape := ⟨2, ![4000, 1]⟩
abbrev S4000 : Shape := ⟨1, ![4000]⟩
abbrev S1x1 : Shape := ⟨2, ![1, 1]⟩

abbrev nBuf : Space → Nat
  | .hbm => 171
  | .vmem => 95
  | .smem => 0
  | _ => 0

abbrev hbmTy0_0 (i : Nat) : BufTy := match i % 128 with
  | 0 => ⟨S20000x128, .f32⟩
  | 1 => ⟨S8000x128, .f32⟩
  | 2 => ⟨S640000, .i32⟩
  | 3 => ⟨S640000, .i32⟩
  | 4 => ⟨S200000, .i32⟩
  | 5 => ⟨S200000, .i32⟩
  | 6 => ⟨S128x256, .f32⟩
  | 7 => ⟨S256, .f32⟩
  | 8 => ⟨S128x256, .f32⟩
  | 9 => ⟨S128x256, .f32⟩
  | 10 => ⟨S256, .f32⟩
  | 11 => ⟨S128x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x256, .f32⟩
  | 21 => ⟨S256x256, .f32⟩
  | 22 => ⟨S256, .f32⟩
  | 23 => ⟨S256x256, .f32⟩
  | 24 => ⟨S512x256, .f32⟩
  | 25 => ⟨S256, .f32⟩
  | 26 => ⟨S256x1, .f32⟩
  | 27 => ⟨S1, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S_, .f32⟩
  | 38 => ⟨S8000x128, .f32⟩
  | 39 => ⟨S640000x1, .i32⟩
  | 40 => ⟨S8000x128, .f32⟩
  | 41 => ⟨S8000x256, .f32⟩
  | 42 => ⟨S8000x256, .bf16⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S_, .f32⟩
  | 53 => ⟨S20000x128, .f32⟩
  | 54 => ⟨S640000x1, .i32⟩
  | 55 => ⟨S20000x128, .f32⟩
  | 56 => ⟨S20000x256, .f32⟩
  | 57 => ⟨S20000x256, .bf16⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x256, .f32⟩
  | 67 => ⟨S_, .f32⟩
  | 68 => ⟨S8000x256, .f32⟩
  | 69 => ⟨S640000x1, .i32⟩
  | 70 => ⟨S8000x256, .f32⟩
  | 71 => ⟨S8000x256, .f32⟩
  | 72 => ⟨S8000x256, .bf16⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x256, .f32⟩
  | 82 => ⟨S_, .f32⟩
  | 83 => ⟨S20000x256, .f32⟩
  | 84 => ⟨S640000x1, .i32⟩
  | 85 => ⟨S20000x256, .f32⟩
  | 86 => ⟨S20000x256, .f32⟩
  | 87 => ⟨S20000x256, .bf16⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x256, .f32⟩
  | 97 => ⟨S_, .f32⟩
  | 98 => ⟨S8000x256, .f32⟩
  | 99 => ⟨S640000x1, .i32⟩
  | 100 => ⟨S8000x256, .f32⟩
  | 101 => ⟨S8000x256, .f32⟩
  | 102 => ⟨S8000x256, .bf16⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x256, .f32⟩
  | 112 => ⟨S_, .f32⟩
  | 113 => ⟨S20000x256, .f32⟩
  | 114 => ⟨S640000x1, .i32⟩
  | 115 => ⟨S20000x256, .f32⟩
  | 116 => ⟨S20000x256, .f32⟩
  | 117 => ⟨S20000x256, .bf16⟩
  | 118 => ⟨S_, .i32⟩
  | 119 => ⟨S640000, .i32⟩
  | 120 => ⟨S640000, .i1⟩
  | 121 => ⟨S_, .i32⟩
  | 122 => ⟨S640000, .i32⟩
  | 123 => ⟨S640000, .i32⟩
  | 124 => ⟨S640000, .i32⟩
  | 125 => ⟨S640000x1, .i32⟩
  | 126 => ⟨S640000x256, .f32⟩
  | 127 => ⟨S_, .f32⟩
  | _ => ⟨S20000x128, .f32⟩

abbrev hbmTy0_1 (i : Nat) : BufTy := match i % 128 with
  | 0 => ⟨S8000x256, .f32⟩
  | 1 => ⟨S640000x1, .i32⟩
  | 2 => ⟨S8000x256, .f32⟩
  | 3 => ⟨S8000x256, .f32⟩
  | 4 => ⟨S_, .i32⟩
  | 5 => ⟨S640000, .i32⟩
  | 6 => ⟨S640000, .i1⟩
  | 7 => ⟨S_, .i32⟩
  | 8 => ⟨S640000, .i32⟩
  | 9 => ⟨S640000, .i32⟩
  | 10 => ⟨S640000, .i32⟩
  | 11 => ⟨S640000x1, .i32⟩
  | 12 => ⟨S640000x256, .f32⟩
  | 13 => ⟨S_, .f32⟩
  | 14 => ⟨S20000x256, .f32⟩
  | 15 => ⟨S640000x1, .i32⟩
  | 16 => ⟨S20000x256, .f32⟩
  | 17 => ⟨S20000x256, .f32⟩
  | 18 => ⟨S20000x256, .bf16⟩
  | 19 => ⟨S8000x256, .bf16⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x256, .bf16⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x256, .bf16⟩
  | 38 => ⟨S256x256, .f32⟩
  | 39 => ⟨S256x256, .f32⟩
  | 40 => ⟨S1x256, .f32⟩
  | 41 => ⟨S200000x1, .f32⟩
  | 42 => ⟨S200000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x256, .f32⟩
  | .local _ .vmem, ⟨16, _⟩ => ⟨S256, .f32⟩
  | .local _ .vmem, ⟨17, _⟩ => ⟨S128x256, .f32⟩
  | .local _ .vmem, ⟨18, _⟩ => ⟨S2000x256, .f32⟩
  | .local _ .vmem, ⟨19, _⟩ => ⟨S2000x256, .f32⟩
  | .local _ .vmem, ⟨20, _⟩ => ⟨S2000x256, .bf16⟩
  | .local _ .vmem, ⟨21, _⟩ => ⟨S2000x256, .bf16⟩
  | .local _ .vmem, ⟨22, _⟩ => ⟨S2000x256, .f32⟩
  | .local _ .vmem, ⟨23, _⟩ => ⟨S2000x256, .f32⟩
  | .local _ .vmem, ⟨24, _⟩ => ⟨S2000x256, .bf16⟩
  | .local _ .vmem, ⟨25, _⟩ => ⟨S2000x256, .bf16⟩
  | .local _ .vmem, ⟨26, _⟩ => ⟨S256x256, .f32⟩
  | .local _ .vmem, ⟨27, _⟩ => ⟨S256, .f32⟩
  | .local _ .vmem, ⟨28, _⟩ => ⟨S256x256, .f32⟩
  | .local _ .vmem, ⟨29, _⟩ => ⟨S2000x256, .f32⟩
  | .local _ .vmem, ⟨30, _⟩ => ⟨S2000x256, .f32⟩
  | .local _ .vmem, ⟨31, _⟩ => ⟨S2000x256, .bf16⟩
  | .local _ .vmem, ⟨32, _⟩ => ⟨S2000x256, .bf16⟩
  | .local _ .vmem, ⟨33, _⟩ => ⟨S2000x256, .f32⟩
  | .local _ .vmem, ⟨34, _⟩ => ⟨S2000x256, .f32⟩
  | .local _ .vmem, ⟨35, _⟩ => ⟨S2000x256, .bf16⟩
  | .local _ .vmem, ⟨36, _⟩ => ⟨S2000x256, .bf16⟩
  | .local _ .vmem, ⟨37, _⟩ => ⟨S256x256, .f32⟩
  | .local _ .vmem, ⟨38, _⟩ => ⟨S256, .f32⟩
  | .local _ .vmem, ⟨39, _⟩ => ⟨S256x256, .f32⟩
  | .local _ .vmem, ⟨40, _⟩ => ⟨S2000x256, .f32⟩
  | .local _ .vmem, ⟨41, _⟩ => ⟨S2000x256, .f32⟩
  | .local _ .vmem, ⟨42, _⟩ => ⟨S2000x256, .bf16⟩
  | .local _ .vmem, ⟨43, _⟩ => ⟨S2000x256, .bf16⟩
  | .local _ .vmem, ⟨44, _⟩ => ⟨S2000x256, .f32⟩
  | .local _ .vmem, ⟨45, _⟩ => ⟨S2000x256, .f32⟩
  | .local _ .vmem, ⟨46, _⟩ => ⟨S2000x256, .bf16⟩
  | .local _ .vmem, ⟨47, _⟩ => ⟨S2000x256, .bf16⟩
  | .local _ .vmem, ⟨48, _⟩ => ⟨S256x256, .f32⟩
  | .local _ .vmem, ⟨49, _⟩ => ⟨S256, .f32⟩
  | .local _ .vmem, ⟨50, _⟩ => ⟨S256x256, .f32⟩
  | .local _ .vmem, ⟨51, _⟩ => ⟨S2000x256, .f32⟩
  | .local _ .vmem, ⟨52, _⟩ => ⟨S2000x256, .f32⟩
  | .local _ .vmem, ⟨53, _⟩ => ⟨S2000x256, .bf16⟩
  | .local _ .vmem, ⟨54, _⟩ => ⟨S2000x256, .bf16⟩
  | .local _ .vmem, ⟨55, _⟩ => ⟨S2000x256, .f32⟩
  | .local _ .vmem, ⟨56, _⟩ => ⟨S2000x256, .f32⟩
  | .local _ .vmem, ⟨57, _⟩ => ⟨S2000x256, .bf16⟩
  | .local _ .vmem, ⟨58, _⟩ => ⟨S2000x256, .bf16⟩
  | .local _ .vmem, ⟨59, _⟩ => ⟨S256x256, .f32⟩
  | .local _ .vmem, ⟨60, _⟩ => ⟨S256, .f32⟩
  | .local _ .vmem, ⟨61, _⟩ => ⟨S256x256, .f32⟩
  | .local _ .vmem, ⟨62, _⟩ => ⟨S2000x256, .f32⟩
  | .local _ .vmem, ⟨63, _⟩ => ⟨S2000x256, .f32⟩
  | .local _ .vmem, ⟨64, _⟩ => ⟨S2000x256, .bf16⟩
  | .local _ .vmem, ⟨65, _⟩ => ⟨S2000x256, .bf16⟩
  | .local _ .vmem, ⟨66, _⟩ => ⟨S2000x256, .f32⟩
  | .local _ .vmem, ⟨67, _⟩ => ⟨S2000x256, .f32⟩
  | .local _ .vmem, ⟨68, _⟩ => ⟨S2000x256, .bf16⟩
  | .local _ .vmem, ⟨69, _⟩ => ⟨S2000x256, .bf16⟩
  | .local _ .vmem, ⟨70, _⟩ => ⟨S256x256, .f32⟩
  | .local _ .vmem, ⟨71, _⟩ => ⟨S256, .f32⟩
  | .local _ .vmem, ⟨72, _⟩ => ⟨S256x256, .f32⟩
  | .local _ .vmem, ⟨73, _⟩ => ⟨S2000x256, .f32⟩
  | .local _ .vmem, ⟨74, _⟩ => ⟨S2000x256, .f32⟩
  | .local _ .vmem, ⟨75, _⟩ => ⟨S2000x256, .f32⟩
  | .local _ .vmem, ⟨76, _⟩ => ⟨S2000x256, .f32⟩
  | .local _ .vmem, ⟨77, _⟩ => ⟨S2000x256, .bf16⟩
  | .local _ .vmem, ⟨78, _⟩ => ⟨S2000x256, .bf16⟩
  | .local _ .vmem, ⟨79, _⟩ => ⟨S256x256, .f32⟩
  | .local _ .vmem, ⟨80, _⟩ => ⟨S256, .f32⟩
  | .local _ .vmem, ⟨81, _⟩ => ⟨S256x256, .f32⟩
  | .local _ .vmem, ⟨82, _⟩ => ⟨S2000x256, .f32⟩
  | .local _ .vmem, ⟨83, _⟩ => ⟨S2000x256, .f32⟩
  | .local _ .vmem, ⟨84, _⟩ => ⟨S4000x256, .bf16⟩
  | .local _ .vmem, ⟨85, _⟩ => ⟨S4000x256, .bf16⟩
  | .local _ .vmem, ⟨86, _⟩ => ⟨S4000x256, .bf16⟩
  | .local _ .vmem, ⟨87, _⟩ => ⟨S4000x256, .bf16⟩
  | .local _ .vmem, ⟨88, _⟩ => ⟨S256x256, .f32⟩
  | .local _ .vmem, ⟨89, _⟩ => ⟨S256x256, .f32⟩
  | .local _ .vmem, ⟨90, _⟩ => ⟨S256, .f32⟩
  | .local _ .vmem, ⟨91, _⟩ => ⟨S1x256, .f32⟩
  | .local _ .vmem, ⟨92, _⟩ => ⟨S1, .f32⟩
  | .local _ .vmem, ⟨93, _⟩ => ⟨S4000x1, .f32⟩
  | .local _ .vmem, ⟨94, _⟩ => ⟨S4000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10_0 : Ref sig .tc := ⟨.hbm, 41, rfl⟩
abbrev main_v10_1 : Ref sig .tc := ⟨.hbm, 42, rfl⟩
abbrev main_c_1 : Ref sig .tc := ⟨.hbm, 43, rfl⟩
abbrev main_v11 : Ref sig .tc := ⟨.hbm, 44, rfl⟩
abbrev main_v12 : Ref sig .tc := ⟨.hbm, 45, rfl⟩
abbrev main_c_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21_0 : Ref sig .tc := ⟨.hbm, 56, rfl⟩
abbrev main_v21_1 : Ref sig .tc := ⟨.hbm, 57, rfl⟩
abbrev main_c_4 : Ref sig .tc := ⟨.hbm, 58, rfl⟩
abbrev main_v22 : Ref sig .tc := ⟨.hbm, 59, rfl⟩
abbrev main_v23 : Ref sig .tc := ⟨.hbm, 60, rfl⟩
abbrev main_c_5 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_6 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32_0 : Ref sig .tc := ⟨.hbm, 71, rfl⟩
abbrev main_v32_1 : Ref sig .tc := ⟨.hbm, 72, rfl⟩
abbrev main_c_7 : Ref sig .tc := ⟨.hbm, 73, rfl⟩
abbrev main_v33 : Ref sig .tc := ⟨.hbm, 74, rfl⟩
abbrev main_v34 : Ref sig .tc := ⟨.hbm, 75, rfl⟩
abbrev main_c_8 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_9 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43_0 : Ref sig .tc := ⟨.hbm, 86, rfl⟩
abbrev main_v43_1 : Ref sig .tc := ⟨.hbm, 87, rfl⟩
abbrev main_c_10 : Ref sig .tc := ⟨.hbm, 88, rfl⟩
abbrev main_v44 : Ref sig .tc := ⟨.hbm, 89, rfl⟩
abbrev main_v45 : Ref sig .tc := ⟨.hbm, 90, rfl⟩
abbrev main_c_11 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_12 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54_0 : Ref sig .tc := ⟨.hbm, 101, rfl⟩
abbrev main_v54_1 : Ref sig .tc := ⟨.hbm, 102, rfl⟩
abbrev main_c_13 : Ref sig .tc := ⟨.hbm, 103, rfl⟩
abbrev main_v55 : Ref sig .tc := ⟨.hbm, 104, rfl⟩
abbrev main_v56 : Ref sig .tc := ⟨.hbm, 105, rfl⟩
abbrev main_c_14 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_15 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65_0 : Ref sig .tc := ⟨.hbm, 116, rfl⟩
abbrev main_v65_1 : Ref sig .tc := ⟨.hbm, 117, rfl⟩
abbrev main_c_16 : Ref sig .tc := ⟨.hbm, 118, rfl⟩
abbrev main_v66 : Ref sig .tc := ⟨.hbm, 119, rfl⟩
abbrev main_v67 : Ref sig .tc := ⟨.hbm, 120, rfl⟩
abbrev main_c_17 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_18 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_19 : Ref sig .tc := ⟨.hbm, 132, rfl⟩
abbrev main_v77 : Ref sig .tc := ⟨.hbm, 133, rfl⟩
abbrev main_v78 : Ref sig .tc := ⟨.hbm, 134, rfl⟩
abbrev main_c_20 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_21 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_c_22 : Ref sig .tc := ⟨.hbm, 148, rfl⟩
abbrev main_v90 : Ref sig .tc := ⟨.hbm, 149, rfl⟩
abbrev main_v91 : Ref sig .tc := ⟨.hbm, 150, rfl⟩
abbrev main_c_23 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_24 : Ref sig .tc := ⟨.hbm, 157, rfl⟩
abbrev main_v97 : Ref sig .tc := ⟨.hbm, 158, rfl⟩
abbrev main_v98 : Ref sig .tc := ⟨.hbm, 159, rfl⟩
abbrev main_c_25 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg5_1 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg5_1 : Ref sig .tc := ⟨.vmem, 63, rfl⟩
abbrev cc5_stg6_0 : Ref sig .tc := ⟨.vmem, 64, rfl⟩
abbrev cc5_stg6_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg5_1 : Ref sig .tc := ⟨.vmem, 74, rfl⟩
abbrev cc7_stg0_0 : Ref sig .tc := ⟨.vmem, 75, rfl⟩
abbrev cc7_stg0_1 : Ref sig .tc := ⟨.vmem, 76, rfl⟩
abbrev cc7_stg1_0 : Ref sig .tc := ⟨.vmem, 77, rfl⟩
abbrev cc7_stg1_1 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg5_1 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg3_0 : Ref sig .tc := ⟨.vmem, 89, rfl⟩
abbrev cc8_stg4_0 : Ref sig .tc := ⟨.vmem, 90, rfl⟩
abbrev cc8_stg5_0 : Ref sig .tc := ⟨.vmem, 91, rfl⟩
abbrev cc8_stg6_0 : Ref sig .tc := ⟨.vmem, 92, rfl⟩
abbrev cc8_stg7_0 : Ref sig .tc := ⟨.vmem, 93, rfl⟩
abbrev cc8_stg7_1 : Ref sig .tc := ⟨.vmem, 94, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem5_1 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem5_1 : DmaSem sig := 63
abbrev cc5_sem6_0 : DmaSem sig := 64
abbrev cc5_sem6_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem5_1 : DmaSem sig := 74
abbrev cc7_sem0_0 : DmaSem sig := 75
abbrev cc7_sem0_1 : DmaSem sig := 76
abbrev cc7_sem1_0 : DmaSem sig := 77
abbrev cc7_sem1_1 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem5_1 : DmaSem sig := 83
abbrev cc8_sem0_0 : DmaSem sig := 84
abbrev cc8_sem0_1 : DmaSem sig := 85
abbrev cc8_sem1_0 : DmaSem sig := 86
abbrev cc8_sem1_1 : DmaSem sig := 87
abbrev cc8_sem2_0 : DmaSem sig := 88
abbrev cc8_sem3_0 : DmaSem sig := 89
abbrev cc8_sem4_0 : DmaSem sig := 90
abbrev cc8_sem5_0 : DmaSem sig := 91
abbrev cc8_sem6_0 : DmaSem sig := 92
abbrev cc8_sem7_0 : DmaSem sig := 93
abbrev cc8_sem7_1 : DmaSem sig := 94

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x256 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S4000x1 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S8000x128 : S_.BroadcastsInDim S8000x128 (![] : Fin 0 → Fin S8000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S20000x128 : S_.BroadcastsInDim S20000x128 (![] : Fin 0 → Fin S20000x128.rank)
  bcast_S_S8000x256 : S_.BroadcastsInDim S8000x256 (![] : Fin 0 → Fin S8000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S20000x256 : S_.BroadcastsInDim S20000x256 (![] : Fin 0 → Fin S20000x256.rank)
  bcast_S_S200000 : S_.BroadcastsInDim S200000 (![] : Fin 0 → Fin S200000.rank)
  bcast_S200000_S200000x1_0 : S200000.BroadcastsInDim S200000x1 (![0] : Fin 1 → Fin S200000x1.rank)
  slices_S512x256_S256x256_0_0 : S512x256.Slices ![0, 0] S256x256
  slices_S512x256_S256x256_256_0 : S512x256.Slices ![256, 0] S256x256
  shapeCasts_S256x1_S1x256 : S256x1.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  shapeCasts_S256x256_S256x256 : S256x256.ShapeCasts S256x256
  broadcasts_S1x256_S4000x256 : S1x256.Broadcasts S4000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4000x256_S4000 : S4000x256.Reduces [1] S4000
  shapeCasts_S4000_S4000x1 : S4000.ShapeCasts S4000x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  gather_S20000x128_S640000x1_S640000x128_1_0_n_n_0_1_1128_wf : GatherDims.WF S20000x128 S640000x1 S640000x128 [1] [0] [] [0] [] 1 ![1, 128]
  scatter_S8000x128_S640000x1_S640000x128_1_0_0_1_wf : ScatterDims.WF S8000x128 S640000x1 S640000x128 [1] [0] [0] 1
  dot_S2000x128_S128x256_S2000x256_1_0_0_1_n_n_wf : DotDims.WF S2000x128 S128x256 S2000x256 [1] [0] [0] [1] [] []
  gather_S8000x128_S640000x1_S640000x128_1_0_n_n_0_1_1128_wf : GatherDims.WF S8000x128 S640000x1 S640000x128 [1] [0] [] [0] [] 1 ![1, 128]
  scatter_S20000x128_S640000x1_S640000x128_1_0_0_1_wf : ScatterDims.WF S20000x128 S640000x1 S640000x128 [1] [0] [0] 1
  gather_S20000x256_S640000x1_S640000x256_1_0_n_n_0_1_1256_wf : GatherDims.WF S20000x256 S640000x1 S640000x256 [1] [0] [] [0] [] 1 ![1, 256]
  scatter_S8000x256_S640000x1_S640000x256_1_0_0_1_wf : ScatterDims.WF S8000x256 S640000x1 S640000x256 [1] [0] [0] 1
  dot_S2000x256_S256x256_S2000x256_1_0_0_1_n_n_wf : DotDims.WF S2000x256 S256x256 S2000x256 [1] [0] [0] [1] [] []
  gather_S8000x256_S640000x1_S640000x256_1_0_n_n_0_1_1256_wf : GatherDims.WF S8000x256 S640000x1 S640000x256 [1] [0] [] [0] [] 1 ![1, 256]
  scatter_S20000x256_S640000x1_S640000x256_1_0_0_1_wf : ScatterDims.WF S20000x256 S640000x1 S640000x256 [1] [0] [0] 1
  gather_S20000x256_S200000x1_S200000x256_1_0_n_n_0_1_1256_wf : GatherDims.WF S20000x256 S200000x1 S200000x256 [1] [0] [] [0] [] 1 ![1, 256]
  gather_S8000x256_S200000x1_S200000x256_1_0_n_n_0_1_1256_wf : GatherDims.WF S8000x256 S200000x1 S200000x256 [1] [0] [] [0] [] 1 ![1, 256]
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S8000x128.size a
  hwx0_0 : ∀ i : grid0.Coords, EltTy.bits .f32 = 32 ∨ (Rect.block (s := S8000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S8000x128.size a
  hwx0_1 : ∀ i : grid0.Coords, EltTy.bits .f32 = 32 ∨ (Rect.block (s := S8000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S8000x256.size a
  hwx0_5 : ∀ i : grid0.Coords, EltTy.bits .f32 = 32 ∨ (Rect.block (s := S8000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S8000x256.size a
  hwx0_6 : ∀ i : grid0.Coords, EltTy.bits .bf16 = 32 ∨ (Rect.block (s := S8000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .bf16 = 32 ∨ (Rect.block (s := S20000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S8000x256.size a
  hwx2_0 : ∀ i : grid2.Coords, EltTy.bits .f32 = 32 ∨ (Rect.block (s := S8000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S8000x256.size a
  hwx2_1 : ∀ i : grid2.Coords, EltTy.bits .bf16 = 32 ∨ (Rect.block (s := S8000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S8000x256.size a
  hwx2_5 : ∀ i : grid2.Coords, EltTy.bits .f32 = 32 ∨ (Rect.block (s := S8000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S8000x256.size a
  hwx2_6 : ∀ i : grid2.Coords, EltTy.bits .bf16 = 32 ∨ (Rect.block (s := S8000x256) S2000x256.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .bf16 = 32 ∨ (Rect.block (s := S20000x256) S2000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S20000x256.size a
  hwx3_5 : ∀ i : grid3.Coords, EltTy.bits .f32 = 32 ∨ (Rect.block (s := S20000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .bf16 = 32 ∨ (Rect.block (s := S20000x256) S2000x256.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S8000x256.size a
  hwx4_0 : ∀ i : grid4.Coords, EltTy.bits .f32 = 32 ∨ (Rect.block (s := S8000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S8000x256.size a
  hwx4_1 : ∀ i : grid4.Coords, EltTy.bits .bf16 = 32 ∨ (Rect.block (s := S8000x256) S2000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S8000x256.size a
  hwx4_5 : ∀ i : grid4.Coords, EltTy.bits .f32 = 32 ∨ (Rect.block (s := S8000x256) S2000x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S8000x256.size a
  hwx4_6 : ∀ i : grid4.Coords, EltTy.bits .bf16 = 32 ∨ (Rect.block (s := S8000x256) S2000x256.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S20000x256.size a
  hwx5_1 : ∀ i : grid5.Coords, EltTy.bits .bf16 = 32 ∨ (Rect.block (s := S20000x256) S2000x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S20000x256.size a
  hwx5_5 : ∀ i : grid5.Coords, EltTy.bits .f32 = 32 ∨ (Rect.block (s := S20000x256) S2000x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S20000x256.size a
  hwx5_6 : ∀ i : grid5.Coords, EltTy.bits .bf16 = 32 ∨ (Rect.block (s := S20000x256) S2000x256.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S8000x256.size a
  hwx6_0 : ∀ i : grid6.Coords, EltTy.bits .f32 = 32 ∨ (Rect.block (s := S8000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S8000x256.size a
  hwx6_1 : ∀ i : grid6.Coords, EltTy.bits .bf16 = 32 ∨ (Rect.block (s := S8000x256) S2000x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256.size a ≤ S256.size a
  hwx6_3 : ∀ i : grid6.Coords, EltTy.bits .f32 = 32 ∨ (Rect.block (s := S256) S256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S8000x256.size a
  hwx6_5 : ∀ i : grid6.Coords, EltTy.bits .f32 = 32 ∨ (Rect.block (s := S8000x256) S2000x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S20000x256.size a
  hwx7_1 : ∀ i : grid7.Coords, EltTy.bits .bf16 = 32 ∨ (Rect.block (s := S20000x256) S2000x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256.size a ≤ S256.size a
  hwx7_3 : ∀ i : grid7.Coords, EltTy.bits .f32 = 32 ∨ (Rect.block (s := S256) S256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x256.size a ≤ S256x256.size a
  hwx7_4 : ∀ i : grid7.Coords, EltTy.bits .f32 = 32 ∨ (Rect.block (s := S256x256) S256x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S20000x256.size a
  hwx7_5 : ∀ i : grid7.Coords, EltTy.bits .f32 = 32 ∨ (Rect.block (s := S20000x256) S2000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x256.size a ≤ S200000x256.size a
  hwx8_0 : ∀ i : grid8.Coords, EltTy.bits .bf16 = 32 ∨ (Rect.block (s := S200000x256) S4000x256.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x256.size a ≤ S200000x256.size a
  hwx8_1 : ∀ i : grid8.Coords, EltTy.bits .bf16 = 32 ∨ (Rect.block (s := S200000x256) S4000x256.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S256x256.size a
  hwx8_2 : ∀ i : grid8.Coords, EltTy.bits .f32 = 32 ∨ (Rect.block (s := S256x256) S256x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .f32 = 32 ∨ (Rect.block (s := S256x256) S256x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256.size a ≤ S256.size a
  hwx8_4 : ∀ i : grid8.Coords, EltTy.bits .f32 = 32 ∨ (Rect.block (s := S256) S256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1.size a ≤ S1.size a
  hwx8_6 : ∀ i : grid8.Coords, EltTy.bits .f32 = 32 ∨ (Rect.block (s := S1) S1.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S4000x1.size a ≤ S200000x1.size a
  hwx8_7 : ∀ i : grid8.Coords, EltTy.bits .f32 = 32 ∨ (Rect.block (s := S200000x1) S4000x1.size (cc8_transform_7 i) (hinb8_7 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S8000x128_S640000x1_S640000x128_1_0_0_1 : ScatterDims S8000x128 S640000x1 S640000x128 where
  updateWindowDims := [1]
  insertedWindowDims := [0]
  scatterDimsToOperandDims := [0]
  indexVectorDim := 1
  wf := scatter_S8000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S8000x128_S640000x1_S640000x128_1_0_n_n_0_1_1128 : GatherDims S8000x128 S640000x1 S640000x128 where
  offsetDims := [1]
  collapsedSliceDims := [0]
  operandBatchingDims := []
  startIndicesBatchingDims := []
  startIndexMap := [0]
  indexVectorDim := 1
  sliceSizes := ![1, 128]
  wf := gather_S8000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S8000x256_S640000x1_S640000x256_1_0_0_1 : ScatterDims S8000x256 S640000x1 S640000x256 where
  updateWindowDims := [1]
  insertedWindowDims := [0]
  scatterDimsToOperandDims := [0]
  indexVectorDim := 1
  wf := scatter_S8000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S8000x256_S640000x1_S640000x256_1_0_n_n_0_1_1256 : GatherDims S8000x256 S640000x1 S640000x256 where
  offsetDims := [1]
  collapsedSliceDims := [0]
  operandBatchingDims := []
  startIndicesBatchingDims := []
  startIndexMap := [0]
  indexVectorDim := 1
  sliceSizes := ![1, 256]
  wf := gather_S8000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def gather_S8000x256_S200000x1_S200000x256_1_0_n_n_0_1_1256 : GatherDims S8000x256 S200000x1 S200000x256 where
  offsetDims := [1]
  collapsedSliceDims := [0]
  operandBatchingDims := []
  startIndicesBatchingDims := []
  startIndexMap := [0]
  indexVectorDim := 1
  sliceSizes := ![1, 256]
  wf := gather_S8000x256_S200000x1_S200000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v32_1) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21_1) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v43_1) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v53) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32_1) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v54_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v54_1) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v64) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43_1) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg17) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65_0) S2000x256.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v65_1) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v75) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v54_1) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg18) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg19) S256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg20) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v76) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v86) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v65_1) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg21) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg22) S256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg23) S256x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v87) S2000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v96) S4000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S4000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v104) S256x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg25) S256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v106) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg27) S1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v107) S4000x1.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S20000x128 : Shape := ⟨2, ![20000, 128]⟩
abbrev S8000x128 : Shape := ⟨2, ![8000, 128]⟩
abbrev S640000 : Shape := ⟨1, ![640000]⟩
abbrev S200000 : Shape := ⟨1, ![200000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S_ : Shape := ⟨0, ![]⟩
abbrev S640000x1 : Shape := ⟨2, ![640000, 1]⟩
abbrev S640000x128 : Shape := ⟨2, ![640000, 128]⟩
abbrev S8000x256 : Shape := ⟨2, ![8000, 256]⟩
abbrev S1x256 : Shape := ⟨2, ![1, 256]⟩
abbrev S20000x256 : Shape := ⟨2, ![20000, 256]⟩
abbrev S640000x256 : Shape := ⟨2, ![640000, 256]⟩
abbrev S200000x1 : Shape := ⟨2, ![200000, 1]⟩
abbrev S200000x256 : Shape := ⟨2, ![200000, 256]⟩
abbrev S200000x512 : Shape := ⟨2, ![200000, 512]⟩
abbrev S1x1 : Shape := ⟨2, ![1, 1]⟩

abbrev nBuf : Space → Nat
  | .hbm => 217
  | .vmem => 0
  | .smem => 0
  | _ => 0

abbrev hbmTy0_0 (i : Nat) : BufTy := match i % 128 with
  | 0 => ⟨S20000x128, .f32⟩
  | 1 => ⟨S8000x128, .f32⟩
  | 2 => ⟨S640000, .i32⟩
  | 3 => ⟨S640000, .i32⟩
  | 4 => ⟨S200000, .i32⟩
  | 5 => ⟨S200000, .i32⟩
  | 6 => ⟨S128x256, .f32⟩
  | 7 => ⟨S256, .f32⟩
  | 8 => ⟨S128x256, .f32⟩
  | 9 => ⟨S128x256, .f32⟩
  | 10 => ⟨S256, .f32⟩
  | 11 => ⟨S128x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x256, .f32⟩
  | 21 => ⟨S256x256, .f32⟩
  | 22 => ⟨S256, .f32⟩
  | 23 => ⟨S256x256, .f32⟩
  | 24 => ⟨S512x256, .f32⟩
  | 25 => ⟨S256, .f32⟩
  | 26 => ⟨S256x1, .f32⟩
  | 27 => ⟨S1, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S_, .f32⟩
  | 38 => ⟨S8000x128, .f32⟩
  | 39 => ⟨S640000x1, .i32⟩
  | 40 => ⟨S8000x128, .f32⟩
  | 41 => ⟨S8000x256, .f32⟩
  | 42 => ⟨S1x256, .f32⟩
  | 43 => ⟨S8000x256, .f32⟩
  | 44 => ⟨S8000x256, .f32⟩
  | 45 => ⟨S8000x256, .f32⟩
  | 46 => ⟨S8000x256, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x128, .f32⟩
  | 56 => ⟨S_, .f32⟩
  | 57 => ⟨S20000x128, .f32⟩
  | 58 => ⟨S640000x1, .i32⟩
  | 59 => ⟨S20000x128, .f32⟩
  | 60 => ⟨S20000x256, .f32⟩
  | 61 => ⟨S1x256, .f32⟩
  | 62 => ⟨S20000x256, .f32⟩
  | 63 => ⟨S20000x256, .f32⟩
  | 64 => ⟨S20000x256, .f32⟩
  | 65 => ⟨S20000x256, .f32⟩
  | 66 => ⟨S20000x256, .f32⟩
  | 67 => ⟨S8000x256, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x256, .f32⟩
  | 77 => ⟨S_, .f32⟩
  | 78 => ⟨S8000x256, .f32⟩
  | 79 => ⟨S640000x1, .i32⟩
  | 80 => ⟨S8000x256, .f32⟩
  | 81 => ⟨S8000x256, .f32⟩
  | 82 => ⟨S1x256, .f32⟩
  | 83 => ⟨S8000x256, .f32⟩
  | 84 => ⟨S8000x256, .f32⟩
  | 85 => ⟨S8000x256, .f32⟩
  | 86 => ⟨S8000x256, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000x256, .f32⟩
  | 96 => ⟨S_, .f32⟩
  | 97 => ⟨S20000x256, .f32⟩
  | 98 => ⟨S640000x1, .i32⟩
  | 99 => ⟨S20000x256, .f32⟩
  | 100 => ⟨S20000x256, .f32⟩
  | 101 => ⟨S1x256, .f32⟩
  | 102 => ⟨S20000x256, .f32⟩
  | 103 => ⟨S20000x256, .f32⟩
  | 104 => ⟨S20000x256, .f32⟩
  | 105 => ⟨S20000x256, .f32⟩
  | 106 => ⟨S20000x256, .f32⟩
  | 107 => ⟨S8000x256, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x256, .f32⟩
  | 117 => ⟨S_, .f32⟩
  | 118 => ⟨S8000x256, .f32⟩
  | 119 => ⟨S640000x1, .i32⟩
  | 120 => ⟨S8000x256, .f32⟩
  | 121 => ⟨S8000x256, .f32⟩
  | 122 => ⟨S1x256, .f32⟩
  | 123 => ⟨S8000x256, .f32⟩
  | 124 => ⟨S8000x256, .f32⟩
  | 125 => ⟨S8000x256, .f32⟩
  | 126 => ⟨S8000x256, .f32⟩
  | 127 => ⟨S_, .i32⟩
  | _ => ⟨S20000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x256, .f32⟩
  | 8 => ⟨S_, .f32⟩
  | 9 => ⟨S20000x256, .f32⟩
  | 10 => ⟨S640000x1, .i32⟩
  | 11 => ⟨S20000x256, .f32⟩
  | 12 => ⟨S20000x256, .f32⟩
  | 13 => ⟨S1x256, .f32⟩
  | 14 => ⟨S20000x256, .f32⟩
  | 15 => ⟨S20000x256, .f32⟩
  | 16 => ⟨S20000x256, .f32⟩
  | 17 => ⟨S20000x256, .f32⟩
  | 18 => ⟨S20000x256, .f32⟩
  | 19 => ⟨S8000x256, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x256, .f32⟩
  | 29 => ⟨S_, .f32⟩
  | 30 => ⟨S8000x256, .f32⟩
  | 31 => ⟨S640000x1, .i32⟩
  | 32 => ⟨S8000x256, .f32⟩
  | 33 => ⟨S8000x256, .f32⟩
  | 34 => ⟨S1x256, .f32⟩
  | 35 => ⟨S8000x256, .f32⟩
  | 36 => ⟨S8000x256, .f32⟩
  | 37 => ⟨S8000x256, .f32⟩
  | 38 => ⟨S8000x256, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x256, .f32⟩
  | 48 => ⟨S_, .f32⟩
  | 49 => ⟨S20000x256, .f32⟩
  | 50 => ⟨S640000x1, .i32⟩
  | 51 => ⟨S20000x256, .f32⟩
  | 52 => ⟨S20000x256, .f32⟩
  | 53 => ⟨S1x256, .f32⟩
  | 54 => ⟨S20000x256, .f32⟩
  | 55 => ⟨S20000x256, .f32⟩
  | 56 => ⟨S20000x256, .f32⟩
  | 57 => ⟨S20000x256, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S200000x256, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x256, .f32⟩
  | 76 => ⟨S200000x512, .f32⟩
  | 77 => ⟨S200000x256, .f32⟩
  | 78 => ⟨S1x256, .f32⟩
  | 79 => ⟨S200000x256, .f32⟩
  | 80 => ⟨S200000x256, .f32⟩
  | 81 => ⟨S_, .f32⟩
  | 82 => ⟨S200000x256, .f32⟩
  | 83 => ⟨S200000x256, .f32⟩
  | 84 => ⟨S200000x1, .f32⟩
  | 85 => ⟨S1x1, .f32⟩
  | 86 => ⟨S200000x1, .f32⟩
  | 87 => ⟨S200000x1, .f32⟩
  | 88 => ⟨S200000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_c_1 : Ref sig .tc := ⟨.hbm, 47, rfl⟩
abbrev main_v16 : Ref sig .tc := ⟨.hbm, 48, rfl⟩
abbrev main_v17 : Ref sig .tc := ⟨.hbm, 49, rfl⟩
abbrev main_c_2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_4 : Ref sig .tc := ⟨.hbm, 68, rfl⟩
abbrev main_v34 : Ref sig .tc := ⟨.hbm, 69, rfl⟩
abbrev main_v35 : Ref sig .tc := ⟨.hbm, 70, rfl⟩
abbrev main_c_5 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_6 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_7 : Ref sig .tc := ⟨.hbm, 87, rfl⟩
abbrev main_v50 : Ref sig .tc := ⟨.hbm, 88, rfl⟩
abbrev main_v51 : Ref sig .tc := ⟨.hbm, 89, rfl⟩
abbrev main_c_8 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_10 : Ref sig .tc := ⟨.hbm, 108, rfl⟩
abbrev main_v68 : Ref sig .tc := ⟨.hbm, 109, rfl⟩
abbrev main_v69 : Ref sig .tc := ⟨.hbm, 110, rfl⟩
abbrev main_c_11 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_12 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_13 : Ref sig .tc := ⟨.hbm, 127, rfl⟩
abbrev main_v84 : Ref sig .tc := ⟨.hbm, 128, rfl⟩
abbrev main_v85 : Ref sig .tc := ⟨.hbm, 129, rfl⟩
abbrev main_c_14 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_15 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_c_16 : Ref sig .tc := ⟨.hbm, 148, rfl⟩
abbrev main_v102 : Ref sig .tc := ⟨.hbm, 149, rfl⟩
abbrev main_v103 : Ref sig .tc := ⟨.hbm, 150, rfl⟩
abbrev main_c_17 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_18 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_19 : Ref sig .tc := ⟨.hbm, 167, rfl⟩
abbrev main_v118 : Ref sig .tc := ⟨.hbm, 168, rfl⟩
abbrev main_v119 : Ref sig .tc := ⟨.hbm, 169, rfl⟩
abbrev main_c_20 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_21 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_c_22 : Ref sig .tc := ⟨.hbm, 186, rfl⟩
abbrev main_v134 : Ref sig .tc := ⟨.hbm, 187, rfl⟩
abbrev main_v135 : Ref sig .tc := ⟨.hbm, 188, rfl⟩
abbrev main_c_23 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_c_24 : Ref sig .tc := ⟨.hbm, 195, rfl⟩
abbrev main_v141 : Ref sig .tc := ⟨.hbm, 196, rfl⟩
abbrev main_v142 : Ref sig .tc := ⟨.hbm, 197, rfl⟩
abbrev main_c_25 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_call0_cst : Ref sig .tc := ⟨.hbm, 209, rfl⟩
abbrev main_call0_v0 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S8000x128 : S_.BroadcastsInDim S8000x128 (![] : Fin 0 → Fin S8000x128.rank)
  bcast_S256_S1x256_1 : S256.BroadcastsInDim S1x256 (![1] : Fin 1 → Fin S1x256.rank)
  bcast_S1x256_S8000x256_0_1 : S1x256.BroadcastsInDim S8000x256 (![0, 1] : Fin 2 → Fin S8000x256.rank)
  bcast_S_S20000x128 : S_.BroadcastsInDim S20000x128 (![] : Fin 0 → Fin S20000x128.rank)
  bcast_S1x256_S20000x256_0_1 : S1x256.BroadcastsInDim S20000x256 (![0, 1] : Fin 2 → Fin S20000x256.rank)
  bcast_S_S8000x256 : S_.BroadcastsInDim S8000x256 (![] : Fin 0 → Fin S8000x256.rank)
  bcast_S_S20000x256 : S_.BroadcastsInDim S20000x256 (![] : Fin 0 → Fin S20000x256.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x512_d1 : Shape.Concatenates [S200000x256, S200000x256] S200000x512 1
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S20000x128_S640000x1_S640000x128_1_0_n_n_0_1_1128_wf : GatherDims.WF S20000x128 S640000x1 S640000x128 [1] [0] [] [0] [] 1 ![1, 128]
  scatter_S8000x128_S640000x1_S640000x128_1_0_0_1_wf : ScatterDims.WF S8000x128 S640000x1 S640000x128 [1] [0] [0] 1
  dot_S8000x128_S128x256_S8000x256_1_0_0_1_n_n_wf : DotDims.WF S8000x128 S128x256 S8000x256 [1] [0] [0] [1] [] []
  gather_S8000x128_S640000x1_S640000x128_1_0_n_n_0_1_1128_wf : GatherDims.WF S8000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x256_S20000x256_1_0_0_1_n_n_wf : DotDims.WF S20000x128 S128x256 S20000x256 [1] [0] [0] [1] [] []
  gather_S20000x256_S640000x1_S640000x256_1_0_n_n_0_1_1256_wf : GatherDims.WF S20000x256 S640000x1 S640000x256 [1] [0] [] [0] [] 1 ![1, 256]
  scatter_S8000x256_S640000x1_S640000x256_1_0_0_1_wf : ScatterDims.WF S8000x256 S640000x1 S640000x256 [1] [0] [0] 1
  dot_S8000x256_S256x256_S8000x256_1_0_0_1_n_n_wf : DotDims.WF S8000x256 S256x256 S8000x256 [1] [0] [0] [1] [] []
  gather_S8000x256_S640000x1_S640000x256_1_0_n_n_0_1_1256_wf : GatherDims.WF S8000x256 S640000x1 S640000x256 [1] [0] [] [0] [] 1 ![1, 256]
  scatter_S20000x256_S640000x1_S640000x256_1_0_0_1_wf : ScatterDims.WF S20000x256 S640000x1 S640000x256 [1] [0] [0] 1
  dot_S20000x256_S256x256_S20000x256_1_0_0_1_n_n_wf : DotDims.WF S20000x256 S256x256 S20000x256 [1] [0] [0] [1] [] []
  gather_S20000x256_S200000x1_S200000x256_1_0_n_n_0_1_1256_wf : GatherDims.WF S20000x256 S200000x1 S200000x256 [1] [0] [] [0] [] 1 ![1, 256]
  gather_S8000x256_S200000x1_S200000x256_1_0_n_n_0_1_1256_wf : GatherDims.WF S8000x256 S200000x1 S200000x256 [1] [0] [] [0] [] 1 ![1, 256]
  dot_S200000x512_S512x256_S200000x256_1_0_0_1_n_n_wf : DotDims.WF S200000x512 S512x256 S200000x256 [1] [0] [0] [1] [] []
  dot_S200000x256_S256x1_S200000x1_1_0_0_1_n_n_wf : DotDims.WF S200000x256 S256x1 S200000x1 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S8000x128_S640000x1_S640000x128_1_0_0_1 : ScatterDims S8000x128 S640000x1 S640000x128 where
  updateWindowDims := [1]
  insertedWindowDims := [0]
  scatterDimsToOperandDims := [0]
  indexVectorDim := 1
  wf := scatter_S8000x128_S640000x1_S640000x128_1_0_0_1_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def gather_S8000x128_S640000x1_S640000x128_1_0_n_n_0_1_1128 : GatherDims S8000x128 S640000x1 S640000x128 where
  offsetDims := [1]
  collapsedSliceDims := [0]
  operandBatchingDims := []
  startIndicesBatchingDims := []
  startIndexMap := [0]
  indexVectorDim := 1
  sliceSizes := ![1, 128]
  wf := gather_S8000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S8000x256_S640000x1_S640000x256_1_0_0_1 : ScatterDims S8000x256 S640000x1 S640000x256 where
  updateWindowDims := [1]
  insertedWindowDims := [0]
  scatterDimsToOperandDims := [0]
  indexVectorDim := 1
  wf := scatter_S8000x256_S640000x1_S640000x256_1_0_0_1_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def gather_S8000x256_S640000x1_S640000x256_1_0_n_n_0_1_1256 : GatherDims S8000x256 S640000x1 S640000x256 where
  offsetDims := [1]
  collapsedSliceDims := [0]
  operandBatchingDims := []
  startIndicesBatchingDims := []
  startIndexMap := [0]
  indexVectorDim := 1
  sliceSizes := ![1, 256]
  wf := gather_S8000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def gather_S8000x256_S200000x1_S200000x256_1_0_n_n_0_1_1256 : GatherDims S8000x256 S200000x1 S200000x256 where
  offsetDims := [1]
  collapsedSliceDims := [0]
  operandBatchingDims := []
  startIndicesBatchingDims := []
  startIndexMap := [0]
  indexVectorDim := 1
  sliceSizes := ![1, 256]
  wf := gather_S8000x256_S200000x1_S200000x256_1_0_n_n_0_1_1256_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KernelRun.lean ====
/-
  The idealized kernel's whole run, with its three results named.

  The program is nineteen segments: ten stretches of host operations and, between them, nine pipelined regions.
  The generated frame certificate follows the TensorCore's buffer contents through the segments as a fold `W0 … W19`
  from the launch memory, and concludes only that the arguments end as launched. The same run says more: every
  unscoped buffer ends at the last boundary's contents `W19`. Stated here for the three result buffers — the drug
  embeddings, the protein embeddings and the edge scores — beside the unchanged arguments.
-/
import proofs.«151185_j10496900071610_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the three result buffers end at the last
    boundary's contents and the arguments as launched. -/
theorem run_results : θ_run defs (onTc (τ := τ) (main (F := F))) ⟨m, fun _ => 0, ρ⟩ (fun r => ∀ c : Dev nD,
      r.2.mem ((c.tc : Thread nD τ).loc main_v87) = W19 m ρ c (Proc.devRef .tc main_v87)
      ∧ r.2.mem ((c.tc : Thread nD τ).loc main_v76) = W19 m ρ c (Proc.devRef .tc main_v76)
      ∧ r.2.mem ((c.tc : Thread nD τ).loc main_v108) = W19 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v87 (by decide)),
       h c _ (mem_uc main_v76 (by decide)),
       h c _ (mem_uc main_v108 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c),
       (h c _ (mem_uc main_arg19 (by decide))).trans (W19_main_arg19 m ρ c),
       (h c _ (mem_uc main_arg20 (by decide))).trans (W19_main_arg20 m ρ c),
       (h c _ (mem_uc main_arg21 (by decide))).trans (W19_main_arg21 m ρ c),
       (h c _ (mem_uc main_arg22 (by decide))).trans (W19_main_arg22 m ρ c),
       (h c _ (mem_uc main_arg23 (by decide))).trans (W19_main_arg23 m ρ c),
       (h c _ (mem_uc main_arg24 (by decide))).trans (W19_main_arg24 m ρ c),
       (h c _ (mem_uc main_arg25 (by decide))).trans (W19_main_arg25 m ρ c),
       (h c _ (mem_uc main_arg26 (by decide))).trans (W19_main_arg26 m ρ c),
       (h c _ (mem_uc main_arg27 (by decide))).trans (W19_main_arg27 m ρ c)⟩)

end Cert.KernelIdeal.Fold

end
-- ==== Proof.Keep.lean ====
/-
  What the segments leave alone.

  The run's buffer contents are a fold `W0 … W19` through nineteen segments. A host stretch writes only the buffers
  of its own operations; a region writes only its output windows and leaves its input arrays as it found them. So
  every argument of the program, and every layer's result until the last segment that reads it, is unchanged across
  each segment: one lemma per segment, over the list of buffers that matter there, and from them each argument read
  back to the launch memory at every boundary and each layer's result carried to where it is used.
-/
import proofs.«151185_j10496900071610_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The program's twenty-eight arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

set_option maxHeartbeats 1000000 in
/-- Segment 1 (host stretch 0) leaves these buffers as it found them. -/
theorem keep_h0 (c : Dev nD) : ∀ b ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W1 m ρ c (Proc.devRef .tc b) = W0 m ρ c (Proc.devRef .tc b) := by
  intro b hb
  fin_cases hb
  all_goals exact StableHlo.after_of_forall_not_mem _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 2 (region 0) leaves these buffers as it found them. -/
theorem keep_r0 (c : Dev nD) : ∀ b ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W2 m ρ c (Proc.devRef .tc b) = W1 m ρ c (Proc.devRef .tc b) := by
  intro b hb
  fin_cases hb
  · exact W2_of_ne m ρ c main_arg0 (by decide)
  · exact (W2_arr m ρ c 1).trans (((dat0 (V1 m ρ) c).arrAt_in 1 rfl _).trans (A_eq0 (V1 m ρ) c 1))
  · exact W2_of_ne m ρ c main_arg2 (by decide)
  · exact W2_of_ne m ρ c main_arg3 (by decide)
  · exact W2_of_ne m ρ c main_arg4 (by decide)
  · exact W2_of_ne m ρ c main_arg5 (by decide)
  · exact (W2_arr m ρ c 2).trans (((dat0 (V1 m ρ) c).arrAt_in 2 rfl _).trans (A_eq0 (V1 m ρ) c 2))
  · exact (W2_arr m ρ c 3).trans (((dat0 (V1 m ρ) c).arrAt_in 3 rfl _).trans (A_eq0 (V1 m ρ) c 3))
  · exact (W2_arr m ρ c 4).trans (((dat0 (V1 m ρ) c).arrAt_in 4 rfl _).trans (A_eq0 (V1 m ρ) c 4))
  · exact W2_of_ne m ρ c main_arg9 (by decide)
  · exact W2_of_ne m ρ c main_arg10 (by decide)
  · exact W2_of_ne m ρ c main_arg11 (by decide)
  · exact W2_of_ne m ρ c main_arg12 (by decide)
  · exact W2_of_ne m ρ c main_arg13 (by decide)
  · exact W2_of_ne m ρ c main_arg14 (by decide)
  · exact W2_of_ne m ρ c main_arg15 (by decide)
  · exact W2_of_ne m ρ c main_arg16 (by decide)
  · exact W2_of_ne m ρ c main_arg17 (by decide)
  · exact W2_of_ne m ρ c main_arg18 (by decide)
  · exact W2_of_ne m ρ c main_arg19 (by decide)
  · exact W2_of_ne m ρ c main_arg20 (by decide)
  · exact W2_of_ne m ρ c main_arg21 (by decide)
  · exact W2_of_ne m ρ c main_arg22 (by decide)
  · exact W2_of_ne m ρ c main_arg23 (by decide)
  · exact W2_of_ne m ρ c main_arg24 (by decide)
  · exact W2_of_ne m ρ c main_arg25 (by decide)
  · exact W2_of_ne m ρ c main_arg26 (by decide)
  · exact W2_of_ne m ρ c main_arg27 (by decide)

set_option maxHeartbeats 1000000 in
/-- Segment 3 (host stretch 1) leaves these buffers as it found them. -/
theorem keep_h1 (c : Dev nD) : ∀ b ∈ ([main_v10_0, main_v10_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W3 m ρ c (Proc.devRef .tc b) = W2 m ρ c (Proc.devRef .tc b) := by
  intro b hb
  fin_cases hb
  all_goals exact StableHlo.after_of_forall_not_mem _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 4 (region 1) leaves these buffers as it found them. -/
theorem keep_r1 (c : Dev nD) : ∀ b ∈ ([main_v10_0, main_v10_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W4 m ρ c (Proc.devRef .tc b) = W3 m ρ c (Proc.devRef .tc b) := by
  intro b hb
  fin_cases hb
  · exact W4_of_ne m ρ c main_v10_0 (by decide)
  · exact W4_of_ne m ρ c main_v10_1 (by decide)
  · exact (W4_arr m ρ c 1).trans (((dat1 (V3 m ρ) c).arrAt_in 1 rfl _).trans (A_eq1 (V3 m ρ) c 1))
  · exact W4_of_ne m ρ c main_arg1 (by decide)
  · exact W4_of_ne m ρ c main_arg2 (by decide)
  · exact W4_of_ne m ρ c main_arg3 (by decide)
  · exact W4_of_ne m ρ c main_arg4 (by decide)
  · exact W4_of_ne m ρ c main_arg5 (by decide)
  · exact W4_of_ne m ρ c main_arg6 (by decide)
  · exact W4_of_ne m ρ c main_arg7 (by decide)
  · exact W4_of_ne m ρ c main_arg8 (by decide)
  · exact (W4_arr m ρ c 2).trans (((dat1 (V3 m ρ) c).arrAt_in 2 rfl _).trans (A_eq1 (V3 m ρ) c 2))
  · exact (W4_arr m ρ c 3).trans (((dat1 (V3 m ρ) c).arrAt_in 3 rfl _).trans (A_eq1 (V3 m ρ) c 3))
  · exact (W4_arr m ρ c 4).trans (((dat1 (V3 m ρ) c).arrAt_in 4 rfl _).trans (A_eq1 (V3 m ρ) c 4))
  · exact W4_of_ne m ρ c main_arg12 (by decide)
  · exact W4_of_ne m ρ c main_arg13 (by decide)
  · exact W4_of_ne m ρ c main_arg14 (by decide)
  · exact W4_of_ne m ρ c main_arg15 (by decide)
  · exact W4_of_ne m ρ c main_arg16 (by decide)
  · exact W4_of_ne m ρ c main_arg17 (by decide)
  · exact W4_of_ne m ρ c main_arg18 (by decide)
  · exact W4_of_ne m ρ c main_arg19 (by decide)
  · exact W4_of_ne m ρ c main_arg20 (by decide)
  · exact W4_of_ne m ρ c main_arg21 (by decide)
  · exact W4_of_ne m ρ c main_arg22 (by decide)
  · exact W4_of_ne m ρ c main_arg23 (by decide)
  · exact W4_of_ne m ρ c main_arg24 (by decide)
  · exact W4_of_ne m ρ c main_arg25 (by decide)
  · exact W4_of_ne m ρ c main_arg26 (by decide)
  · exact W4_of_ne m ρ c main_arg27 (by decide)

set_option maxHeartbeats 1000000 in
/-- Segment 5 (host stretch 2) leaves these buffers as it found them. -/
theorem keep_h2 (c : Dev nD) : ∀ b ∈ ([main_v10_0, main_v10_1, main_v21_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W5 m ρ c (Proc.devRef .tc b) = W4 m ρ c (Proc.devRef .tc b) := by
  intro b hb
  fin_cases hb
  all_goals exact StableHlo.after_of_forall_not_mem _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 6 (region 2) leaves these buffers as it found them. -/
theorem keep_r2 (c : Dev nD) : ∀ b ∈ ([main_v10_0, main_v21_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W6 m ρ c (Proc.devRef .tc b) = W5 m ρ c (Proc.devRef .tc b) := by
  intro b hb
  fin_cases hb
  · exact W6_of_ne m ρ c main_v10_0 (by decide)
  · exact W6_of_ne m ρ c main_v21_1 (by decide)
  · exact W6_of_ne m ρ c main_arg0 (by decide)
  · exact W6_of_ne m ρ c main_arg1 (by decide)
  · exact W6_of_ne m ρ c main_arg2 (by decide)
  · exact W6_of_ne m ρ c main_arg3 (by decide)
  · exact W6_of_ne m ρ c main_arg4 (by decide)
  · exact W6_of_ne m ρ c main_arg5 (by decide)
  · exact W6_of_ne m ρ c main_arg6 (by decide)
  · exact W6_of_ne m ρ c main_arg7 (by decide)
  · exact W6_of_ne m ρ c main_arg8 (by decide)
  · exact W6_of_ne m ρ c main_arg9 (by decide)
  · exact W6_of_ne m ρ c main_arg10 (by decide)
  · exact W6_of_ne m ρ c main_arg11 (by decide)
  · exact (W6_arr m ρ c 2).trans (((dat2 (V5 m ρ) c).arrAt_in 2 rfl _).trans (A_eq2 (V5 m ρ) c 2))
  · exact (W6_arr m ρ c 3).trans (((dat2 (V5 m ρ) c).arrAt_in 3 rfl _).trans (A_eq2 (V5 m ρ) c 3))
  · exact (W6_arr m ρ c 4).trans (((dat2 (V5 m ρ) c).arrAt_in 4 rfl _).trans (A_eq2 (V5 m ρ) c 4))
  · exact W6_of_ne m ρ c main_arg15 (by decide)
  · exact W6_of_ne m ρ c main_arg16 (by decide)
  · exact W6_of_ne m ρ c main_arg17 (by decide)
  · exact W6_of_ne m ρ c main_arg18 (by decide)
  · exact W6_of_ne m ρ c main_arg19 (by decide)
  · exact W6_of_ne m ρ c main_arg20 (by decide)
  · exact W6_of_ne m ρ c main_arg21 (by decide)
  · exact W6_of_ne m ρ c main_arg22 (by decide)
  · exact W6_of_ne m ρ c main_arg23 (by decide)
  · exact W6_of_ne m ρ c main_arg24 (by decide)
  · exact W6_of_ne m ρ c main_arg25 (by decide)
  · exact W6_of_ne m ρ c main_arg26 (by decide)
  · exact W6_of_ne m ρ c main_arg27 (by decide)

set_option maxHeartbeats 1000000 in
/-- Segment 7 (host stretch 3) leaves these buffers as it found them. -/
theorem keep_h3 (c : Dev nD) : ∀ b ∈ ([main_v21_1, main_v32_0, main_v32_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W7 m ρ c (Proc.devRef .tc b) = W6 m ρ c (Proc.devRef .tc b) := by
  intro b hb
  fin_cases hb
  all_goals exact StableHlo.after_of_forall_not_mem _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 8 (region 3) leaves these buffers as it found them. -/
theorem keep_r3 (c : Dev nD) : ∀ b ∈ ([main_v32_0, main_v32_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W8 m ρ c (Proc.devRef .tc b) = W7 m ρ c (Proc.devRef .tc b) := by
  intro b hb
  fin_cases hb
  · exact W8_of_ne m ρ c main_v32_0 (by decide)
  · exact W8_of_ne m ρ c main_v32_1 (by decide)
  · exact W8_of_ne m ρ c main_arg0 (by decide)
  · exact W8_of_ne m ρ c main_arg1 (by decide)
  · exact W8_of_ne m ρ c main_arg2 (by decide)
  · exact W8_of_ne m ρ c main_arg3 (by decide)
  · exact W8_of_ne m ρ c main_arg4 (by decide)
  · exact W8_of_ne m ρ c main_arg5 (by decide)
  · exact W8_of_ne m ρ c main_arg6 (by decide)
  · exact W8_of_ne m ρ c main_arg7 (by decide)
  · exact W8_of_ne m ρ c main_arg8 (by decide)
  · exact W8_of_ne m ρ c main_arg9 (by decide)
  · exact W8_of_ne m ρ c main_arg10 (by decide)
  · exact W8_of_ne m ρ c main_arg11 (by decide)
  · exact W8_of_ne m ρ c main_arg12 (by decide)
  · exact W8_of_ne m ρ c main_arg13 (by decide)
  · exact W8_of_ne m ρ c main_arg14 (by decide)
  · exact (W8_arr m ρ c 2).trans (((dat3 (V7 m ρ) c).arrAt_in 2 rfl _).trans (A_eq3 (V7 m ρ) c 2))
  · exact (W8_arr m ρ c 3).trans (((dat3 (V7 m ρ) c).arrAt_in 3 rfl _).trans (A_eq3 (V7 m ρ) c 3))
  · exact (W8_arr m ρ c 4).trans (((dat3 (V7 m ρ) c).arrAt_in 4 rfl _).trans (A_eq3 (V7 m ρ) c 4))
  · exact W8_of_ne m ρ c main_arg18 (by decide)
  · exact W8_of_ne m ρ c main_arg19 (by decide)
  · exact W8_of_ne m ρ c main_arg20 (by decide)
  · exact W8_of_ne m ρ c main_arg21 (by decide)
  · exact W8_of_ne m ρ c main_arg22 (by decide)
  · exact W8_of_ne m ρ c main_arg23 (by decide)
  · exact W8_of_ne m ρ c main_arg24 (by decide)
  · exact W8_of_ne m ρ c main_arg25 (by decide)
  · exact W8_of_ne m ρ c main_arg26 (by decide)
  · exact W8_of_ne m ρ c main_arg27 (by decide)

set_option maxHeartbeats 1000000 in
/-- Segment 9 (host stretch 4) leaves these buffers as it found them. -/
theorem keep_h4 (c : Dev nD) : ∀ b ∈ ([main_v32_0, main_v32_1, main_v43_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W9 m ρ c (Proc.devRef .tc b) = W8 m ρ c (Proc.devRef .tc b) := by
  intro b hb
  fin_cases hb
  all_goals exact StableHlo.after_of_forall_not_mem _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 10 (region 4) leaves these buffers as it found them. -/
theorem keep_r4 (c : Dev nD) : ∀ b ∈ ([main_v32_0, main_v43_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W10 m ρ c (Proc.devRef .tc b) = W9 m ρ c (Proc.devRef .tc b) := by
  intro b hb
  fin_cases hb
  · exact W10_of_ne m ρ c main_v32_0 (by decide)
  · exact W10_of_ne m ρ c main_v43_1 (by decide)
  · exact W10_of_ne m ρ c main_arg0 (by decide)
  · exact W10_of_ne m ρ c main_arg1 (by decide)
  · exact W10_of_ne m ρ c main_arg2 (by decide)
  · exact W10_of_ne m ρ c main_arg3 (by decide)
  · exact W10_of_ne m ρ c main_arg4 (by decide)
  · exact W10_of_ne m ρ c main_arg5 (by decide)
  · exact W10_of_ne m ρ c main_arg6 (by decide)
  · exact W10_of_ne m ρ c main_arg7 (by decide)
  · exact W10_of_ne m ρ c main_arg8 (by decide)
  · exact W10_of_ne m ρ c main_arg9 (by decide)
  · exact W10_of_ne m ρ c main_arg10 (by decide)
  · exact W10_of_ne m ρ c main_arg11 (by decide)
  · exact (W10_arr m ρ c 2).trans (((dat4 (V9 m ρ) c).arrAt_in 2 rfl _).trans (A_eq4 (V9 m ρ) c 2))
  · exact (W10_arr m ρ c 3).trans (((dat4 (V9 m ρ) c).arrAt_in 3 rfl _).trans (A_eq4 (V9 m ρ) c 3))
  · exact (W10_arr m ρ c 4).trans (((dat4 (V9 m ρ) c).arrAt_in 4 rfl _).trans (A_eq4 (V9 m ρ) c 4))
  · exact W10_of_ne m ρ c main_arg15 (by decide)
  · exact W10_of_ne m ρ c main_arg16 (by decide)
  · exact W10_of_ne m ρ c main_arg17 (by decide)
  · exact W10_of_ne m ρ c main_arg18 (by decide)
  · exact W10_of_ne m ρ c main_arg19 (by decide)
  · exact W10_of_ne m ρ c main_arg20 (by decide)
  · exact W10_of_ne m ρ c main_arg21 (by decide)
  · exact W10_of_ne m ρ c main_arg22 (by decide)
  · exact W10_of_ne m ρ c main_arg23 (by decide)
  · exact W10_of_ne m ρ c main_arg24 (by decide)
  · exact W10_of_ne m ρ c main_arg25 (by decide)
  · exact W10_of_ne m ρ c main_arg26 (by decide)
  · exact W10_of_ne m ρ c main_arg27 (by decide)

set_option maxHeartbeats 1000000 in
/-- Segment 11 (host stretch 5) leaves these buffers as it found them. -/
theorem keep_h5 (c : Dev nD) : ∀ b ∈ ([main_v43_1, main_v54_0, main_v54_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W11 m ρ c (Proc.devRef .tc b) = W10 m ρ c (Proc.devRef .tc b) := by
  intro b hb
  fin_cases hb
  all_goals exact StableHlo.after_of_forall_not_mem _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 12 (region 5) leaves these buffers as it found them. -/
theorem keep_r5 (c : Dev nD) : ∀ b ∈ ([main_v54_0, main_v54_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W12 m ρ c (Proc.devRef .tc b) = W11 m ρ c (Proc.devRef .tc b) := by
  intro b hb
  fin_cases hb
  · exact W12_of_ne m ρ c main_v54_0 (by decide)
  · exact W12_of_ne m ρ c main_v54_1 (by decide)
  · exact W12_of_ne m ρ c main_arg0 (by decide)
  · exact W12_of_ne m ρ c main_arg1 (by decide)
  · exact W12_of_ne m ρ c main_arg2 (by decide)
  · exact W12_of_ne m ρ c main_arg3 (by decide)
  · exact W12_of_ne m ρ c main_arg4 (by decide)
  · exact W12_of_ne m ρ c main_arg5 (by decide)
  · exact W12_of_ne m ρ c main_arg6 (by decide)
  · exact W12_of_ne m ρ c main_arg7 (by decide)
  · exact W12_of_ne m ρ c main_arg8 (by decide)
  · exact W12_of_ne m ρ c main_arg9 (by decide)
  · exact W12_of_ne m ρ c main_arg10 (by decide)
  · exact W12_of_ne m ρ c main_arg11 (by decide)
  · exact W12_of_ne m ρ c main_arg12 (by decide)
  · exact W12_of_ne m ρ c main_arg13 (by decide)
  · exact W12_of_ne m ρ c main_arg14 (by decide)
  · exact (W12_arr m ρ c 2).trans (((dat5 (V11 m ρ) c).arrAt_in 2 rfl _).trans (A_eq5 (V11 m ρ) c 2))
  · exact (W12_arr m ρ c 3).trans (((dat5 (V11 m ρ) c).arrAt_in 3 rfl _).trans (A_eq5 (V11 m ρ) c 3))
  · exact (W12_arr m ρ c 4).trans (((dat5 (V11 m ρ) c).arrAt_in 4 rfl _).trans (A_eq5 (V11 m ρ) c 4))
  · exact W12_of_ne m ρ c main_arg18 (by decide)
  · exact W12_of_ne m ρ c main_arg19 (by decide)
  · exact W12_of_ne m ρ c main_arg20 (by decide)
  · exact W12_of_ne m ρ c main_arg21 (by decide)
  · exact W12_of_ne m ρ c main_arg22 (by decide)
  · exact W12_of_ne m ρ c main_arg23 (by decide)
  · exact W12_of_ne m ρ c main_arg24 (by decide)
  · exact W12_of_ne m ρ c main_arg25 (by decide)
  · exact W12_of_ne m ρ c main_arg26 (by decide)
  · exact W12_of_ne m ρ c main_arg27 (by decide)

set_option maxHeartbeats 1000000 in
/-- Segment 13 (host stretch 6) leaves these buffers as it found them. -/
theorem keep_h6 (c : Dev nD) : ∀ b ∈ ([main_v54_0, main_v54_1, main_v65_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W13 m ρ c (Proc.devRef .tc b) = W12 m ρ c (Proc.devRef .tc b) := by
  intro b hb
  fin_cases hb
  all_goals exact StableHlo.after_of_forall_not_mem _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 14 (region 6) leaves these buffers as it found them. -/
theorem keep_r6 (c : Dev nD) : ∀ b ∈ ([main_v54_0, main_v65_1, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W14 m ρ c (Proc.devRef .tc b) = W13 m ρ c (Proc.devRef .tc b) := by
  intro b hb
  fin_cases hb
  · exact W14_of_ne m ρ c main_v54_0 (by decide)
  · exact W14_of_ne m ρ c main_v65_1 (by decide)
  · exact W14_of_ne m ρ c main_arg0 (by decide)
  · exact W14_of_ne m ρ c main_arg1 (by decide)
  · exact W14_of_ne m ρ c main_arg2 (by decide)
  · exact W14_of_ne m ρ c main_arg3 (by decide)
  · exact W14_of_ne m ρ c main_arg4 (by decide)
  · exact W14_of_ne m ρ c main_arg5 (by decide)
  · exact W14_of_ne m ρ c main_arg6 (by decide)
  · exact W14_of_ne m ρ c main_arg7 (by decide)
  · exact W14_of_ne m ρ c main_arg8 (by decide)
  · exact W14_of_ne m ρ c main_arg9 (by decide)
  · exact W14_of_ne m ρ c main_arg10 (by decide)
  · exact W14_of_ne m ρ c main_arg11 (by decide)
  · exact W14_of_ne m ρ c main_arg12 (by decide)
  · exact W14_of_ne m ρ c main_arg13 (by decide)
  · exact W14_of_ne m ρ c main_arg14 (by decide)
  · exact W14_of_ne m ρ c main_arg15 (by decide)
  · exact W14_of_ne m ρ c main_arg16 (by decide)
  · exact W14_of_ne m ρ c main_arg17 (by decide)
  · exact (W14_arr m ρ c 2).trans (((dat6 (V13 m ρ) c).arrAt_in 2 rfl _).trans (A_eq6 (V13 m ρ) c 2))
  · exact (W14_arr m ρ c 3).trans (((dat6 (V13 m ρ) c).arrAt_in 3 rfl _).trans (A_eq6 (V13 m ρ) c 3))
  · exact (W14_arr m ρ c 4).trans (((dat6 (V13 m ρ) c).arrAt_in 4 rfl _).trans (A_eq6 (V13 m ρ) c 4))
  · exact W14_of_ne m ρ c main_arg21 (by decide)
  · exact W14_of_ne m ρ c main_arg22 (by decide)
  · exact W14_of_ne m ρ c main_arg23 (by decide)
  · exact W14_of_ne m ρ c main_arg24 (by decide)
  · exact W14_of_ne m ρ c main_arg25 (by decide)
  · exact W14_of_ne m ρ c main_arg26 (by decide)
  · exact W14_of_ne m ρ c main_arg27 (by decide)

set_option maxHeartbeats 1000000 in
/-- Segment 15 (host stretch 7) leaves these buffers as it found them. -/
theorem keep_h7 (c : Dev nD) : ∀ b ∈ ([main_v65_1, main_v76, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W15 m ρ c (Proc.devRef .tc b) = W14 m ρ c (Proc.devRef .tc b) := by
  intro b hb
  fin_cases hb
  all_goals exact StableHlo.after_of_forall_not_mem _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 16 (region 7) leaves these buffers as it found them. -/
theorem keep_r7 (c : Dev nD) : ∀ b ∈ ([main_v76, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W16 m ρ c (Proc.devRef .tc b) = W15 m ρ c (Proc.devRef .tc b) := by
  intro b hb
  fin_cases hb
  · exact W16_of_ne m ρ c main_v76 (by decide)
  · exact W16_of_ne m ρ c main_arg0 (by decide)
  · exact W16_of_ne m ρ c main_arg1 (by decide)
  · exact W16_of_ne m ρ c main_arg2 (by decide)
  · exact W16_of_ne m ρ c main_arg3 (by decide)
  · exact W16_of_ne m ρ c main_arg4 (by decide)
  · exact W16_of_ne m ρ c main_arg5 (by decide)
  · exact W16_of_ne m ρ c main_arg6 (by decide)
  · exact W16_of_ne m ρ c main_arg7 (by decide)
  · exact W16_of_ne m ρ c main_arg8 (by decide)
  · exact W16_of_ne m ρ c main_arg9 (by decide)
  · exact W16_of_ne m ρ c main_arg10 (by decide)
  · exact W16_of_ne m ρ c main_arg11 (by decide)
  · exact W16_of_ne m ρ c main_arg12 (by decide)
  · exact W16_of_ne m ρ c main_arg13 (by decide)
  · exact W16_of_ne m ρ c main_arg14 (by decide)
  · exact W16_of_ne m ρ c main_arg15 (by decide)
  · exact W16_of_ne m ρ c main_arg16 (by decide)
  · exact W16_of_ne m ρ c main_arg17 (by decide)
  · exact W16_of_ne m ρ c main_arg18 (by decide)
  · exact W16_of_ne m ρ c main_arg19 (by decide)
  · exact W16_of_ne m ρ c main_arg20 (by decide)
  · exact (W16_arr m ρ c 2).trans (((dat7 (V15 m ρ) c).arrAt_in 2 rfl _).trans (A_eq7 (V15 m ρ) c 2))
  · exact (W16_arr m ρ c 3).trans (((dat7 (V15 m ρ) c).arrAt_in 3 rfl _).trans (A_eq7 (V15 m ρ) c 3))
  · exact (W16_arr m ρ c 4).trans (((dat7 (V15 m ρ) c).arrAt_in 4 rfl _).trans (A_eq7 (V15 m ρ) c 4))
  · exact W16_of_ne m ρ c main_arg24 (by decide)
  · exact W16_of_ne m ρ c main_arg25 (by decide)
  · exact W16_of_ne m ρ c main_arg26 (by decide)
  · exact W16_of_ne m ρ c main_arg27 (by decide)

set_option maxHeartbeats 1000000 in
/-- Segment 17 (host stretch 8) leaves these buffers as it found them. -/
theorem keep_h8 (c : Dev nD) : ∀ b ∈ ([main_v76, main_v87, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W17 m ρ c (Proc.devRef .tc b) = W16 m ρ c (Proc.devRef .tc b) := by
  intro b hb
  fin_cases hb
  all_goals exact StableHlo.after_of_forall_not_mem _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- Segment 18 (region 8) leaves these buffers as it found them. -/
theorem keep_r8 (c : Dev nD) : ∀ b ∈ ([main_v76, main_v87, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W18 m ρ c (Proc.devRef .tc b) = W17 m ρ c (Proc.devRef .tc b) := by
  intro b hb
  fin_cases hb
  · exact W18_of_ne m ρ c main_v76 (by decide)
  · exact W18_of_ne m ρ c main_v87 (by decide)
  · exact W18_of_ne m ρ c main_arg0 (by decide)
  · exact W18_of_ne m ρ c main_arg1 (by decide)
  · exact W18_of_ne m ρ c main_arg2 (by decide)
  · exact W18_of_ne m ρ c main_arg3 (by decide)
  · exact W18_of_ne m ρ c main_arg4 (by decide)
  · exact W18_of_ne m ρ c main_arg5 (by decide)
  · exact W18_of_ne m ρ c main_arg6 (by decide)
  · exact W18_of_ne m ρ c main_arg7 (by decide)
  · exact W18_of_ne m ρ c main_arg8 (by decide)
  · exact W18_of_ne m ρ c main_arg9 (by decide)
  · exact W18_of_ne m ρ c main_arg10 (by decide)
  · exact W18_of_ne m ρ c main_arg11 (by decide)
  · exact W18_of_ne m ρ c main_arg12 (by decide)
  · exact W18_of_ne m ρ c main_arg13 (by decide)
  · exact W18_of_ne m ρ c main_arg14 (by decide)
  · exact W18_of_ne m ρ c main_arg15 (by decide)
  · exact W18_of_ne m ρ c main_arg16 (by decide)
  · exact W18_of_ne m ρ c main_arg17 (by decide)
  · exact W18_of_ne m ρ c main_arg18 (by decide)
  · exact W18_of_ne m ρ c main_arg19 (by decide)
  · exact W18_of_ne m ρ c main_arg20 (by decide)
  · exact W18_of_ne m ρ c main_arg21 (by decide)
  · exact W18_of_ne m ρ c main_arg22 (by decide)
  · exact W18_of_ne m ρ c main_arg23 (by decide)
  · exact W18_of_ne m ρ c main_arg24 (by decide)
  · exact (W18_arr m ρ c 4).trans (((dat8 (V17 m ρ) c).arrAt_in 4 rfl _).trans (A_eq8 (V17 m ρ) c 4))
  · exact W18_of_ne m ρ c main_arg26 (by decide)
  · exact (W18_arr m ρ c 6).trans (((dat8 (V17 m ρ) c).arrAt_in 6 rfl _).trans (A_eq8 (V17 m ρ) c 6))

set_option maxHeartbeats 1000000 in
/-- Segment 19 (host stretch 9) leaves these buffers as it found them. -/
theorem keep_h9 (c : Dev nD) : ∀ b ∈ ([main_v76, main_v87, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27] : List (Ref sig .tc)),
    W19 m ρ c (Proc.devRef .tc b) = W18 m ρ c (Proc.devRef .tc b) := by
  intro b hb
  fin_cases hb
  all_goals exact StableHlo.after_of_forall_not_mem _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Every argument, read back to the launch memory at each boundary -/

theorem argsAt0 (c : Dev nD) : ∀ b ∈ argRefs, W0 m ρ c (Proc.devRef .tc b) = m ((c : Thread nD τ).loc b) := fun _ _ => rfl
theorem argsAt1 (c : Dev nD) : ∀ b ∈ argRefs, W1 m ρ c (Proc.devRef .tc b) = m ((c : Thread nD τ).loc b) :=
  fun b hb => (keep_h0 m ρ c b hb).trans (argsAt0 m ρ c b hb)
theorem argsAt2 (c : Dev nD) : ∀ b ∈ argRefs, W2 m ρ c (Proc.devRef .tc b) = m ((c : Thread nD τ).loc b) :=
  fun b hb => (keep_r0 m ρ c b hb).trans (argsAt1 m ρ c b hb)
theorem argsAt3 (c : Dev nD) : ∀ b ∈ argRefs, W3 m ρ c (Proc.devRef .tc b) = m ((c : Thread nD τ).loc b) :=
  fun b hb => (keep_h1 m ρ c b (List.mem_cons_of_mem _ (List.mem_cons_of_mem _ hb))).trans (argsAt2 m ρ c b hb)
theorem argsAt4 (c : Dev nD) : ∀ b ∈ argRefs, W4 m ρ c (Proc.devRef .tc b) = m ((c : Thread nD τ).loc b) :=
  fun b hb => (keep_r1 m ρ c b (List.mem_cons_of_mem _ (List.mem_cons_of_mem _ hb))).trans (argsAt3 m ρ c b hb)
theorem argsAt5 (c : Dev nD) : ∀ b ∈ argRefs, W5 m ρ c (Proc.devRef .tc b) = m ((c : Thread nD τ).loc b) :=
  fun b hb => (keep_h2 m ρ c b (List.mem_cons_of_mem _ (List.mem_cons_of_mem _ (List.mem_cons_of_mem _ hb)))).trans (argsAt4 m ρ c b hb)
theorem argsAt6 (c : Dev nD) : ∀ b ∈ argRefs, W6 m ρ c (Proc.devRef .tc b) = m ((c : Thread nD τ).loc b) :=
  fun b hb => (keep_r2 m ρ c b (List.mem_cons_of_mem _ (List.mem_cons_of_mem _ hb))).trans (argsAt5 m ρ c b hb)
theorem argsAt7 (c : Dev nD) : ∀ b ∈ argRefs, W7 m ρ c (Proc.devRef .tc b) = m ((c : Thread nD τ).loc b) :=
  fun b hb => (keep_h3 m ρ c b (List.mem_cons_of_mem _ (List.mem_cons_of_mem _ (List.mem_cons_of_mem _ hb)))).trans (argsAt6 m ρ c b hb)
theorem argsAt8 (c : Dev nD) : ∀ b ∈ argRefs, W8 m ρ c (Proc.devRef .tc b) = m ((c : Thread nD τ).loc b) :=
  fun b hb => (keep_r3 m ρ c b (List.mem_cons_of_mem _ (List.mem_cons_of_mem _ hb))).trans (argsAt7 m ρ c b hb)
theorem argsAt9 (c : Dev nD) : ∀ b ∈ argRefs, W9 m ρ c (Proc.devRef .tc b) = m ((c : Thread nD τ).loc b) :=
  fun b hb => (keep_h4 m ρ c b (List.mem_cons_of_mem _ (List.mem_cons_of_mem _ (List.mem_cons_of_mem _ hb)))).trans (argsAt8 m ρ c b hb)
theorem argsAt10 (c : Dev nD) : ∀ b ∈ argRefs, W10 m ρ c (Proc.devRef .tc b) = m ((c : Thread nD τ).loc b) :=
  fun b hb => (keep_r4 m ρ c b (List.mem_cons_of_mem _ (List.mem_cons_of_mem _ hb))).trans (argsAt9 m ρ c b hb)
theorem argsAt11 (c : Dev nD) : ∀ b ∈ argRefs, W11 m ρ c (Proc.devRef .tc b) = m ((c : Thread nD τ).loc b) :=
  fun b hb => (keep_h5 m ρ c b (List.mem_cons_of_mem _ (List.mem_cons_of_mem _ (List.mem_cons_of_mem _ hb)))).trans (argsAt10 m ρ c b hb)
theorem argsAt12 (c : Dev nD) : ∀ b ∈ argRefs, W12 m ρ c (Proc.devRef .tc b) = m ((c : Thread nD τ).loc b) :=
  fun b hb => (keep_r5 m ρ c b (List.mem_cons_of_mem _ (List.mem_cons_of_mem _ hb))).trans (argsAt11 m ρ c b hb)
theorem argsAt13 (c : Dev nD) : ∀ b ∈ argRefs, W13 m ρ c (Proc.devRef .tc b) = m ((c : Thread nD τ).loc b) :=
  fun b hb => (keep_h6 m ρ c b (List.mem_cons_of_mem _ (List.mem_cons_of_mem _ (List.mem_cons_of_mem _ hb)))).trans (argsAt12 m ρ c b hb)
theorem argsAt14 (c : Dev nD) : ∀ b ∈ argRefs, W14 m ρ c (Proc.devRef .tc b) = m ((c : Thread nD τ).loc b) :=
  fun b hb => (keep_r6 m ρ c b (List.mem_cons_of_mem _ (List.mem_cons_of_mem _ hb))).trans (argsAt13 m ρ c b hb)
theorem argsAt15 (c : Dev nD) : ∀ b ∈ argRefs, W15 m ρ c (Proc.devRef .tc b) = m ((c : Thread nD τ).loc b) :=
  fun b hb => (keep_h7 m ρ c b (List.mem_cons_of_mem _ (List.mem_cons_of_mem _ hb))).trans (argsAt14 m ρ c b hb)
theorem argsAt16 (c : Dev nD) : ∀ b ∈ argRefs, W16 m ρ c (Proc.devRef .tc b) = m ((c : Thread nD τ).loc b) :=
  fun b hb => (keep_r7 m ρ c b (List.mem_cons_of_mem _ hb)).trans (argsAt15 m ρ c b hb)
theorem argsAt17 (c : Dev nD) : ∀ b ∈ argRefs, W17 m ρ c (Proc.devRef .tc b) = m ((c : Thread nD τ).loc b) :=
  fun b hb => (keep_h8 m ρ c b (List.mem_cons_of_mem _ (List.mem_cons_of_mem _ hb))).trans (argsAt16 m ρ c b hb)
theorem argsAt18 (c : Dev nD) : ∀ b ∈ argRefs, W18 m ρ c (Proc.devRef .tc b) = m ((c : Thread nD τ).loc b) :=
  fun b hb => (keep_r8 m ρ c b (List.mem_cons_of_mem _ (List.mem_cons_of_mem _ hb))).trans (argsAt17 m ρ c b hb)
theorem argsAt19 (c : Dev nD) : ∀ b ∈ argRefs, W19 m ρ c (Proc.devRef .tc b) = m ((c : Thread nD τ).loc b) :=
  fun b hb => (keep_h9 m ρ c b (List.mem_cons_of_mem _ (List.mem_cons_of_mem _ hb))).trans (argsAt18 m ρ c b hb)

/-! ## Each layer's result, carried to the last segment that reads it -/
theorem main_v10_0_at3 (c : Dev nD) : W3 m ρ c (Proc.devRef .tc main_v10_0) = W2 m ρ c (Proc.devRef .tc main_v10_0) :=
  (keep_h1 m ρ c main_v10_0 (by decide))
theorem main_v10_0_at4 (c : Dev nD) : W4 m ρ c (Proc.devRef .tc main_v10_0) = W2 m ρ c (Proc.devRef .tc main_v10_0) :=
  ((keep_r1 m ρ c main_v10_0 (by decide))).trans (keep_h1 m ρ c main_v10_0 (by decide))
theorem main_v10_0_at5 (c : Dev nD) : W5 m ρ c (Proc.devRef .tc main_v10_0) = W2 m ρ c (Proc.devRef .tc main_v10_0) :=
  (((keep_h2 m ρ c main_v10_0 (by decide))).trans (keep_r1 m ρ c main_v10_0 (by decide))).trans (keep_h1 m ρ c main_v10_0 (by decide))
theorem main_v10_0_at6 (c : Dev nD) : W6 m ρ c (Proc.devRef .tc main_v10_0) = W2 m ρ c (Proc.devRef .tc main_v10_0) :=
  ((((keep_r2 m ρ c main_v10_0 (by decide))).trans (keep_h2 m ρ c main_v10_0 (by decide))).trans (keep_r1 m ρ c main_v10_0 (by decide))).trans (keep_h1 m ρ c main_v10_0 (by decide))
theorem main_v10_1_at3 (c : Dev nD) : W3 m ρ c (Proc.devRef .tc main_v10_1) = W2 m ρ c (Proc.devRef .tc main_v10_1) :=
  (keep_h1 m ρ c main_v10_1 (by decide))
theorem main_v10_1_at4 (c : Dev nD) : W4 m ρ c (Proc.devRef .tc main_v10_1) = W2 m ρ c (Proc.devRef .tc main_v10_1) :=
  ((keep_r1 m ρ c main_v10_1 (by decide))).trans (keep_h1 m ρ c main_v10_1 (by decide))
theorem main_v10_1_at5 (c : Dev nD) : W5 m ρ c (Proc.devRef .tc main_v10_1) = W2 m ρ c (Proc.devRef .tc main_v10_1) :=
  (((keep_h2 m ρ c main_v10_1 (by decide))).trans (keep_r1 m ρ c main_v10_1 (by decide))).trans (keep_h1 m ρ c main_v10_1 (by decide))
theorem main_v21_1_at5 (c : Dev nD) : W5 m ρ c (Proc.devRef .tc main_v21_1) = W4 m ρ c (Proc.devRef .tc main_v21_1) :=
  (keep_h2 m ρ c main_v21_1 (by decide))
theorem main_v21_1_at6 (c : Dev nD) : W6 m ρ c (Proc.devRef .tc main_v21_1) = W4 m ρ c (Proc.devRef .tc main_v21_1) :=
  ((keep_r2 m ρ c main_v21_1 (by decide))).trans (keep_h2 m ρ c main_v21_1 (by decide))
theorem main_v21_1_at7 (c : Dev nD) : W7 m ρ c (Proc.devRef .tc main_v21_1) = W4 m ρ c (Proc.devRef .tc main_v21_1) :=
  (((keep_h3 m ρ c main_v21_1 (by decide))).trans (keep_r2 m ρ c main_v21_1 (by decide))).trans (keep_h2 m ρ c main_v21_1 (by decide))
theorem main_v32_0_at7 (c : Dev nD) : W7 m ρ c (Proc.devRef .tc main_v32_0) = W6 m ρ c (Proc.devRef .tc main_v32_0) :=
  (keep_h3 m ρ c main_v32_0 (by decide))
theorem main_v32_0_at8 (c : Dev nD) : W8 m ρ c (Proc.devRef .tc main_v32_0) = W6 m ρ c (Proc.devRef .tc main_v32_0) :=
  ((keep_r3 m ρ c main_v32_0 (by decide))).trans (keep_h3 m ρ c main_v32_0 (by decide))
theorem main_v32_0_at9 (c : Dev nD) : W9 m ρ c (Proc.devRef .tc main_v32_0) = W6 m ρ c (Proc.devRef .tc main_v32_0) :=
  (((keep_h4 m ρ c main_v32_0 (by decide))).trans (keep_r3 m ρ c main_v32_0 (by decide))).trans (keep_h3 m ρ c main_v32_0 (by decide))
theorem main_v32_0_at10 (c : Dev nD) : W10 m ρ c (Proc.devRef .tc main_v32_0) = W6 m ρ c (Proc.devRef .tc main_v32_0) :=
  ((((keep_r4 m ρ c main_v32_0 (by decide))).trans (keep_h4 m ρ c main_v32_0 (by decide))).trans (keep_r3 m ρ c main_v32_0 (by decide))).trans (keep_h3 m ρ c main_v32_0 (by decide))
theorem main_v32_1_at7 (c : Dev nD) : W7 m ρ c (Proc.devRef .tc main_v32_1) = W6 m ρ c (Proc.devRef .tc main_v32_1) :=
  (keep_h3 m ρ c main_v32_1 (by decide))
theorem main_v32_1_at8 (c : Dev nD) : W8 m ρ c (Proc.devRef .tc main_v32_1) = W6 m ρ c (Proc.devRef .tc main_v32_1) :=
  ((keep_r3 m ρ c main_v32_1 (by decide))).trans (keep_h3 m ρ c main_v32_1 (by decide))
theorem main_v32_1_at9 (c : Dev nD) : W9 m ρ c (Proc.devRef .tc main_v32_1) = W6 m ρ c (Proc.devRef .tc main_v32_1) :=
  (((keep_h4 m ρ c main_v32_1 (by decide))).trans (keep_r3 m ρ c main_v32_1 (by decide))).trans (keep_h3 m ρ c main_v32_1 (by decide))
theorem main_v43_1_at9 (c : Dev nD) : W9 m ρ c (Proc.devRef .tc main_v43_1) = W8 m ρ c (Proc.devRef .tc main_v43_1) :=
  (keep_h4 m ρ c main_v43_1 (by decide))
theorem main_v43_1_at10 (c : Dev nD) : W10 m ρ c (Proc.devRef .tc main_v43_1) = W8 m ρ c (Proc.devRef .tc main_v43_1) :=
  ((keep_r4 m ρ c main_v43_1 (by decide))).trans (keep_h4 m ρ c main_v43_1 (by decide))
theorem main_v43_1_at11 (c : Dev nD) : W11 m ρ c (Proc.devRef .tc main_v43_1) = W8 m ρ c (Proc.devRef .tc main_v43_1) :=
  (((keep_h5 m ρ c main_v43_1 (by decide))).trans (keep_r4 m ρ c main_v43_1 (by decide))).trans (keep_h4 m ρ c main_v43_1 (by decide))
theorem main_v54_0_at11 (c : Dev nD) : W11 m ρ c (Proc.devRef .tc main_v54_0) = W10 m ρ c (Proc.devRef .tc main_v54_0) :=
  (keep_h5 m ρ c main_v54_0 (by decide))
theorem main_v54_0_at12 (c : Dev nD) : W12 m ρ c (Proc.devRef .tc main_v54_0) = W10 m ρ c (Proc.devRef .tc main_v54_0) :=
  ((keep_r5 m ρ c main_v54_0 (by decide))).trans (keep_h5 m ρ c main_v54_0 (by decide))
theorem main_v54_0_at13 (c : Dev nD) : W13 m ρ c (Proc.devRef .tc main_v54_0) = W10 m ρ c (Proc.devRef .tc main_v54_0) :=
  (((keep_h6 m ρ c main_v54_0 (by decide))).trans (keep_r5 m ρ c main_v54_0 (by decide))).trans (keep_h5 m ρ c main_v54_0 (by decide))
theorem main_v54_0_at14 (c : Dev nD) : W14 m ρ c (Proc.devRef .tc main_v54_0) = W10 m ρ c (Proc.devRef .tc main_v54_0) :=
  ((((keep_r6 m ρ c main_v54_0 (by decide))).trans (keep_h6 m ρ c main_v54_0 (by decide))).trans (keep_r5 m ρ c main_v54_0 (by decide))).trans (keep_h5 m ρ c main_v54_0 (by decide))
theorem main_v54_1_at11 (c : Dev nD) : W11 m ρ c (Proc.devRef .tc main_v54_1) = W10 m ρ c (Proc.devRef .tc main_v54_1) :=
  (keep_h5 m ρ c main_v54_1 (by decide))
theorem main_v54_1_at12 (c : Dev nD) : W12 m ρ c (Proc.devRef .tc main_v54_1) = W10 m ρ c (Proc.devRef .tc main_v54_1) :=
  ((keep_r5 m ρ c main_v54_1 (by decide))).trans (keep_h5 m ρ c main_v54_1 (by decide))
theorem main_v54_1_at13 (c : Dev nD) : W13 m ρ c (Proc.devRef .tc main_v54_1) = W10 m ρ c (Proc.devRef .tc main_v54_1) :=
  (((keep_h6 m ρ c main_v54_1 (by decide))).trans (keep_r5 m ρ c main_v54_1 (by decide))).trans (keep_h5 m ρ c main_v54_1 (by decide))
theorem main_v65_1_at13 (c : Dev nD) : W13 m ρ c (Proc.devRef .tc main_v65_1) = W12 m ρ c (Proc.devRef .tc main_v65_1) :=
  (keep_h6 m ρ c main_v65_1 (by decide))
theorem main_v65_1_at14 (c : Dev nD) : W14 m ρ c (Proc.devRef .tc main_v65_1) = W12 m ρ c (Proc.devRef .tc main_v65_1) :=
  ((keep_r6 m ρ c main_v65_1 (by decide))).trans (keep_h6 m ρ c main_v65_1 (by decide))
theorem main_v65_1_at15 (c : Dev nD) : W15 m ρ c (Proc.devRef .tc main_v65_1) = W12 m ρ c (Proc.devRef .tc main_v65_1) :=
  (((keep_h7 m ρ c main_v65_1 (by decide))).trans (keep_r6 m ρ c main_v65_1 (by decide))).trans (keep_h6 m ρ c main_v65_1 (by decide))
theorem main_v76_at15 (c : Dev nD) : W15 m ρ c (Proc.devRef .tc main_v76) = W14 m ρ c (Proc.devRef .tc main_v76) :=
  (keep_h7 m ρ c main_v76 (by decide))
theorem main_v76_at16 (c : Dev nD) : W16 m ρ c (Proc.devRef .tc main_v76) = W14 m ρ c (Proc.devRef .tc main_v76) :=
  ((keep_r7 m ρ c main_v76 (by decide))).trans (keep_h7 m ρ c main_v76 (by decide))
theorem main_v76_at17 (c : Dev nD) : W17 m ρ c (Proc.devRef .tc main_v76) = W14 m ρ c (Proc.devRef .tc main_v76) :=
  (((keep_h8 m ρ c main_v76 (by decide))).trans (keep_r7 m ρ c main_v76 (by decide))).trans (keep_h7 m ρ c main_v76 (by decide))
theorem main_v76_at18 (c : Dev nD) : W18 m ρ c (Proc.devRef .tc main_v76) = W14 m ρ c (Proc.devRef .tc main_v76) :=
  ((((keep_r8 m ρ c main_v76 (by decide))).trans (keep_h8 m ρ c main_v76 (by decide))).trans (keep_r7 m ρ c main_v76 (by decide))).trans (keep_h7 m ρ c main_v76 (by decide))
theorem main_v76_at19 (c : Dev nD) : W19 m ρ c (Proc.devRef .tc main_v76) = W14 m ρ c (Proc.devRef .tc main_v76) :=
  (((((keep_h9 m ρ c main_v76 (by decide))).trans (keep_r8 m ρ c main_v76 (by decide))).trans (keep_h8 m ρ c main_v76 (by decide))).trans (keep_r7 m ρ c main_v76 (by decide))).trans (keep_h7 m ρ c main_v76 (by decide))
theorem main_v87_at17 (c : Dev nD) : W17 m ρ c (Proc.devRef .tc main_v87) = W16 m ρ c (Proc.devRef .tc main_v87) :=
  (keep_h8 m ρ c main_v87 (by decide))
theorem main_v87_at18 (c : Dev nD) : W18 m ρ c (Proc.devRef .tc main_v87) = W16 m ρ c (Proc.devRef .tc main_v87) :=
  ((keep_r8 m ρ c main_v87 (by decide))).trans (keep_h8 m ρ c main_v87 (by decide))
theorem main_v87_at19 (c : Dev nD) : W19 m ρ c (Proc.devRef .tc main_v87) = W16 m ρ c (Proc.devRef .tc main_v87) :=
  (((keep_h9 m ρ c main_v87 (by decide))).trans (keep_r8 m ρ c main_v87 (by decide))).trans (keep_h8 m ρ c main_v87 (by decide))

end Cert.KernelIdeal.Fold

end
-- ==== Proof.RefStages.lean ====
/-
  The reference's gather / scatter-add stages, each as ONE function of the array it aggregates.

  A SAGE layer's aggregate is  segment_sum(x[src], dst): gather the source rows along the edges, add them into
  the destination rows. In the printed program that is a gather (with negative indices wrapped) and a scatter-add into a
  zero array. The stage depends on the aggregated array only through the gather, so it is one function of that array
  and of the two edge-index arrays, applied in every block to that block's features. The two programs apply the SAME
  stages; the certificate never opens them.
-/
import proofs.«151185_j10496900071610_2_alg».proof.Proof.Gen.ReferenceIdeal.Read

set_option maxRecDepth 16384

noncomputable section

namespace Cert.ReferenceIdeal.Stages

open Cert.ReferenceIdeal Cert.ReferenceIdeal.Gen Idealize.ShloMosaic

/-- Drug features (256 of them) summed into the proteins along the edges. -/
def aggP256 (x : (⟨S20000x256, .f32⟩ : BufTy).Contents (Elt Ideal)) (src dst : (⟨S640000, .i32⟩ : BufTy).Contents (Elt Ideal)) : (⟨S8000x256, .f32⟩ : BufTy).Contents (Elt Ideal) :=
  Host.scatterAdd (F := Ideal) (φ := .f32) scatter_S8000x256_S640000x1_S640000x256_1_0_0_1 (Read.val_main_v41 (F := Ideal)) (Read.val_main_v42 (F := Ideal) dst)
    (Host.gather gather_S20000x256_S640000x1_S640000x256_1_0_n_n_0_1_1256 x (Read.val_main_v39 (F := Ideal) src) : (⟨S640000x256, .f32⟩ : BufTy).Contents (Elt Ideal))

/-- Protein features (256 of them) summed into the drugs along the edges. -/
def aggD256 (x : (⟨S8000x256, .f32⟩ : BufTy).Contents (Elt Ideal)) (src dst : (⟨S640000, .i32⟩ : BufTy).Contents (Elt Ideal)) : (⟨S20000x256, .f32⟩ : BufTy).Contents (Elt Ideal) :=
  Host.scatterAdd (F := Ideal) (φ := .f32) scatter_S20000x256_S640000x1_S640000x256_1_0_0_1 (Read.val_main_v57 (F := Ideal)) (Read.val_main_v58 (F := Ideal) src)
    (Host.gather gather_S8000x256_S640000x1_S640000x256_1_0_n_n_0_1_1256 x (Read.val_main_v55 (F := Ideal) dst) : (⟨S640000x256, .f32⟩ : BufTy).Contents (Elt Ideal))

/-- The decoder's drug endpoint embeddings: rows of the drug embeddings gathered along the labelled edges. -/
def gatherD (x : (⟨S20000x256, .f32⟩ : BufTy).Contents (Elt Ideal)) (row : (⟨S200000, .i32⟩ : BufTy).Contents (Elt Ideal)) : (⟨S200000x256, .f32⟩ : BufTy).Contents (Elt Ideal) :=
  Host.gather gather_S20000x256_S200000x1_S200000x256_1_0_n_n_0_1_1256 x (Read.val_main_v139 (F := Ideal) row)

/-- The decoder's protein endpoint embeddings. -/
def gatherP (x : (⟨S8000x256, .f32⟩ : BufTy).Contents (Elt Ideal)) (col : (⟨S200000, .i32⟩ : BufTy).Contents (Elt Ideal)) : (⟨S200000x256, .f32⟩ : BufTy).Contents (Elt Ideal) :=
  Host.gather gather_S8000x256_S200000x1_S200000x256_1_0_n_n_0_1_1256 x (Read.val_main_v146 (F := Ideal) col)

theorem stage_v43 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) :
    Read.val_main_v43 (F := Ideal) x0 x1 x2 x3 x9 x10 x11 = aggP256 (Read.val_main_v32 (F := Ideal) x0 x1 x2 x3 x9 x10 x11) x2 x3 := rfl

theorem stage_v77 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v77 (F := Ideal) x0 x1 x2 x3 x6 x7 x8 x9 x10 x11 x15 x16 x17 = aggP256 (Read.val_main_v66 (F := Ideal) x0 x1 x2 x3 x6 x7 x8 x9 x10 x11 x15 x16 x17) x2 x3 := rfl

theorem stage_v111 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v111 (F := Ideal) x0 x1 x2 x3 x6 x7 x8 x9 x10 x11 x12 x13 x14 x15 x16 x17 = aggP256 (Read.val_main_v100 (F := Ideal) x0 x1 x2 x3 x6 x7 x8 x9 x10 x11 x12 x13 x14 x15 x16 x17) x2 x3 := rfl

theorem stage_v59 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) :
    Read.val_main_v59 (F := Ideal) x0 x1 x2 x3 x6 x7 x8 = aggD256 (Read.val_main_v33 (F := Ideal) x0 x1 x2 x3 x6 x7 x8) x2 x3 := rfl

theorem stage_v93 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) :
    Read.val_main_v93 (F := Ideal) x0 x1 x2 x3 x6 x7 x8 x9 x10 x11 x12 x13 x14 = aggD256 (Read.val_main_v67 (F := Ideal) x0 x1 x2 x3 x6 x7 x8 x9 x10 x11 x12 x13 x14) x2 x3 := rfl

theorem stage_v127 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v127 (F := Ideal) x0 x1 x2 x3 x6 x7 x8 x9 x10 x11 x12 x13 x14 x15 x16 x17 = aggD256 (Read.val_main_v101 (F := Ideal) x0 x1 x2 x3 x6 x7 x8 x9 x10 x11 x12 x13 x14 x15 x16 x17) x2 x3 := rfl

theorem stage_v140 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x4 : (⟨S200000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x21 : (⟨S256x256, .f32⟩ : BufTy).Contents (Elt Ideal)) (x22 : (⟨S256, .f32⟩ : BufTy).Contents (Elt Ideal)) (x23 : (⟨S256x256, .f32⟩ : BufTy).Contents (Elt Ideal)) :
    Read.val_main_v140 (F := Ideal) x0 x1 x2 x3 x4 x6 x7 x8 x9 x10 x11 x12 x13 x14 x15 x16 x17 x21 x22 x23 = gatherD (Read.val_main_v133 (F := Ideal) x0 x1 x2 x3 x6 x7 x8 x9 x10 x11 x12 x13 x14 x15 x16 x17 x21 x22 x23) x4 := rfl

theorem stage_v147 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x5 : (⟨S200000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x18 : (⟨S256x256, .f32⟩ : BufTy).Contents (Elt Ideal)) (x19 : (⟨S256, .f32⟩ : BufTy).Contents (Elt Ideal)) (x20 : (⟨S256x256, .f32⟩ : BufTy).Contents (Elt Ideal)) :
    Read.val_main_v147 (F := Ideal) x0 x1 x2 x3 x5 x6 x7 x8 x9 x10 x11 x12 x13 x14 x15 x16 x17 x18 x19 x20 = gatherP (Read.val_main_v117 (F := Ideal) x0 x1 x2 x3 x6 x7 x8 x9 x10 x11 x12 x13 x14 x15 x16 x17 x18 x19 x20) x5 := rfl

end Cert.ReferenceIdeal.Stages

end
-- ==== Proof.HostReads.lean ====
/-
  What each host stretch of the kernel's program computes, as a function of the contents it starts from.

  Between the regions the program gathers and scatter-adds along the edges exactly as the reference does. Each stretch's
  aggregate is named here by the reference's own stage applied to the buffers the stretch reads; before the decoder the
  stretch also halves the first layer's weights, lays the second layer's weights out as a row, and gathers the endpoint
  embeddings (through a change of float format, the identity on extended reals). The last stretch flattens the scores.
-/
import proofs.«151185_j10496900071610_2_alg».proof.Proof.Gen.KernelIdeal.Frame
import proofs.«151185_j10496900071610_2_alg».proof.Proof.RefStages
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 2000000 in
/-- Stretch 0: drug input features summed into the proteins. -/
theorem agg0 : StableHlo.after (hostOps0 (F := Ideal)) W (Proc.devRef .tc main_v9)
    = Cert.ReferenceIdeal.Read.val_main_v9 (F := Ideal) (W (Proc.devRef .tc main_arg0)) (W (Proc.devRef .tc main_arg2)) (W (Proc.devRef .tc main_arg3)) := by
  dsimp only [hostOps0]; after_results_simp; try rfl

set_option maxHeartbeats 2000000 in
/-- Stretch 1: protein input features summed into the drugs. -/
theorem agg1 : StableHlo.after (hostOps1 (F := Ideal)) W (Proc.devRef .tc main_v20)
    = Cert.ReferenceIdeal.Read.val_main_v25 (F := Ideal) (W (Proc.devRef .tc main_arg1)) (W (Proc.devRef .tc main_arg2)) (W (Proc.devRef .tc main_arg3)) := by
  dsimp only [hostOps1]; after_results_simp; try rfl

set_option maxHeartbeats 2000000 in
/-- Stretch 2: the previous layer's drug features summed into the proteins. -/
theorem agg2 : StableHlo.after (hostOps2 (F := Ideal)) W (Proc.devRef .tc main_v31)
    = Cert.ReferenceIdeal.Stages.aggP256 (W (Proc.devRef .tc main_v21_0)) (W (Proc.devRef .tc main_arg2)) (W (Proc.devRef .tc main_arg3)) := by
  dsimp only [hostOps2]; after_results_simp; try rfl

set_option maxHeartbeats 2000000 in
/-- Stretch 3: the previous layer's protein features summed into the drugs. -/
theorem agg3 : StableHlo.after (hostOps3 (F := Ideal)) W (Proc.devRef .tc main_v42)
    = Cert.ReferenceIdeal.Stages.aggD256 (W (Proc.devRef .tc main_v10_0)) (W (Proc.devRef .tc main_arg2)) (W (Proc.devRef .tc main_arg3)) := by
  dsimp only [hostOps3]; after_results_simp; try rfl

set_option maxHeartbeats 2000000 in
/-- Stretch 4: the previous layer's drug features summed into the proteins. -/
theorem agg4 : StableHlo.after (hostOps4 (F := Ideal)) W (Proc.devRef .tc main_v53)
    = Cert.ReferenceIdeal.Stages.aggP256 (W (Proc.devRef .tc main_v43_0)) (W (Proc.devRef .tc main_arg2)) (W (Proc.devRef .tc main_arg3)) := by
  dsimp only [hostOps4]; after_results_simp; try rfl

set_option maxHeartbeats 2000000 in
/-- Stretch 5: the previous layer's protein features summed into the drugs. -/
theorem agg5 : StableHlo.after (hostOps5 (F := Ideal)) W (Proc.devRef .tc main_v64)
    = Cert.ReferenceIdeal.Stages.aggD256 (W (Proc.devRef .tc main_v32_0)) (W (Proc.devRef .tc main_arg2)) (W (Proc.devRef .tc main_arg3)) := by
  dsimp only [hostOps5]; after_results_simp; try rfl

set_option maxHeartbeats 2000000 in
/-- Stretch 6: the previous layer's drug features summed into the proteins. -/
theorem agg6 : StableHlo.after (hostOps6 (F := Ideal)) W (Proc.devRef .tc main_v75)
    = Cert.ReferenceIdeal.Stages.aggP256 (W (Proc.devRef .tc main_v65_0)) (W (Proc.devRef .tc main_arg2)) (W (Proc.devRef .tc main_arg3)) := by
  dsimp only [hostOps6]; after_results_simp; try rfl

set_option maxHeartbeats 2000000 in
/-- Stretch 7: the previous layer's protein features summed into the drugs. -/
theorem agg7 : StableHlo.after (hostOps7 (F := Ideal)) W (Proc.devRef .tc main_v86)
    = Cert.ReferenceIdeal.Stages.aggD256 (W (Proc.devRef .tc main_v54_0)) (W (Proc.devRef .tc main_arg2)) (W (Proc.devRef .tc main_arg3)) := by
  dsimp only [hostOps7]; after_results_simp; try rfl

set_option maxHeartbeats 2000000 in
/-- Stretch 8: the drug endpoint embeddings of the labelled edges. -/
theorem dec_zd : StableHlo.after (hostOps8 (F := Ideal)) W (Proc.devRef .tc main_v96)
    = Cert.ReferenceIdeal.Stages.gatherD (W (Proc.devRef .tc main_v87)) (W (Proc.devRef .tc main_arg4)) := by
  dsimp only [hostOps8]; after_results_simp; try rfl

set_option maxHeartbeats 2000000 in
/-- Stretch 8: the protein endpoint embeddings. -/
theorem dec_zp : StableHlo.after (hostOps8 (F := Ideal)) W (Proc.devRef .tc main_v103)
    = Cert.ReferenceIdeal.Stages.gatherP (W (Proc.devRef .tc main_v76)) (W (Proc.devRef .tc main_arg5)) := by
  dsimp only [hostOps8]; after_results_simp; try rfl

set_option maxHeartbeats 2000000 in
/-- Stretch 8: the upper half of the first layer's weights. -/
theorem dec_w1a : StableHlo.after (hostOps8 (F := Ideal)) W (Proc.devRef .tc main_v104)
    = extractStridedSlice S256x256 ![0, 0] (W (Proc.devRef .tc main_arg24)) slices_S512x256_S256x256_0_0 := by
  dsimp only [hostOps8]; after_results_simp; try rfl

set_option maxHeartbeats 2000000 in
/-- Stretch 8: the lower half. -/
theorem dec_w1b : StableHlo.after (hostOps8 (F := Ideal)) W (Proc.devRef .tc main_v105)
    = extractStridedSlice S256x256 ![256, 0] (W (Proc.devRef .tc main_arg24)) slices_S512x256_S256x256_256_0 := by
  dsimp only [hostOps8]; after_results_simp; try rfl

set_option maxHeartbeats 2000000 in
/-- Stretch 8: the second layer's weights as one row. -/
theorem dec_w2row : StableHlo.after (hostOps8 (F := Ideal)) W (Proc.devRef .tc main_v106)
    = shapeCast S1x256 (W (Proc.devRef .tc main_arg26)) shapeCasts_S256x1_S1x256 := by
  dsimp only [hostOps8]; after_results_simp; try rfl

set_option maxHeartbeats 2000000 in
/-- Stretch 9: the column of scores flattened. -/
theorem out9 : StableHlo.after (hostOps9 (F := Ideal)) W (Proc.devRef .tc main_v108)
    = shapeCast S200000 (W (Proc.devRef .tc main_v107)) shapeCasts_S200000x1_S200000 := by
  dsimp only [hostOps9]; after_results_simp; try rfl

end Cert.KernelIdeal.HostReads

end
-- ==== Proof.SageSpec.lean ====
/-
  One SAGE convolution's linear update, read entry by entry on the extended reals.

  For a destination node r and an output feature c,
      lin agg xd Wl Wr bl (r, c) = (Σ_k agg[r, k] · Wl[k, c] + bl[c]) + Σ_k xd[r, k] · Wr[k, c],
  the neighbour aggregate through the left weights, the bias, and the node's own features through the right
  weights, in the order the reference's expression `agg @ Wl + bl + x_dst @ Wr` adds them. `act` is its hyperbolic
  tangent. Addition of extended reals is commutative and associative (with ⊥ + ⊤ = ⊥), so the other grouping
  `(Σ + Σ) + bl`, which a fused kernel computes, is the same number: `lin_regroup`.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Entry (r, k) of an [n, K] array, r the row of the output entry `i`. -/
abbrev rowAt {n K C : ℕ} (i : (⟨2, ![n, C]⟩ : Shape).Idx) (k : Fin K) : (⟨2, ![n, K]⟩ : Shape).Idx :=
  ix2 (⟨(i 0).val, (i 0).isLt⟩ : Fin n) k

/-- Entry (k, c) of a [K, C] array, c the column of the output entry `i`. -/
abbrev colAt {n K C : ℕ} (i : (⟨2, ![n, C]⟩ : Shape).Idx) (k : Fin K) : (⟨2, ![K, C]⟩ : Shape).Idx :=
  ix2 k (⟨(i 1).val, (i 1).isLt⟩ : Fin C)

/-- Entry c of a [C] vector, c the column of the output entry `i`. -/
abbrev biasAt {n C : ℕ} (i : (⟨2, ![n, C]⟩ : Shape).Idx) : (⟨1, ![C]⟩ : Shape).Idx :=
  ix1 (⟨(i 1).val, (i 1).isLt⟩ : Fin C)

/-- The linear update at an entry: `(Σ_k agg[r,k]·Wl[k,c] + bl[c]) + Σ_k xd[r,k]·Wr[k,c]`. -/
def lin {n K C : ℕ} (agg xd : (⟨2, ![n, K]⟩ : Shape).Idx → EReal) (Wl Wr : (⟨2, ![K, C]⟩ : Shape).Idx → EReal)
    (bl : (⟨1, ![C]⟩ : Shape).Idx → EReal) : (⟨2, ![n, C]⟩ : Shape).Idx → EReal :=
  fun i => ((∑ k : Fin K, agg (rowAt i k) * Wl (colAt i k)) + bl (biasAt i)) + ∑ k : Fin K, xd (rowAt i k) * Wr (colAt i k)

/-- The activated update: the hyperbolic tangent of `lin`, entry by entry. -/
def act {n K C : ℕ} (agg xd : (⟨2, ![n, K]⟩ : Shape).Idx → EReal) (Wl Wr : (⟨2, ![K, C]⟩ : Shape).Idx → EReal)
    (bl : (⟨1, ![C]⟩ : Shape).Idx → EReal) : (⟨2, ![n, C]⟩ : Shape).Idx → EReal :=
  fun i => Ideal.tanh (lin agg xd Wl Wr bl i)

theorem lin_apply {n K C : ℕ} (agg xd : (⟨2, ![n, K]⟩ : Shape).Idx → EReal) (Wl Wr : (⟨2, ![K, C]⟩ : Shape).Idx → EReal)
    (bl : (⟨1, ![C]⟩ : Shape).Idx → EReal) (i : (⟨2, ![n, C]⟩ : Shape).Idx) :
    lin agg xd Wl Wr bl i
      = ((∑ k : Fin K, agg (rowAt i k) * Wl (colAt i k)) + bl (biasAt i)) + ∑ k : Fin K, xd (rowAt i k) * Wr (colAt i k) := rfl

theorem act_apply {n K C : ℕ} (agg xd : (⟨2, ![n, K]⟩ : Shape).Idx → EReal) (Wl Wr : (⟨2, ![K, C]⟩ : Shape).Idx → EReal)
    (bl : (⟨1, ![C]⟩ : Shape).Idx → EReal) (i : (⟨2, ![n, C]⟩ : Shape).Idx) :
    act agg xd Wl Wr bl i = Ideal.tanh (lin agg xd Wl Wr bl i) := rfl

/-- Adding the bias last is adding it in the middle: `(a + b) + c = (a + c) + b` on the extended reals. -/
theorem regroup (a b c : EReal) : (a + b) + c = (a + c) + b := add_right_comm a b c

end Cert.Sage

end
-- ==== Proof.RefLayers.lean ====
/-
  The reference's eight SAGE layers, each as `Sage.lin` (or `Sage.act`) of its own operands.

  The reference computes a layer as  dot_general(agg, Wl) + broadcast(bl) + dot_general(x_dst, Wr)  and, in the first
  three blocks, its hyperbolic tangent. Read at an entry (r, c) the two products are the sums over the contracted
  feature index and the doubly broadcast bias is bl[c]: exactly `Sage.lin agg x_dst Wl Wr bl (r, c)`.
-/
import proofs.«151185_j10496900071610_2_alg».proof.Proof.Gen.ReferenceIdeal.Read
import proofs.«151185_j10496900071610_2_alg».proof.Proof.SageSpec

set_option maxRecDepth 16384

noncomputable section

namespace Cert.ReferenceIdeal.Layers

open Cert.ReferenceIdeal Cert.ReferenceIdeal.Gen Idealize.ShloMosaic Idealize.ShloMosaic.ValueIdx

/-- Block 0, drug → protein: the update of the 8000 proteins from 128 input features. -/
theorem lin_v15 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) :
    Read.val_main_v15 (F := Ideal) x0 x1 x2 x3 x6 x7 x8 = Sage.lin (n := 8000) (K := 128) (C := 256) (Read.val_main_v9 (F := Ideal) x0 x2 x3) x1 x6 x8 x7 := by
  funext i
  rw [Read.val_main_v15_apply, Read.val_main_v13_apply, Read.val_main_v10_apply, Read.val_main_v12_apply, Read.val_main_v11_apply, Read.val_main_v14_apply]
  have hl : ∀ k : Fin 128, Read.lidx_main_v10 i k = Sage.rowAt (n := 8000) i k := fun k => funext fun a => Fin.ext (by
    match a with
    | ⟨0, _⟩ => rfl
    | ⟨1, _⟩ => rfl)
  have hr : ∀ k : Fin 128, Read.ridx_main_v10 i k = Sage.colAt i k := fun k => funext fun a => Fin.ext (by
    match a with
    | ⟨0, _⟩ => rfl
    | ⟨1, _⟩ => rfl)
  have hl2 : ∀ k : Fin 128, Read.lidx_main_v14 i k = Sage.rowAt (n := 8000) i k := fun k => funext fun a => Fin.ext (by
    match a with
    | ⟨0, _⟩ => rfl
    | ⟨1, _⟩ => rfl)
  have hr2 : ∀ k : Fin 128, Read.ridx_main_v14 i k = Sage.colAt i k := fun k => funext fun a => Fin.ext (by
    match a with
    | ⟨0, _⟩ => rfl
    | ⟨1, _⟩ => rfl)
  have hb : Read.idx_main_v11 (Read.idx_main_v12 i) = Sage.biasAt i := funext fun a => Fin.ext (by
    match a with
    | ⟨0, _⟩ => rfl)
  simp only [hl, hr, hl2, hr2, hb]
  rfl

theorem act_v33 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) :
    Read.val_main_v33 (F := Ideal) x0 x1 x2 x3 x6 x7 x8 = Sage.act (n := 8000) (K := 128) (C := 256) (Read.val_main_v9 (F := Ideal) x0 x2 x3) x1 x6 x8 x7 := by
  funext i
  rw [Read.val_main_v33_apply, lin_v15, Sage.act_apply, Ideal.hostUnary_tanh_def]

/-- Block 0, protein → drug: the update of the 20000 drugs from 128 input features. -/
theorem lin_v31 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) :
    Read.val_main_v31 (F := Ideal) x0 x1 x2 x3 x9 x10 x11 = Sage.lin (n := 20000) (K := 128) (C := 256) (Read.val_main_v25 (F := Ideal) x1 x2 x3) x0 x9 x11 x10 := by
  funext i
  rw [Read.val_main_v31_apply, Read.val_main_v29_apply, Read.val_main_v26_apply, Read.val_main_v28_apply, Read.val_main_v27_apply, Read.val_main_v30_apply]
  have hl : ∀ k : Fin 128, Read.lidx_main_v26 i k = Sage.rowAt (n := 20000) i k := fun k => funext fun a => Fin.ext (by
    match a with
    | ⟨0, _⟩ => rfl
    | ⟨1, _⟩ => rfl)
  have hr : ∀ k : Fin 128, Read.ridx_main_v26 i k = Sage.colAt i k := fun k => funext fun a => Fin.ext (by
    match a with
    | ⟨0, _⟩ => rfl
    | ⟨1, _⟩ => rfl)
  have hl2 : ∀ k : Fin 128, Read.lidx_main_v30 i k = Sage.rowAt (n := 20000) i k := fun k => funext fun a => Fin.ext (by
    match a with
    | ⟨0, _⟩ => rfl
    | ⟨1, _⟩ => rfl)
  have hr2 : ∀ k : Fin 128, Read.ridx_main_v30 i k = Sage.colAt i k := fun k => funext fun a => Fin.ext (by
    match a with
    | ⟨0, _⟩ => rfl
    | ⟨1, _⟩ => rfl)
  have hb : Read.idx_main_v27 (Read.idx_main_v28 i) = Sage.biasAt i := funext fun a => Fin.ext (by
    match a with
    | ⟨0, _⟩ => rfl)
  simp only [hl, hr, hl2, hr2, hb]
  rfl

theorem act_v32 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) :
    Read.val_main_v32 (F := Ideal) x0 x1 x2 x3 x9 x10 x11 = Sage.act (n := 20000) (K := 128) (C := 256) (Read.val_main_v25 (F := Ideal) x1 x2 x3) x0 x9 x11 x10 := by
  funext i
  rw [Read.val_main_v32_apply, lin_v31, Sage.act_apply, Ideal.hostUnary_tanh_def]

/-- Block 1, drug → protein: the update of the 8000 proteins from 256 input features. -/
theorem lin_v49 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) :
    Read.val_main_v49 (F := Ideal) x0 x1 x2 x3 x6 x7 x8 x9 x10 x11 x12 x13 x14 = Sage.lin (n := 8000) (K := 256) (C := 256) (Read.val_main_v43 (F := Ideal) x0 x1 x2 x3 x9 x10 x11) (Read.val_main_v33 (F := Ideal) x0 x1 x2 x3 x6 x7 x8) x12 x14 x13 := by
  funext i
  rw [Read.val_main_v49_apply, Read.val_main_v47_apply, Read.val_main_v44_apply, Read.val_main_v46_apply, Read.val_main_v45_apply, Read.val_main_v48_apply]
  have hl : ∀ k : Fin 256, Read.lidx_main_v44 i k = Sage.rowAt (n := 8000) i k := fun k => funext fun a => Fin.ext (by
    match a with
    | ⟨0, _⟩ => rfl
    | ⟨1, _⟩ => rfl)
  have hr : ∀ k : Fin 256, Read.ridx_main_v44 i k = Sage.colAt i k := fun k => funext fun a => Fin.ext (by
    match a with
    | ⟨0, _⟩ => rfl
    | ⟨1, _⟩ => rfl)
  have hl2 : ∀ k : Fin 256, Read.lidx_main_v48 i k = Sage.rowAt (n := 8000) i k := fun k => funext fun a => Fin.ext (by
    match a with
    | ⟨0, _⟩ => rfl
    | ⟨1, _⟩ => rfl)
  have hr2 : ∀ k : Fin 256, Read.ridx_main_v48 i k = Sage.colAt i k := fun k => funext fun a => Fin.ext (by
    match a with
    | ⟨0, _⟩ => rfl
    | ⟨1, _⟩ => rfl)
  have hb : Read.idx_main_v45 (Read.idx_main_v46 i) = Sage.biasAt i := funext fun a => Fin.ext (by
    match a with
    | ⟨0, _⟩ => rfl)
  simp only [hl, hr, hl2, hr2, hb]
  rfl

theorem act_v67 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) :
    Read.val_main_v67 (F := Ideal) x0 x1 x2 x3 x6 x7 x8 x9 x10 x11 x12 x13 x14 = Sage.act (n := 8000) (K := 256) (C := 256) (Read.val_main_v43 (F := Ideal) x0 x1 x2 x3 x9 x10 x11) (Read.val_main_v33 (F := Ideal) x0 x1 x2 x3 x6 x7 x8) x12 x14 x13 := by
  funext i
  rw [Read.val_main_v67_apply, lin_v49, Sage.act_apply, Ideal.hostUnary_tanh_def]

/-- Block 1, protein → drug: the update of the 20000 drugs from 256 input features. -/
theorem lin_v65 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v65 (F := Ideal) x0 x1 x2 x3 x6 x7 x8 x9 x10 x11 x15 x16 x17 = Sage.lin (n := 20000) (K := 256) (C := 256) (Read.val_main_v59 (F := Ideal) x0 x1 x2 x3 x6 x7 x8) (Read.val_main_v32 (F := Ideal) x0 x1 x2 x3 x9 x10 x11) x15 x17 x16 := by
  funext i
  rw [Read.val_main_v65_apply, Read.val_main_v63_apply, Read.val_main_v60_apply, Read.val_main_v62_apply, Read.val_main_v61_apply, Read.val_main_v64_apply]
  have hl : ∀ k : Fin 256, Read.lidx_main_v60 i k = Sage.rowAt (n := 20000) i k := fun k => funext fun a => Fin.ext (by
    match a with
    | ⟨0, _⟩ => rfl
    | ⟨1, _⟩ => rfl)
  have hr : ∀ k : Fin 256, Read.ridx_main_v60 i k = Sage.colAt i k := fun k => funext fun a => Fin.ext (by
    match a with
    | ⟨0, _⟩ => rfl
    | ⟨1, _⟩ => rfl)
  have hl2 : ∀ k : Fin 256, Read.lidx_main_v64 i k = Sage.rowAt (n := 20000) i k := fun k => funext fun a => Fin.ext (by
    match a with
    | ⟨0, _⟩ => rfl
    | ⟨1, _⟩ => rfl)
  have hr2 : ∀ k : Fin 256, Read.ridx_main_v64 i k = Sage.colAt i k := fun k => funext fun a => Fin.ext (by
    match a with
    | ⟨0, _⟩ => rfl
    | ⟨1, _⟩ => rfl)
  have hb : Read.idx_main_v61 (Read.idx_main_v62 i) = Sage.biasAt i := funext fun a => Fin.ext (by
    match a with
    | ⟨0, _⟩ => rfl)
  simp only [hl, hr, hl2, hr2, hb]
  rfl

theorem act_v66 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v66 (F := Ideal) x0 x1 x2 x3 x6 x7 x8 x9 x10 x11 x15 x16 x17 = Sage.act (n := 20000) (K := 256) (C := 256) (Read.val_main_v59 (F := Ideal) x0 x1 x2 x3 x6 x7 x8) (Read.val_main_v32 (F := Ideal) x0 x1 x2 x3 x9 x10 x11) x15 x17 x16 := by
  funext i
  rw [Read.val_main_v66_apply, lin_v65, Sage.act_apply, Ideal.hostUnary_tanh_def]

/-- Block 2, drug → protein: the update of the 8000 proteins from 256 input features. -/
theorem lin_v83 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v83 (F := Ideal) x0 x1 x2 x3 x6 x7 x8 x9 x10 x11 x12 x13 x14 x15 x16 x17 = Sage.lin (n := 8000) (K := 256) (C := 256) (Read.val_main_v77 (F := Ideal) x0 x1 x2 x3 x6 x7 x8 x9 x10 x11 x15 x16 x17) (Read.val_main_v67 (F := Ideal) x0 x1 x2 x3 x6 x7 x8 x9 x10 x11 x12 x13 x14) x12 x14 x13 := by
  funext i
  rw [Read.val_main_v83_apply, Read.val_main_v81_apply, Read.val_main_v78_apply, Read.val_main_v80_apply, Read.val_main_v79_apply, Read.val_main_v82_apply]
  have hl : ∀ k : Fin 256, Read.lidx_main_v78 i k = Sage.rowAt (n := 8000) i k := fun k => funext fun a => Fin.ext (by
    match a with
    | ⟨0, _⟩ => rfl
    | ⟨1, _⟩ => rfl)
  have hr : ∀ k : Fin 256, Read.ridx_main_v78 i k = Sage.colAt i k := fun k => funext fun a => Fin.ext (by
    match a with
    | ⟨0, _⟩ => rfl
    | ⟨1, _⟩ => rfl)
  have hl2 : ∀ k : Fin 256, Read.lidx_main_v82 i k = Sage.rowAt (n := 8000) i k := fun k => funext fun a => Fin.ext (by
    match a with
    | ⟨0, _⟩ => rfl
    | ⟨1, _⟩ => rfl)
  have hr2 : ∀ k : Fin 256, Read.ridx_main_v82 i k = Sage.colAt i k := fun k => funext fun a => Fin.ext (by
    match a with
    | ⟨0, _⟩ => rfl
    | ⟨1, _⟩ => rfl)
  have hb : Read.idx_main_v79 (Read.idx_main_v80 i) = Sage.biasAt i := funext fun a => Fin.ext (by
    match a with
    | ⟨0, _⟩ => rfl)
  simp only [hl, hr, hl2, hr2, hb]
  rfl

theorem act_v101 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v101 (F := Ideal) x0 x1 x2 x3 x6 x7 x8 x9 x10 x11 x12 x13 x14 x15 x16 x17 = Sage.act (n := 8000) (K := 256) (C := 256) (Read.val_main_v77 (F := Ideal) x0 x1 x2 x3 x6 x7 x8 x9 x10 x11 x15 x16 x17) (Read.val_main_v67 (F := Ideal) x0 x1 x2 x3 x6 x7 x8 x9 x10 x11 x12 x13 x14) x12 x14 x13 := by
  funext i
  rw [Read.val_main_v101_apply, lin_v83, Sage.act_apply, Ideal.hostUnary_tanh_def]

/-- Block 2, protein → drug: the update of the 20000 drugs from 256 input features. -/
theorem lin_v99 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v99 (F := Ideal) x0 x1 x2 x3 x6 x7 x8 x9 x10 x11 x12 x13 x14 x15 x16 x17 = Sage.lin (n := 20000) (K := 256) (C := 256) (Read.val_main_v93 (F := Ideal) x0 x1 x2 x3 x6 x7 x8 x9 x10 x11 x12 x13 x14) (Read.val_main_v66 (F := Ideal) x0 x1 x2 x3 x6 x7 x8 x9 x10 x11 x15 x16 x17) x15 x17 x16 := by
  funext i
  rw [Read.val_main_v99_apply, Read.val_main_v97_apply, Read.val_main_v94_apply, Read.val_main_v96_apply, Read.val_main_v95_apply, Read.val_main_v98_apply]
  have hl : ∀ k : Fin 256, Read.lidx_main_v94 i k = Sage.rowAt (n := 20000) i k := fun k => funext fun a => Fin.ext (by
    match a with
    | ⟨0, _⟩ => rfl
    | ⟨1, _⟩ => rfl)
  have hr : ∀ k : Fin 256, Read.ridx_main_v94 i k = Sage.colAt i k := fun k => funext fun a => Fin.ext (by
    match a with
    | ⟨0, _⟩ => rfl
    | ⟨1, _⟩ => rfl)
  have hl2 : ∀ k : Fin 256, Read.lidx_main_v98 i k = Sage.rowAt (n := 20000) i k := fun k => funext fun a => Fin.ext (by
    match a with
    | ⟨0, _⟩ => rfl
    | ⟨1, _⟩ => rfl)
  have hr2 : ∀ k : Fin 256, Read.ridx_main_v98 i k = Sage.colAt i k := fun k => funext fun a => Fin.ext (by
    match a with
    | ⟨0, _⟩ => rfl
    | ⟨1, _⟩ => rfl)
  have hb : Read.idx_main_v95 (Read.idx_main_v96 i) = Sage.biasAt i := funext fun a => Fin.ext (by
    match a with
    | ⟨0, _⟩ => rfl)
  simp only [hl, hr, hl2, hr2, hb]
  rfl

theorem act_v100 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) :
    Read.val_main_v100 (F := Ideal) x0 x1 x2 x3 x6 x7 x8 x9 x10 x11 x12 x13 x14 x15 x16 x17 = Sage.act (n := 20000) (K := 256) (C := 256) (Read.val_main_v93 (F := Ideal) x0 x1 x2 x3 x6 x7 x8 x9 x10 x11 x12 x13 x14) (Read.val_main_v66 (F := Ideal) x0 x1 x2 x3 x6 x7 x8 x9 x10 x11 x15 x16 x17) x15 x17 x16 := by
  funext i
  rw [Read.val_main_v100_apply, lin_v99, Sage.act_apply, Ideal.hostUnary_tanh_def]

/-- Block 3, drug → protein: the update of the 8000 proteins from 256 input features. -/
theorem lin_v117 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x18 : (⟨S256x256, .f32⟩ : BufTy).Contents (Elt Ideal)) (x19 : (⟨S256, .f32⟩ : BufTy).Contents (Elt Ideal)) (x20 : (⟨S256x256, .f32⟩ : BufTy).Contents (Elt Ideal)) :
    Read.val_main_v117 (F := Ideal) x0 x1 x2 x3 x6 x7 x8 x9 x10 x11 x12 x13 x14 x15 x16 x17 x18 x19 x20 = Sage.lin (n := 8000) (K := 256) (C := 256) (Read.val_main_v111 (F := Ideal) x0 x1 x2 x3 x6 x7 x8 x9 x10 x11 x12 x13 x14 x15 x16 x17) (Read.val_main_v101 (F := Ideal) x0 x1 x2 x3 x6 x7 x8 x9 x10 x11 x12 x13 x14 x15 x16 x17) x18 x20 x19 := by
  funext i
  rw [Read.val_main_v117_apply, Read.val_main_v115_apply, Read.val_main_v112_apply, Read.val_main_v114_apply, Read.val_main_v113_apply, Read.val_main_v116_apply]
  have hl : ∀ k : Fin 256, Read.lidx_main_v112 i k = Sage.rowAt (n := 8000) i k := fun k => funext fun a => Fin.ext (by
    match a with
    | ⟨0, _⟩ => rfl
    | ⟨1, _⟩ => rfl)
  have hr : ∀ k : Fin 256, Read.ridx_main_v112 i k = Sage.colAt i k := fun k => funext fun a => Fin.ext (by
    match a with
    | ⟨0, _⟩ => rfl
    | ⟨1, _⟩ => rfl)
  have hl2 : ∀ k : Fin 256, Read.lidx_main_v116 i k = Sage.rowAt (n := 8000) i k := fun k => funext fun a => Fin.ext (by
    match a with
    | ⟨0, _⟩ => rfl
    | ⟨1, _⟩ => rfl)
  have hr2 : ∀ k : Fin 256, Read.ridx_main_v116 i k = Sage.colAt i k := fun k => funext fun a => Fin.ext (by
    match a with
    | ⟨0, _⟩ => rfl
    | ⟨1, _⟩ => rfl)
  have hb : Read.idx_main_v113 (Read.idx_main_v114 i) = Sage.biasAt i := funext fun a => Fin.ext (by
    match a with
    | ⟨0, _⟩ => rfl)
  simp only [hl, hr, hl2, hr2, hb]
  rfl

/-- Block 3, protein → drug: the update of the 20000 drugs from 256 input features. -/
theorem lin_v133 (x0 : (⟨S20000x128, .f32⟩ : BufTy).Contents (Elt Ideal)) (x1 : (⟨S8000x128, .f32⟩ : BufTy).Contents (Elt Ideal)) (x2 : (⟨S640000, .i32⟩ : BufTy).Contents (Elt Ideal)) (x3 : (⟨S640000, .i32⟩ : BufTy).Contents (Elt Ideal)) (x6 : (⟨S128x256, .f32⟩ : BufTy).Contents (Elt Ideal)) (x7 : (⟨S256, .f32⟩ : BufTy).Contents (Elt Ideal)) (x8 : (⟨S128x256, .f32⟩ : BufTy).Contents (Elt Ideal)) (x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x21 : (⟨S256x256, .f32⟩ : BufTy).Contents (Elt Ideal)) (x22 : (⟨S256, .f32⟩ : BufTy).Contents (Elt Ideal)) (x23 : (⟨S256x256, .f32⟩ : BufTy).Contents (Elt Ideal)) :
    Read.val_main_v133 (F := Ideal) x0 x1 x2 x3 x6 x7 x8 x9 x10 x11 x12 x13 x14 x15 x16 x17 x21 x22 x23 = Sage.lin (n := 20000) (K := 256) (C := 256) (Read.val_main_v127 (F := Ideal) x0 x1 x2 x3 x6 x7 x8 x9 x10 x11 x12 x13 x14 x15 x16 x17) (Read.val_main_v100 (F := Ideal) x0 x1 x2 x3 x6 x7 x8 x9 x10 x11 x12 x13 x14 x15 x16 x17) x21 x23 x22 := by
  funext i
  rw [Read.val_main_v133_apply, Read.val_main_v131_apply, Read.val_main_v128_apply, Read.val_main_v130_apply, Read.val_main_v129_apply, Read.val_main_v132_apply]
  have hl : ∀ k : Fin 256, Read.lidx_main_v128 i k = Sage.rowAt (n := 20000) i k := fun k => funext fun a => Fin.ext (by
    match a with
    | ⟨0, _⟩ => rfl
    | ⟨1, _⟩ => rfl)
  have hr : ∀ k : Fin 256, Read.ridx_main_v128 i k = Sage.colAt i k := fun k => funext fun a => Fin.ext (by
    match a with
    | ⟨0, _⟩ => rfl
    | ⟨1, _⟩ => rfl)
  have hl2 : ∀ k : Fin 256, Read.lidx_main_v132 i k = Sage.rowAt (n := 20000) i k := fun k => funext fun a => Fin.ext (by
    match a with
    | ⟨0, _⟩ => rfl
    | ⟨1, _⟩ => rfl)
  have hr2 : ∀ k : Fin 256, Read.ridx_main_v132 i k = Sage.colAt i k := fun k => funext fun a => Fin.ext (by
    match a with
    | ⟨0, _⟩ => rfl
    | ⟨1, _⟩ => rfl)
  have hb : Read.idx_main_v129 (Read.idx_main_v130 i) = Sage.biasAt i := funext fun a => Fin.ext (by
    match a with
    | ⟨0, _⟩ => rfl)
  simp only [hl, hr, hl2, hr2, hb]
  rfl

end Cert.ReferenceIdeal.Layers

end
-- ==== Proof.BlockDot.lean ====
/-
  The kernels' arithmetic at one entry of a block.

  Every SAGE kernel body computes, on a block of 2000 destination rows,
      (agg_blk · Wl + xd_blk · Wr) + bl        (and then its hyperbolic tangent, in the activated layers),
  each product a matrix product into a zero accumulator and the bias broadcast along the rows. Read at the entry
  (p, q) of the block this is  (Σ_k agg_blk[p,k]·Wl[k,q] + Σ_k xd_blk[p,k]·Wr[k,q]) + bl[q]:  the changes of float
  format are the identity on extended reals, a matrix product into zero is the plain sum of products, and the
  broadcast bias reads the bias vector at the column.
-/
import proofs.«151185_j10496900071610_2_alg».proof.Proof.Gen.KernelIdeal.Skeleton
import proofs.«151185_j10496900071610_2_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.ValueIdx Cert.Sage

/-- A [2000, 128] block times a [128, 256] block into a zero accumulator, read at an entry: the sum over the 128
    contracted positions of the products (the contraction's index re-indexed to its one coordinate). -/
theorem dot128_at (a : FVec Ideal S2000x128 .bf16) (b : FVec Ideal S128x256 .bf16) (y : S2000x256.Idx) :
    matmul dot_S2000x128_S128x256_S2000x256_1_0_0_1_n_n none a b (constant S2000x256 .f32 0x00000000#32) y
      = ∑ k : Fin 128, a (rowAt y k) * b (colAt y k) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx y ((contrEquiv1 dot_S2000x128_S128x256_S2000x256_1_0_0_1_n_n 128 rfl rfl).symm k) = rowAt y k := funext fun ax => Fin.ext (by
    match ax with
    | ⟨0, _⟩ =>
      show (dot_S2000x128_S128x256_S2000x256_1_0_0_1_n_n.lhsIdx y _ 0).val = (y 0).val
      unfold DotDims.lhsIdx
      rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
      rfl
    | ⟨1, _⟩ => exact (dot_S2000x128_S128x256_S2000x256_1_0_0_1_n_n.lhsIdx_val_of_single rfl y _).trans hk)
  have er : dot_S2000x128_S128x256_S2000x256_1_0_0_1_n_n.rhsIdx y ((contrEquiv1 dot_S2000x128_S128x256_S2000x256_1_0_0_1_n_n 128 rfl rfl).symm k) = colAt y k := funext fun ax => Fin.ext (by
    match ax with
    | ⟨0, _⟩ => exact (dot_S2000x128_S128x256_S2000x256_1_0_0_1_n_n.rhsIdx_val_of_single rfl y _).trans hk
    | ⟨1, _⟩ =>
      show (dot_S2000x128_S128x256_S2000x256_1_0_0_1_n_n.rhsIdx y _ 1).val = (y 1).val
      unfold DotDims.rhsIdx
      rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
      rfl)
  rw [el, er]

/-- A [2000, 256] block times a [256, 256] block into a zero accumulator, read at an entry: the sum over the 256
    contracted positions of the products (the contraction's index re-indexed to its one coordinate). -/
theorem dot256_at (a : FVec Ideal S2000x256 .bf16) (b : FVec Ideal S256x256 .bf16) (y : S2000x256.Idx) :
    matmul dot_S2000x256_S256x256_S2000x256_1_0_0_1_n_n none a b (constant S2000x256 .f32 0x00000000#32) y
      = ∑ k : Fin 256, a (rowAt y k) * b (colAt y k) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx y ((contrEquiv1 dot_S2000x256_S256x256_S2000x256_1_0_0_1_n_n 256 rfl rfl).symm k) = rowAt y k := funext fun ax => Fin.ext (by
    match ax with
    | ⟨0, _⟩ =>
      show (dot_S2000x256_S256x256_S2000x256_1_0_0_1_n_n.lhsIdx y _ 0).val = (y 0).val
      unfold DotDims.lhsIdx
      rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
      rfl
    | ⟨1, _⟩ => exact (dot_S2000x256_S256x256_S2000x256_1_0_0_1_n_n.lhsIdx_val_of_single rfl y _).trans hk)
  have er : dot_S2000x256_S256x256_S2000x256_1_0_0_1_n_n.rhsIdx y ((contrEquiv1 dot_S2000x256_S256x256_S2000x256_1_0_0_1_n_n 256 rfl rfl).symm k) = colAt y k := funext fun ax => Fin.ext (by
    match ax with
    | ⟨0, _⟩ => exact (dot_S2000x256_S256x256_S2000x256_1_0_0_1_n_n.rhsIdx_val_of_single rfl y _).trans hk
    | ⟨1, _⟩ =>
      show (dot_S2000x256_S256x256_S2000x256_1_0_0_1_n_n.rhsIdx y _ 1).val = (y 1).val
      unfold DotDims.rhsIdx
      rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
      rfl)
  rw [el, er]

/-- The bias, cast to one row and broadcast along the 2000 rows, reads the bias vector at the entry's column. -/
theorem bias_at (v : Vec Ideal S256 .f32) (y : S2000x256.Idx) :
    broadcastTo S2000x256 (shapeCast S1x256 v shapeCasts_S256_S1x256) broadcasts_S1x256_S2000x256 y = v (biasAt y) := by
  obtain ⟨p, q, rfl⟩ : ∃ (p : Fin 2000) (q : Fin 256), y = ix2 p q := ⟨y 0, y 1, eq_ix2 y⟩
  rw [broadcastTo_1b_ab_apply, shapeCast_a_1a_apply]

/-- Region 0's body at an entry of its block. -/
theorem pay0_at (v0 : Vec Ideal S2000x128 .f32) (v6 : Vec Ideal S2000x128 .f32) (v3 v8 : Vec Ideal S128x256 .f32) (v12 : Vec Ideal S256 .f32) (y : S2000x256.Idx) :
    k0_pay1 v0 v3 v6 v8 v12 y
      = Ideal.tanh (((∑ k : Fin 128, v0 (rowAt y k) * v3 (colAt y k)) + ∑ k : Fin 128, v6 (rowAt y k) * v8 (colAt y k)) + v12 (biasAt y)) := by
  unfold k0_pay1
  show Ideal.tanh ((matmul (F := Ideal) dot_S2000x128_S128x256_S2000x256_1_0_0_1_n_n none _ _ (constant (F := Ideal) S2000x256 .f32 0x00000000#32) y
      + matmul (F := Ideal) dot_S2000x128_S128x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y) = _
  rw [dot128_at, dot128_at, bias_at]
  simp only [shapeCast_self]
  rfl

/-- Region 1's body at an entry of its block. -/
theorem pay1_at (v0 : Vec Ideal S2000x128 .f32) (v6 : Vec Ideal S2000x128 .f32) (v3 v8 : Vec Ideal S128x256 .f32) (v12 : Vec Ideal S256 .f32) (y : S2000x256.Idx) :
    k1_pay1 v0 v3 v6 v8 v12 y
      = Ideal.tanh (((∑ k : Fin 128, v0 (rowAt y k) * v3 (colAt y k)) + ∑ k : Fin 128, v6 (rowAt y k) * v8 (colAt y k)) + v12 (biasAt y)) := by
  unfold k1_pay1
  show Ideal.tanh ((matmul (F := Ideal) dot_S2000x128_S128x256_S2000x256_1_0_0_1_n_n none _ _ (constant (F := Ideal) S2000x256 .f32 0x00000000#32) y
      + matmul (F := Ideal) dot_S2000x128_S128x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y) = _
  rw [dot128_at, dot128_at, bias_at]
  simp only [shapeCast_self]
  rfl

/-- Region 2's body at an entry of its block. -/
theorem pay2_at (v0 : Vec Ideal S2000x256 .f32) (v6 : Vec Ideal S2000x256 .bf16) (v3 v8 : Vec Ideal S256x256 .f32) (v12 : Vec Ideal S256 .f32) (y : S2000x256.Idx) :
    k2_pay1 v0 v3 v6 v8 v12 y
      = Ideal.tanh (((∑ k : Fin 256, v0 (rowAt y k) * v3 (colAt y k)) + ∑ k : Fin 256, v6 (rowAt y k) * v8 (colAt y k)) + v12 (biasAt y)) := by
  unfold k2_pay1
  show Ideal.tanh ((matmul (F := Ideal) dot_S2000x256_S256x256_S2000x256_1_0_0_1_n_n none _ _ (constant (F := Ideal) S2000x256 .f32 0x00000000#32) y
      + matmul (F := Ideal) dot_S2000x256_S256x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y) = _
  rw [dot256_at, dot256_at, bias_at]
  simp only [shapeCast_self]
  rfl

/-- Region 3's body at an entry of its block. -/
theorem pay3_at (v0 : Vec Ideal S2000x256 .f32) (v6 : Vec Ideal S2000x256 .bf16) (v3 v8 : Vec Ideal S256x256 .f32) (v12 : Vec Ideal S256 .f32) (y : S2000x256.Idx) :
    k3_pay1 v0 v3 v6 v8 v12 y
      = Ideal.tanh (((∑ k : Fin 256, v0 (rowAt y k) * v3 (colAt y k)) + ∑ k : Fin 256, v6 (rowAt y k) * v8 (colAt y k)) + v12 (biasAt y)) := by
  unfold k3_pay1
  show Ideal.tanh ((matmul (F := Ideal) dot_S2000x256_S256x256_S2000x256_1_0_0_1_n_n none _ _ (constant (F := Ideal) S2000x256 .f32 0x00000000#32) y
      + matmul (F := Ideal) dot_S2000x256_S256x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y) = _
  rw [dot256_at, dot256_at, bias_at]
  simp only [shapeCast_self]
  rfl

/-- Region 4's body at an entry of its block. -/
theorem pay4_at (v0 : Vec Ideal S2000x256 .f32) (v6 : Vec Ideal S2000x256 .bf16) (v3 v8 : Vec Ideal S256x256 .f32) (v12 : Vec Ideal S256 .f32) (y : S2000x256.Idx) :
    k4_pay1 v0 v3 v6 v8 v12 y
      = Ideal.tanh (((∑ k : Fin 256, v0 (rowAt y k) * v3 (colAt y k)) + ∑ k : Fin 256, v6 (rowAt y k) * v8 (colAt y k)) + v12 (biasAt y)) := by
  unfold k4_pay1
  show Ideal.tanh ((matmul (F := Ideal) dot_S2000x256_S256x256_S2000x256_1_0_0_1_n_n none _ _ (constant (F := Ideal) S2000x256 .f32 0x00000000#32) y
      + matmul (F := Ideal) dot_S2000x256_S256x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y) = _
  rw [dot256_at, dot256_at, bias_at]
  simp only [shapeCast_self]
  rfl

/-- Region 5's body at an entry of its block. -/
theorem pay5_at (v0 : Vec Ideal S2000x256 .f32) (v6 : Vec Ideal S2000x256 .bf16) (v3 v8 : Vec Ideal S256x256 .f32) (v12 : Vec Ideal S256 .f32) (y : S2000x256.Idx) :
    k5_pay1 v0 v3 v6 v8 v12 y
      = Ideal.tanh (((∑ k : Fin 256, v0 (rowAt y k) * v3 (colAt y k)) + ∑ k : Fin 256, v6 (rowAt y k) * v8 (colAt y k)) + v12 (biasAt y)) := by
  unfold k5_pay1
  show Ideal.tanh ((matmul (F := Ideal) dot_S2000x256_S256x256_S2000x256_1_0_0_1_n_n none _ _ (constant (F := Ideal) S2000x256 .f32 0x00000000#32) y
      + matmul (F := Ideal) dot_S2000x256_S256x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y) = _
  rw [dot256_at, dot256_at, bias_at]
  simp only [shapeCast_self]
  rfl

/-- Region 6's body at an entry of its block (the output layer: no activation). -/
theorem pay6_at (v0 : Vec Ideal S2000x256 .f32) (v6 : Vec Ideal S2000x256 .bf16) (v3 v8 : Vec Ideal S256x256 .f32) (v12 : Vec Ideal S256 .f32) (y : S2000x256.Idx) :
    k6_pay1 v0 v3 v6 v8 v12 y
      = ((∑ k : Fin 256, v0 (rowAt y k) * v3 (colAt y k)) + ∑ k : Fin 256, v6 (rowAt y k) * v8 (colAt y k)) + v12 (biasAt y) := by
  unfold k6_pay1
  show (matmul (F := Ideal) dot_S2000x256_S256x256_S2000x256_1_0_0_1_n_n none _ _ (constant (F := Ideal) S2000x256 .f32 0x00000000#32) y
      + matmul (F := Ideal) dot_S2000x256_S256x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y = _
  rw [dot256_at, dot256_at, bias_at]
  simp only [shapeCast_self]
  rfl

/-- Region 7's body at an entry of its block (the output layer: no activation). -/
theorem pay7_at (v0 : Vec Ideal S2000x256 .f32) (v6 : Vec Ideal S2000x256 .bf16) (v3 v8 : Vec Ideal S256x256 .f32) (v12 : Vec Ideal S256 .f32) (y : S2000x256.Idx) :
    k7_pay1 v0 v3 v6 v8 v12 y
      = ((∑ k : Fin 256, v0 (rowAt y k) * v3 (colAt y k)) + ∑ k : Fin 256, v6 (rowAt y k) * v8 (colAt y k)) + v12 (biasAt y) := by
  unfold k7_pay1
  show (matmul (F := Ideal) dot_S2000x256_S256x256_S2000x256_1_0_0_1_n_n none _ _ (constant (F := Ideal) S2000x256 .f32 0x00000000#32) y
      + matmul (F := Ideal) dot_S2000x256_S256x256_S2000x256_1_0_0_1_n_n none _ _ (constant (F := Ideal) S2000x256 .f32 0x00000000#32) y)
      + broadcastTo (α := EReal) S2000x256 (shapeCast S1x256 v12 shapeCasts_S256_S1x256) broadcasts_S1x256_S2000x256 y = _
  rw [dot256_at, dot256_at, bias_at]
  simp only [shapeCast_self]
  rfl

end Cert.KernelIdeal.Blocks

end
-- ==== Proof.Region0.lean ====
/-
  Region 0: one SAGE layer's linear update with its activation over 8000 destination nodes and 128 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.act` —, the 4 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 4 grid points. -/
theorem t_lt (t : Fin cfg0.N) : t.val < 4 := lt_of_lt_of_eq t.isLt N_0

/-- Entry (p, q) of point `t`'s block, as an entry of the whole result: row 2000·t + p, column q. -/
def outIdx (t : Fin cfg0.N) (y : S2000x256.Idx) : (⟨2, ![8000, 256]⟩ : Shape).Idx :=
  ix2 (⟨t.val * 2000 + (y 0).val, by have h : (y 0).val < 2000 := (y 0).isLt; have := t_lt t; show _ < 8000; omega⟩ : Fin 8000) (⟨(y 1).val, (y 1).isLt⟩ : Fin 256)

/-- The index maps over the grid: the row-blocked windows (aggregate, destination features, results) sit at block
    row `t`, block column 0; the weights and the bias at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Entry (p, q) of window 5's block at point `t` is entry (2000·t + p, q) of the result. -/
theorem emb_out5 (t : Fin cfg0.N) (y : S2000x256.Idx) : ((cfg0.win 5).blk t).view.emb y = (outIdx t y : S8000x256.Idx) := by
  obtain ⟨e00, e01, e10, e11, e20, e21, e30, e40, e41, e50, e51, e60, e61⟩ := idx_facts t
  funext a; apply Fin.ext
  match a with
  | ⟨0, _⟩ => show win0_5.index t (0 : Fin 2) * 2000 + 1 * (y 0).val = t.val * 2000 + (y 0).val; omega
  | ⟨1, _⟩ => show win0_5.index t (1 : Fin 2) * 256 + 1 * (y 1).val = (y 1).val; omega

/-- Entry (p, q) of window 6's block at point `t` is entry (2000·t + p, q) of the result. -/
theorem emb_out6 (t : Fin cfg0.N) (y : S2000x256.Idx) : ((cfg0.win 6).blk t).view.emb y = (outIdx t y : S8000x256.Idx) := by
  obtain ⟨e00, e01, e10, e11, e20, e21, e30, e40, e41, e50, e51, e60, e61⟩ := idx_facts t
  funext a; apply Fin.ext
  match a with
  | ⟨0, _⟩ => show win0_6.index t (0 : Fin 2) * 2000 + 1 * (y 0).val = t.val * 2000 + (y 0).val; omega
  | ⟨1, _⟩ => show win0_6.index t (1 : Fin 2) * 256 + 1 * (y 1).val = (y 1).val; omega

/-- Entry (p, k) of the aggregate's block at point `t` is entry (2000·t + p, k) of the aggregate. -/
theorem read0_at (c : Dev nD) (t : Fin cfg0.N) (y : S2000x256.Idx) (k : Fin 128) :
    iblk0 V c 0 t (Sage.rowAt y k) = V c main_v9 (Sage.rowAt (n := 8000) (outIdx t y) k) := by
  have e : ((cfg0.win 0).blk t).view.emb (Sage.rowAt y k) = (Sage.rowAt (n := 8000) (outIdx t y) k : S8000x128.Idx) := by
    obtain ⟨e00, e01, e10, e11, e20, e21, e30, e40, e41, e50, e51, e60, e61⟩ := idx_facts t
    funext a; apply Fin.ext
    match a with
    | ⟨0, _⟩ => show win0_0.index t (0 : Fin 2) * 2000 + 1 * (y 0).val = t.val * 2000 + (y 0).val; omega
    | ⟨1, _⟩ => show win0_0.index t (1 : Fin 2) * 128 + 1 * k.val = k.val; omega
  show V c main_v9 (((cfg0.win 0).blk t).view.emb (Sage.rowAt y k)) = _
  rw [e]

/-- The same for the destination features' block. -/
theorem read1_at (c : Dev nD) (t : Fin cfg0.N) (y : S2000x256.Idx) (k : Fin 128) :
    iblk0 V c 1 t (Sage.rowAt y k) = V c main_arg1 (Sage.rowAt (n := 8000) (outIdx t y) k) := by
  have e : ((cfg0.win 1).blk t).view.emb (Sage.rowAt y k) = (Sage.rowAt (n := 8000) (outIdx t y) k : S8000x128.Idx) := by
    obtain ⟨e00, e01, e10, e11, e20, e21, e30, e40, e41, e50, e51, e60, e61⟩ := idx_facts t
    funext a; apply Fin.ext
    match a with
    | ⟨0, _⟩ => show win0_1.index t (0 : Fin 2) * 2000 + 1 * (y 0).val = t.val * 2000 + (y 0).val; omega
    | ⟨1, _⟩ => show win0_1.index t (1 : Fin 2) * 128 + 1 * k.val = k.val; omega
  show V c main_arg1 (((cfg0.win 1).blk t).view.emb (Sage.rowAt y k)) = _
  rw [e]

/-- The left weights are staged whole: entry (k, q) of the block is entry (k, q) of the matrix. -/
theorem read2_at (c : Dev nD) (t : Fin cfg0.N) (y : S2000x256.Idx) (k : Fin 128) :
    iblk0 V c 2 t (Sage.colAt y k) = V c main_arg6 (Sage.colAt (outIdx t y) k) := by
  have e : ((cfg0.win 2).blk t).view.emb (Sage.colAt y k) = (Sage.colAt (outIdx t y) k : S128x256.Idx) := by
    obtain ⟨e00, e01, e10, e11, e20, e21, e30, e40, e41, e50, e51, e60, e61⟩ := idx_facts t
    funext a; apply Fin.ext
    match a with
    | ⟨0, _⟩ => show win0_2.index t (0 : Fin 2) * 128 + 1 * k.val = k.val; omega
    | ⟨1, _⟩ => show win0_2.index t (1 : Fin 2) * 256 + 1 * (y 1).val = (y 1).val; omega
  show V c main_arg6 (((cfg0.win 2).blk t).view.emb (Sage.colAt y k)) = _
  rw [e]

/-- The right weights likewise. -/
theorem read4_at (c : Dev nD) (t : Fin cfg0.N) (y : S2000x256.Idx) (k : Fin 128) :
    iblk0 V c 4 t (Sage.colAt y k) = V c main_arg8 (Sage.colAt (outIdx t y) k) := by
  have e : ((cfg0.win 4).blk t).view.emb (Sage.colAt y k) = (Sage.colAt (outIdx t y) k : S128x256.Idx) := by
    obtain ⟨e00, e01, e10, e11, e20, e21, e30, e40, e41, e50, e51, e60, e61⟩ := idx_facts t
    funext a; apply Fin.ext
    match a with
    | ⟨0, _⟩ => show win0_4.index t (0 : Fin 2) * 128 + 1 * k.val = k.val; omega
    | ⟨1, _⟩ => show win0_4.index t (1 : Fin 2) * 256 + 1 * (y 1).val = (y 1).val; omega
  show V c main_arg8 (((cfg0.win 4).blk t).view.emb (Sage.colAt y k)) = _
  rw [e]

/-- The bias is staged whole. -/
theorem read3_at (c : Dev nD) (t : Fin cfg0.N) (y : S2000x256.Idx) :
    iblk0 V c 3 t (Sage.biasAt y) = V c main_arg7 (Sage.biasAt (outIdx t y)) := by
  have e : ((cfg0.win 3).blk t).view.emb (Sage.biasAt y) = (Sage.biasAt (outIdx t y) : S256.Idx) := by
    obtain ⟨e00, e01, e10, e11, e20, e21, e30, e40, e41, e50, e51, e60, e61⟩ := idx_facts t
    funext a; apply Fin.ext
    match a with
    | ⟨0, _⟩ => show win0_3.index t (0 : Fin 1) * 256 + 1 * (y 1).val = (y 1).val; omega
  show V c main_arg7 (((cfg0.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg0.N) :
    (dat0 V c).flushed 5 t = ((cfg0.win 5).blk t).view.read (Elt Ideal) (Sage.act (n := 8000) (K := 128) (C := 256) (V c main_v9) (V c main_arg1) (V c main_arg6) (V c main_arg8) (V c main_arg7)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x256) hz2, View.ld_unit_zero (S := S256) hz1]
  funext y
  show k0_pay1 (iblk0 V c 0 t) (iblk0 V c 2 t) (iblk0 V c 1 t) (iblk0 V c 4 t) (iblk0 V c 3 t) y = Sage.act (n := 8000) (K := 128) (C := 256) (V c main_v9) (V c main_arg1) (V c main_arg6) (V c main_arg8) (V c main_arg7) (((cfg0.win 5).blk t).view.emb y)
  rw [pay0_at, emb_out5, Sage.act_apply, Sage.lin_apply]
  simp only [read0_at, read1_at, read2_at, read4_at, read3_at]
  rw [Sage.regroup]

/-- What point `t` writes back through window 6 is block `t` of the layer's update of the arrays the region finds:
    rows `2000·t … 2000·t + 1999`, every column. -/
theorem flushed6 (c : Dev nD) (t : Fin cfg0.N) :
    (dat0 V c).flushed 6 t = ((cfg0.win 6).blk t).view.read (Elt Ideal) (Sage.act (n := 8000) (K := 128) (C := 256) (V c main_v9) (V c main_arg1) (V c main_arg6) (V c main_arg8) (V c main_arg7)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x256) hz2, View.ld_unit_zero (S := S256) hz1]
  funext y
  show k0_pay1 (iblk0 V c 0 t) (iblk0 V c 2 t) (iblk0 V c 1 t) (iblk0 V c 4 t) (iblk0 V c 3 t) y = Sage.act (n := 8000) (K := 128) (C := 256) (V c main_v9) (V c main_arg1) (V c main_arg6) (V c main_arg8) (V c main_arg7) (((cfg0.win 6).blk t).view.emb y)
  rw [pay0_at, emb_out6, Sage.act_apply, Sage.lin_apply]
  simp only [read0_at, read1_at, read2_at, read4_at, read3_at]
  rw [Sage.regroup]

/-- An index of the result is in point `t`'s block iff its row is one of the point's 2000. -/
theorem mem_blk5 (t : Fin cfg0.N) (i : S8000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v10_0).slice (win0_5.rect t)).set ↔ _
  rw [View.set_slice_whole, Rect.mem_set_unit]
  exact Iff.rfl

/-- Every entry of the result lies in the block of the point its row falls to: point `row / 2000`. -/
theorem cover5 (i : S8000x256.Idx) : ∃ t : Fin cfg0.N, (cfg0.win 5).flush t = true ∧ i ∈ ((cfg0.win 5).blk t).view.set := by
  have h0 : (i 0).val < 8000 := (i 0).isLt
  have h1 : (i 1).val < 256 := (i 1).isLt
  let t : Fin cfg0.N := ⟨(i 0).val / 2000, lt_of_lt_of_eq (by omega : (i 0).val / 2000 < 4) N_0.symm⟩
  obtain ⟨e00, e01, e10, e11, e20, e21, e30, e40, e41, e50, e51, e60, e61⟩ := idx_facts t
  have ht : t.val = (i 0).val / 2000 := rfl
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE ARRAY behind window 5 after the region: the layer's update of the arrays the region finds. -/
theorem final5 (c : Dev nD) : (dat0 V c).arrAt 5 cfg0.N = Sage.act (n := 8000) (K := 128) (C := 256) (V c main_v9) (V c main_arg1) (V c main_arg6) (V c main_arg8) (V c main_arg7) :=
  (dat0 V c).arrAt_eq_of_cover 5 _ (fun t _ => flushed5 V c t) cover5

/-- An index of the result is in point `t`'s block iff its row is one of the point's 2000. -/
theorem mem_blk6 (t : Fin cfg0.N) (i : S8000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v10_1).slice (win0_6.rect t)).set ↔ _
  rw [View.set_slice_whole, Rect.mem_set_unit]
  exact Iff.rfl

/-- Every entry of the result lies in the block of the point its row falls to: point `row / 2000`. -/
theorem cover6 (i : S8000x256.Idx) : ∃ t : Fin cfg0.N, (cfg0.win 6).flush t = true ∧ i ∈ ((cfg0.win 6).blk t).view.set := by
  have h0 : (i 0).val < 8000 := (i 0).isLt
  have h1 : (i 1).val < 256 := (i 1).isLt
  let t : Fin cfg0.N := ⟨(i 0).val / 2000, lt_of_lt_of_eq (by omega : (i 0).val / 2000 < 4) N_0.symm⟩
  obtain ⟨e00, e01, e10, e11, e20, e21, e30, e40, e41, e50, e51, e60, e61⟩ := idx_facts t
  have ht : t.val = (i 0).val / 2000 := rfl
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- THE ARRAY behind window 6 after the region: the layer's update of the arrays the region finds (the half-precision copy holds the same extended reals: a change of float format is the identity). -/
theorem final6 (c : Dev nD) : (dat0 V c).arrAt 6 cfg0.N = Sage.act (n := 8000) (K := 128) (C := 256) (V c main_v9) (V c main_arg1) (V c main_arg6) (V c main_arg8) (V c main_arg7) :=
  (dat0 V c).arrAt_eq_of_cover 6 _ (fun t _ => flushed6 V c t) cover6

end Cert.KernelIdeal.Region0

end
-- ==== Proof.Region1.lean ====
/-
  Region 1: one SAGE layer's linear update with its activation over 20000 destination nodes and 128 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.act` —, the 10 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 10 grid points. -/
theorem t_lt (t : Fin cfg1.N) : t.val < 10 := lt_of_lt_of_eq t.isLt N_1

/-- Entry (p, q) of point `t`'s block, as an entry of the whole result: row 2000·t + p, column q. -/
def outIdx (t : Fin cfg1.N) (y : S2000x256.Idx) : (⟨2, ![20000, 256]⟩ : Shape).Idx :=
  ix2 (⟨t.val * 2000 + (y 0).val, by have h : (y 0).val < 2000 := (y 0).isLt; have := t_lt t; show _ < 20000; omega⟩ : Fin 20000) (⟨(y 1).val, (y 1).isLt⟩ : Fin 256)

/-- The index maps over the grid: the row-blocked windows (aggregate, destination features, results) sit at block
    row `t`, block column 0; the weights and the bias at block 0 throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Entry (p, q) of window 5's block at point `t` is entry (2000·t + p, q) of the result. -/
theorem emb_out5 (t : Fin cfg1.N) (y : S2000x256.Idx) : ((cfg1.win 5).blk t).view.emb y = (outIdx t y : S20000x256.Idx) := by
  obtain ⟨e00, e01, e10, e11, e20, e21, e30, e40, e41, e50, e51, e60, e61⟩ := idx_facts t
  funext a; apply Fin.ext
  match a with
  | ⟨0, _⟩ => show win1_5.index t (0 : Fin 2) * 2000 + 1 * (y 0).val = t.val * 2000 + (y 0).val; omega
  | ⟨1, _⟩ => show win1_5.index t (1 : Fin 2) * 256 + 1 * (y 1).val = (y 1).val; omega

/-- Entry (p, q) of window 6's block at point `t` is entry (2000·t + p, q) of the result. -/
theorem emb_out6 (t : Fin cfg1.N) (y : S2000x256.Idx) : ((cfg1.win 6).blk t).view.emb y = (outIdx t y : S20000x256.Idx) := by
  obtain ⟨e00, e01, e10, e11, e20, e21, e30, e40, e41, e50, e51, e60, e61⟩ := idx_facts t
  funext a; apply Fin.ext
  match a with
  | ⟨0, _⟩ => show win1_6.index t (0 : Fin 2) * 2000 + 1 * (y 0).val = t.val * 2000 + (y 0).val; omega
  | ⟨1, _⟩ => show win1_6.index t (1 : Fin 2) * 256 + 1 * (y 1).val = (y 1).val; omega

/-- Entry (p, k) of the aggregate's block at point `t` is entry (2000·t + p, k) of the aggregate. -/
theorem read0_at (c : Dev nD) (t : Fin cfg1.N) (y : S2000x256.Idx) (k : Fin 128) :
    iblk1 V c 0 t (Sage.rowAt y k) = V c main_v20 (Sage.rowAt (n := 20000) (outIdx t y) k) := by
  have e : ((cfg1.win 0).blk t).view.emb (Sage.rowAt y k) = (Sage.rowAt (n := 20000) (outIdx t y) k : S20000x128.Idx) := by
    obtain ⟨e00, e01, e10, e11, e20, e21, e30, e40, e41, e50, e51, e60, e61⟩ := idx_facts t
    funext a; apply Fin.ext
    match a with
    | ⟨0, _⟩ => show win1_0.index t (0 : Fin 2) * 2000 + 1 * (y 0).val = t.val * 2000 + (y 0).val; omega
    | ⟨1, _⟩ => show win1_0.index t (1 : Fin 2) * 128 + 1 * k.val = k.val; omega
  show V c main_v20 (((cfg1.win 0).blk t).view.emb (Sage.rowAt y k)) = _
  rw [e]

/-- The same for the destination features' block. -/
theorem read1_at (c : Dev nD) (t : Fin cfg1.N) (y : S2000x256.Idx) (k : Fin 128) :
    iblk1 V c 1 t (Sage.rowAt y k) = V c main_arg0 (Sage.rowAt (n := 20000) (outIdx t y) k) := by
  have e : ((cfg1.win 1).blk t).view.emb (Sage.rowAt y k) = (Sage.rowAt (n := 20000) (outIdx t y) k : S20000x128.Idx) := by
    obtain ⟨e00, e01, e10, e11, e20, e21, e30, e40, e41, e50, e51, e60, e61⟩ := idx_facts t
    funext a; apply Fin.ext
    match a with
    | ⟨0, _⟩ => show win1_1.index t (0 : Fin 2) * 2000 + 1 * (y 0).val = t.val * 2000 + (y 0).val; omega
    | ⟨1, _⟩ => show win1_1.index t (1 : Fin 2) * 128 + 1 * k.val = k.val; omega
  show V c main_arg0 (((cfg1.win 1).blk t).view.emb (Sage.rowAt y k)) = _
  rw [e]

/-- The left weights are staged whole: entry (k, q) of the block is entry (k, q) of the matrix. -/
theorem read2_at (c : Dev nD) (t : Fin cfg1.N) (y : S2000x256.Idx) (k : Fin 128) :
    iblk1 V c 2 t (Sage.colAt y k) = V c main_arg9 (Sage.colAt (outIdx t y) k) := by
  have e : ((cfg1.win 2).blk t).view.emb (Sage.colAt y k) = (Sage.colAt (outIdx t y) k : S128x256.Idx) := by
    obtain ⟨e00, e01, e10, e11, e20, e21, e30, e40, e41, e50, e51, e60, e61⟩ := idx_facts t
    funext a; apply Fin.ext
    match a with
    | ⟨0, _⟩ => show win1_2.index t (0 : Fin 2) * 128 + 1 * k.val = k.val; omega
    | ⟨1, _⟩ => show win1_2.index t (1 : Fin 2) * 256 + 1 * (y 1).val = (y 1).val; omega
  show V c main_arg9 (((cfg1.win 2).blk t).view.emb (Sage.colAt y k)) = _
  rw [e]

/-- The right weights likewise. -/
theorem read4_at (c : Dev nD) (t : Fin cfg1.N) (y : S2000x256.Idx) (k : Fin 128) :
    iblk1 V c 4 t (Sage.colAt y k) = V c main_arg11 (Sage.colAt (outIdx t y) k) := by
  have e : ((cfg1.win 4).blk t).view.emb (Sage.colAt y k) = (Sage.colAt (outIdx t y) k : S128x256.Idx) := by
    obtain ⟨e00, e01, e10, e11, e20, e21, e30, e40, e41, e50, e51, e60, e61⟩ := idx_facts t
    funext a; apply Fin.ext
    match a with
    | ⟨0, _⟩ => show win1_4.index t (0 : Fin 2) * 128 + 1 * k.val = k.val; omega
    | ⟨1, _⟩ => show win1_4.index t (1 : Fin 2) * 256 + 1 * (y 1).val = (y 1).val; omega
  show V c main_arg11 (((cfg1.win 4).blk t).view.emb (Sage.colAt y k)) = _
  rw [e]

/-- The bias is staged whole. -/
theorem read3_at (c : Dev nD) (t : Fin cfg1.N) (y : S2000x256.Idx) :
    iblk1 V c 3 t (Sage.biasAt y) = V c main_arg10 (Sage.biasAt (outIdx t y)) := by
  have e : ((cfg1.win 3).blk t).view.emb (Sage.biasAt y) = (Sage.biasAt (outIdx t y) : S256.Idx) := by
    obtain ⟨e00, e01, e10, e11, e20, e21, e30, e40, e41, e50, e51, e60, e61⟩ := idx_facts t
    funext a; apply Fin.ext
    match a with
    | ⟨0, _⟩ => show win1_3.index t (0 : Fin 1) * 256 + 1 * (y 1).val = (y 1).val; omega
  show V c main_arg10 (((cfg1.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg1.N) :
    (dat1 V c).flushed 5 t = ((cfg1.win 5).blk t).view.read (Elt Ideal) (Sage.act (n := 20000) (K := 128) (C := 256) (V c main_v20) (V c main_arg0) (V c main_arg9) (V c main_arg11) (V c main_arg10)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x256) hz2, View.ld_unit_zero (S := S256) hz1]
  funext y
  show k1_pay1 (iblk1 V c 0 t) (iblk1 V c 2 t) (iblk1 V c 1 t) (iblk1 V c 4 t) (iblk1 V c 3 t) y = Sage.act (n := 20000) (K := 128) (C := 256) (V c main_v20) (V c main_arg0) (V c main_arg9) (V c main_arg11) (V c main_arg10) (((cfg1.win 5).blk t).view.emb y)
  rw [pay1_at, emb_out5, Sage.act_apply, Sage.lin_apply]
  simp only [read0_at, read1_at, read2_at, read4_at, read3_at]
  rw [Sage.regroup]

/-- What point `t` writes back through window 6 is block `t` of the layer's update of the arrays the region finds:
    rows `2000·t … 2000·t + 1999`, every column. -/
theorem flushed6 (c : Dev nD) (t : Fin cfg1.N) :
    (dat1 V c).flushed 6 t = ((cfg1.win 6).blk t).view.read (Elt Ideal) (Sage.act (n := 20000) (K := 128) (C := 256) (V c main_v20) (V c main_arg0) (V c main_arg9) (V c main_arg11) (V c main_arg10)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128x256) hz2, View.ld_unit_zero (S := S256) hz1]
  funext y
  show k1_pay1 (iblk1 V c 0 t) (iblk1 V c 2 t) (iblk1 V c 1 t) (iblk1 V c 4 t) (iblk1 V c 3 t) y = Sage.act (n := 20000) (K := 128) (C := 256) (V c main_v20) (V c main_arg0) (V c main_arg9) (V c main_arg11) (V c main_arg10) (((cfg1.win 6).blk t).view.emb y)
  rw [pay1_at, emb_out6, Sage.act_apply, Sage.lin_apply]
  simp only [read0_at, read1_at, read2_at, read4_at, read3_at]
  rw [Sage.regroup]

/-- An index of the result is in point `t`'s block iff its row is one of the point's 2000. -/
theorem mem_blk5 (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v21_0).slice (win1_5.rect t)).set ↔ _
  rw [View.set_slice_whole, Rect.mem_set_unit]
  exact Iff.rfl

/-- Every entry of the result lies in the block of the point its row falls to: point `row / 2000`. -/
theorem cover5 (i : S20000x256.Idx) : ∃ t : Fin cfg1.N, (cfg1.win 5).flush t = true ∧ i ∈ ((cfg1.win 5).blk t).view.set := by
  have h0 : (i 0).val < 20000 := (i 0).isLt
  have h1 : (i 1).val < 256 := (i 1).isLt
  let t : Fin cfg1.N := ⟨(i 0).val / 2000, lt_of_lt_of_eq (by omega : (i 0).val / 2000 < 10) N_1.symm⟩
  obtain ⟨e00, e01, e10, e11, e20, e21, e30, e40, e41, e50, e51, e60, e61⟩ := idx_facts t
  have ht : t.val = (i 0).val / 2000 := rfl
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE ARRAY behind window 5 after the region: the layer's update of the arrays the region finds. -/
theorem final5 (c : Dev nD) : (dat1 V c).arrAt 5 cfg1.N = Sage.act (n := 20000) (K := 128) (C := 256) (V c main_v20) (V c main_arg0) (V c main_arg9) (V c main_arg11) (V c main_arg10) :=
  (dat1 V c).arrAt_eq_of_cover 5 _ (fun t _ => flushed5 V c t) cover5

/-- An index of the result is in point `t`'s block iff its row is one of the point's 2000. -/
theorem mem_blk6 (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v21_1).slice (win1_6.rect t)).set ↔ _
  rw [View.set_slice_whole, Rect.mem_set_unit]
  exact Iff.rfl

/-- Every entry of the result lies in the block of the point its row falls to: point `row / 2000`. -/
theorem cover6 (i : S20000x256.Idx) : ∃ t : Fin cfg1.N, (cfg1.win 6).flush t = true ∧ i ∈ ((cfg1.win 6).blk t).view.set := by
  have h0 : (i 0).val < 20000 := (i 0).isLt
  have h1 : (i 1).val < 256 := (i 1).isLt
  let t : Fin cfg1.N := ⟨(i 0).val / 2000, lt_of_lt_of_eq (by omega : (i 0).val / 2000 < 10) N_1.symm⟩
  obtain ⟨e00, e01, e10, e11, e20, e21, e30, e40, e41, e50, e51, e60, e61⟩ := idx_facts t
  have ht : t.val = (i 0).val / 2000 := rfl
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- THE ARRAY behind window 6 after the region: the layer's update of the arrays the region finds (the half-precision copy holds the same extended reals: a change of float format is the identity). -/
theorem final6 (c : Dev nD) : (dat1 V c).arrAt 6 cfg1.N = Sage.act (n := 20000) (K := 128) (C := 256) (V c main_v20) (V c main_arg0) (V c main_arg9) (V c main_arg11) (V c main_arg10) :=
  (dat1 V c).arrAt_eq_of_cover 6 _ (fun t _ => flushed6 V c t) cover6

end Cert.KernelIdeal.Region1

end
-- ==== Proof.Region2.lean ====
/-
  Region 2: one SAGE layer's linear update with its activation over 8000 destination nodes and 256 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.act` —, the 4 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 4 grid points. -/
theorem t_lt (t : Fin cfg2.N) : t.val < 4 := lt_of_lt_of_eq t.isLt N_2

/-- Entry (p, q) of point `t`'s block, as an entry of the whole result: row 2000·t + p, column q. -/
def outIdx (t : Fin cfg2.N) (y : S2000x256.Idx) : (⟨2, ![8000, 256]⟩ : Shape).Idx :=
  ix2 (⟨t.val * 2000 + (y 0).val, by have h : (y 0).val < 2000 := (y 0).isLt; have := t_lt t; show _ < 8000; omega⟩ : Fin 8000) (⟨(y 1).val, (y 1).isLt⟩ : Fin 256)

/-- The index maps over the grid: the row-blocked windows (aggregate, destination features, results) sit at block
    row `t`, block column 0; the weights and the bias at block 0 throughout. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Entry (p, q) of window 5's block at point `t` is entry (2000·t + p, q) of the result. -/
theorem emb_out5 (t : Fin cfg2.N) (y : S2000x256.Idx) : ((cfg2.win 5).blk t).view.emb y = (outIdx t y : S8000x256.Idx) := by
  obtain ⟨e00, e01, e10, e11, e20, e21, e30, e40, e41, e50, e51, e60, e61⟩ := idx_facts t
  funext a; apply Fin.ext
  match a with
  | ⟨0, _⟩ => show win2_5.index t (0 : Fin 2) * 2000 + 1 * (y 0).val = t.val * 2000 + (y 0).val; omega
  | ⟨1, _⟩ => show win2_5.index t (1 : Fin 2) * 256 + 1 * (y 1).val = (y 1).val; omega

/-- Entry (p, q) of window 6's block at point `t` is entry (2000·t + p, q) of the result. -/
theorem emb_out6 (t : Fin cfg2.N) (y : S2000x256.Idx) : ((cfg2.win 6).blk t).view.emb y = (outIdx t y : S8000x256.Idx) := by
  obtain ⟨e00, e01, e10, e11, e20, e21, e30, e40, e41, e50, e51, e60, e61⟩ := idx_facts t
  funext a; apply Fin.ext
  match a with
  | ⟨0, _⟩ => show win2_6.index t (0 : Fin 2) * 2000 + 1 * (y 0).val = t.val * 2000 + (y 0).val; omega
  | ⟨1, _⟩ => show win2_6.index t (1 : Fin 2) * 256 + 1 * (y 1).val = (y 1).val; omega

/-- Entry (p, k) of the aggregate's block at point `t` is entry (2000·t + p, k) of the aggregate. -/
theorem read0_at (c : Dev nD) (t : Fin cfg2.N) (y : S2000x256.Idx) (k : Fin 256) :
    iblk2 V c 0 t (Sage.rowAt y k) = V c main_v31 (Sage.rowAt (n := 8000) (outIdx t y) k) := by
  have e : ((cfg2.win 0).blk t).view.emb (Sage.rowAt y k) = (Sage.rowAt (n := 8000) (outIdx t y) k : S8000x256.Idx) := by
    obtain ⟨e00, e01, e10, e11, e20, e21, e30, e40, e41, e50, e51, e60, e61⟩ := idx_facts t
    funext a; apply Fin.ext
    match a with
    | ⟨0, _⟩ => show win2_0.index t (0 : Fin 2) * 2000 + 1 * (y 0).val = t.val * 2000 + (y 0).val; omega
    | ⟨1, _⟩ => show win2_0.index t (1 : Fin 2) * 256 + 1 * k.val = k.val; omega
  show V c main_v31 (((cfg2.win 0).blk t).view.emb (Sage.rowAt y k)) = _
  rw [e]

/-- The same for the destination features' block. -/
theorem read1_at (c : Dev nD) (t : Fin cfg2.N) (y : S2000x256.Idx) (k : Fin 256) :
    iblk2 V c 1 t (Sage.rowAt y k) = V c main_v10_1 (Sage.rowAt (n := 8000) (outIdx t y) k) := by
  have e : ((cfg2.win 1).blk t).view.emb (Sage.rowAt y k) = (Sage.rowAt (n := 8000) (outIdx t y) k : S8000x256.Idx) := by
    obtain ⟨e00, e01, e10, e11, e20, e21, e30, e40, e41, e50, e51, e60, e61⟩ := idx_facts t
    funext a; apply Fin.ext
    match a with
    | ⟨0, _⟩ => show win2_1.index t (0 : Fin 2) * 2000 + 1 * (y 0).val = t.val * 2000 + (y 0).val; omega
    | ⟨1, _⟩ => show win2_1.index t (1 : Fin 2) * 256 + 1 * k.val = k.val; omega
  show V c main_v10_1 (((cfg2.win 1).blk t).view.emb (Sage.rowAt y k)) = _
  rw [e]

/-- The left weights are staged whole: entry (k, q) of the block is entry (k, q) of the matrix. -/
theorem read2_at (c : Dev nD) (t : Fin cfg2.N) (y : S2000x256.Idx) (k : Fin 256) :
    iblk2 V c 2 t (Sage.colAt y k) = V c main_arg12 (Sage.colAt (outIdx t y) k) := by
  have e : ((cfg2.win 2).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win2_2.index t (0 : Fin 2) * 256 + 1 * k.val = k.val; omega
    | ⟨1, _⟩ => show win2_2.index t (1 : Fin 2) * 256 + 1 * (y 1).val = (y 1).val; omega
  show V c main_arg12 (((cfg2.win 2).blk t).view.emb (Sage.colAt y k)) = _
  rw [e]

/-- The right weights likewise. -/
theorem read4_at (c : Dev nD) (t : Fin cfg2.N) (y : S2000x256.Idx) (k : Fin 256) :
    iblk2 V c 4 t (Sage.colAt y k) = V c main_arg14 (Sage.colAt (outIdx t y) k) := by
  have e : ((cfg2.win 4).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win2_4.index t (0 : Fin 2) * 256 + 1 * k.val = k.val; omega
    | ⟨1, _⟩ => show win2_4.index t (1 : Fin 2) * 256 + 1 * (y 1).val = (y 1).val; omega
  show V c main_arg14 (((cfg2.win 4).blk t).view.emb (Sage.colAt y k)) = _
  rw [e]

/-- The bias is staged whole. -/
theorem read3_at (c : Dev nD) (t : Fin cfg2.N) (y : S2000x256.Idx) :
    iblk2 V c 3 t (Sage.biasAt y) = V c main_arg13 (Sage.biasAt (outIdx t y)) := by
  have e : ((cfg2.win 3).blk t).view.emb (Sage.biasAt y) = (Sage.biasAt (outIdx t y) : S256.Idx) := by
    obtain ⟨e00, e01, e10, e11, e20, e21, e30, e40, e41, e50, e51, e60, e61⟩ := idx_facts t
    funext a; apply Fin.ext
    match a with
    | ⟨0, _⟩ => show win2_3.index t (0 : Fin 1) * 256 + 1 * (y 1).val = (y 1).val; omega
  show V c main_arg13 (((cfg2.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg2.N) :
    (dat2 V c).flushed 5 t = ((cfg2.win 5).blk t).view.read (Elt Ideal) (Sage.act (n := 8000) (K := 256) (C := 256) (V c main_v31) (V c main_v10_1) (V c main_arg12) (V c main_arg14) (V c main_arg13)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S256) hz1]
  funext y
  show k2_pay1 (iblk2 V c 0 t) (iblk2 V c 2 t) (iblk2 V c 1 t) (iblk2 V c 4 t) (iblk2 V c 3 t) y = Sage.act (n := 8000) (K := 256) (C := 256) (V c main_v31) (V c main_v10_1) (V c main_arg12) (V c main_arg14) (V c main_arg13) (((cfg2.win 5).blk t).view.emb y)
  rw [pay2_at, emb_out5, Sage.act_apply, Sage.lin_apply]
  simp only [read0_at, read1_at, read2_at, read4_at, read3_at]
  rw [Sage.regroup]

/-- What point `t` writes back through window 6 is block `t` of the layer's update of the arrays the region finds:
    rows `2000·t … 2000·t + 1999`, every column. -/
theorem flushed6 (c : Dev nD) (t : Fin cfg2.N) :
    (dat2 V c).flushed 6 t = ((cfg2.win 6).blk t).view.read (Elt Ideal) (Sage.act (n := 8000) (K := 256) (C := 256) (V c main_v31) (V c main_v10_1) (V c main_arg12) (V c main_arg14) (V c main_arg13)) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S256x256) hz2, View.ld_unit_zero (S := S256) hz1]
  funext y
  show k2_pay1 (iblk2 V c 0 t) (iblk2 V c 2 t) (iblk2 V c 1 t) (iblk2 V c 4 t) (iblk2 V c 3 t) y = Sage.act (n := 8000) (K := 256) (C := 256) (V c main_v31) (V c main_v10_1) (V c main_arg12) (V c main_arg14) (V c main_arg13) (((cfg2.win 6).blk t).view.emb y)
  rw [pay2_at, emb_out6, Sage.act_apply, Sage.lin_apply]
  simp only [read0_at, read1_at, read2_at, read4_at, read3_at]
  rw [Sage.regroup]

/-- An index of the result is in point `t`'s block iff its row is one of the point's 2000. -/
theorem mem_blk5 (t : Fin cfg2.N) (i : S8000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v32_0).slice (win2_5.rect t)).set ↔ _
  rw [View.set_slice_whole, Rect.mem_set_unit]
  exact Iff.rfl

/-- Every entry of the result lies in the block of the point its row falls to: point `row / 2000`. -/
theorem cover5 (i : S8000x256.Idx) : ∃ t : Fin cfg2.N, (cfg2.win 5).flush t = true ∧ i ∈ ((cfg2.win 5).blk t).view.set := by
  have h0 : (i 0).val < 8000 := (i 0).isLt
  have h1 : (i 1).val < 256 := (i 1).isLt
  let t : Fin cfg2.N := ⟨(i 0).val / 2000, lt_of_lt_of_eq (by omega : (i 0).val / 2000 < 4) N_2.symm⟩
  obtain ⟨e00, e01, e10, e11, e20, e21, e30, e40, e41, e50, e51, e60, e61⟩ := idx_facts t
  have ht : t.val = (i 0).val / 2000 := rfl
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE ARRAY behind window 5 after the region: the layer's update of the arrays the region finds. -/
theorem final5 (c : Dev nD) : (dat2 V c).arrAt 5 cfg2.N = Sage.act (n := 8000) (K := 256) (C := 256) (V c main_v31) (V c main_v10_1) (V c main_arg12) (V c main_arg14) (V c main_arg13) :=
  (dat2 V c).arrAt_eq_of_cover 5 _ (fun t _ => flushed5 V c t) cover5

/-- An index of the result is in point `t`'s block iff its row is one of the point's 2000. -/
theorem mem_blk6 (t : Fin cfg2.N) (i : S8000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v32_1).slice (win2_6.rect t)).set ↔ _
  rw [View.set_slice_whole, Rect.mem_set_unit]
  exact Iff.rfl

/-- Every entry of the result lies in the block of the point its row falls to: point `row / 2000`. -/
theorem cover6 (i : S8000x256.Idx) : ∃ t : Fin cfg2.N, (cfg2.win 6).flush t = true ∧ i ∈ ((cfg2.win 6).blk t).view.set := by
  have h0 : (i 0).val < 8000 := (i 0).isLt
  have h1 : (i 1).val < 256 := (i 1).isLt
  let t : Fin cfg2.N := ⟨(i 0).val / 2000, lt_of_lt_of_eq (by omega : (i 0).val / 2000 < 4) N_2.symm⟩
  obtain ⟨e00, e01, e10, e11, e20, e21, e30, e40, e41, e50, e51, e60, e61⟩ := idx_facts t
  have ht : t.val = (i 0).val / 2000 := rfl
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- THE ARRAY behind window 6 after the region: the layer's update of the arrays the region finds (the half-precision copy holds the same extended reals: a change of float format is the identity). -/
theorem final6 (c : Dev nD) : (dat2 V c).arrAt 6 cfg2.N = Sage.act (n := 8000) (K := 256) (C := 256) (V c main_v31) (V c main_v10_1) (V c main_arg12) (V c main_arg14) (V c main_arg13) :=
  (dat2 V c).arrAt_eq_of_cover 6 _ (fun t _ => flushed6 V c t) cover6

end Cert.KernelIdeal.Region2

end
-- ==== Proof.Region3.lean ====
/-
  Region 3: one SAGE layer's linear update with its activation over 20000 destination nodes and 256 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.act` —, the 10 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 10 grid points. -/
theorem t_lt (t : Fin cfg3.N) : t.val < 10 := lt_of_lt_of_eq t.isLt N_3

/-- Entry (p, q) of point `t`'s block, as an entry of the whole result: row 2000·t + p, column q. -/
def outIdx (t : Fin cfg3.N) (y : S2000x256.Idx) : (⟨2, ![20000, 256]⟩ : Shape).Idx :=
  ix2 (⟨t.val * 2000 + (y 0).val, by have h : (y 0).val < 2000 := (y 0).isLt; have := t_lt t; show _ < 20000; omega⟩ : Fin 20000) (⟨(y 1).val, (y 1).isLt⟩ : Fin 256)

/-- The index maps over the grid: the row-blocked windows (aggregate, destination features, results) sit at block
    row `t`, block column 0; the weights and the bias at block 0 throughout. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Entry (p, q) of window 5's block at point `t` is entry (2000·t + p, q) of the result. -/
theorem emb_out5 (t : Fin cfg3.N) (y : S2000x256.Idx) : ((cfg3.win 5).blk t).view.emb y = (outIdx t y : S20000x256.Idx) := by
  obtain ⟨e00, e01, e10, e11, e20, e21, e30, e40, e41, e50, e51, e60, e61⟩ := idx_facts t
  funext a; apply Fin.ext
  match a with
  | ⟨0, _⟩ => show win3_5.index t (0 : Fin 2) * 2000 + 1 * (y 0).val = t.val * 2000 + (y 0).val; omega
  | ⟨1, _⟩ => show win3_5.index t (1 : Fin 2) * 256 + 1 * (y 1).val = (y 1).val; omega

/-- Entry (p, q) of window 6's block at point `t` is entry (2000·t + p, q) of the result. -/
theorem emb_out6 (t : Fin cfg3.N) (y : S2000x256.Idx) : ((cfg3.win 6).blk t).view.emb y = (outIdx t y : S20000x256.Idx) := by
  obtain ⟨e00, e01, e10, e11, e20, e21, e30, e40, e41, e50, e51, e60, e61⟩ := idx_facts t
  funext a; apply Fin.ext
  match a with
  | ⟨0, _⟩ => show win3_6.index t (0 : Fin 2) * 2000 + 1 * (y 0).val = t.val * 2000 + (y 0).val; omega
  | ⟨1, _⟩ => show win3_6.index t (1 : Fin 2) * 256 + 1 * (y 1).val = (y 1).val; omega

/-- Entry (p, k) of the aggregate's block at point `t` is entry (2000·t + p, k) of the aggregate. -/
theorem read0_at (c : Dev nD) (t : Fin cfg3.N) (y : S2000x256.Idx) (k : Fin 256) :
    iblk3 V c 0 t (Sage.rowAt y k) = V c main_v42 (Sage.rowAt (n := 20000) (outIdx t y) k) := by
  have e : ((cfg3.win 0).blk t).view.emb (Sage.rowAt y k) = (Sage.rowAt (n := 20000) (outIdx t y) k : S20000x256.Idx) := by
    obtain ⟨e00, e01, e10, e11, e20, e21, e30, e40, e41, e50, e51, e60, e61⟩ := idx_facts t
    funext a; apply Fin.ext
    match a with
    | ⟨0, _⟩ => show win3_0.index t (0 : Fin 2) * 2000 + 1 * (y 0).val = t.val * 2000 + (y 0).val; omega
    | ⟨1, _⟩ => show win3_0.index t (1 : Fin 2) * 256 + 1 * k.val = k.val; omega
  show V c main_v42 (((cfg3.win 0).blk t).view.emb (Sage.rowAt y k)) = _
  rw [e]

/-- The same for the destination features' block. -/
theorem read1_at (c : Dev nD) (t : Fin cfg3.N) (y : S2000x256.Idx) (k : Fin 256) :
    iblk3 V c 1 t (Sage.rowAt y k) = V c main_v21_1 (Sage.rowAt (n := 20000) (outIdx t y) k) := by
  have e : ((cfg3.win 1).blk t).view.emb (Sage.rowAt y k) = (Sage.rowAt (n := 20000) (outIdx t y) k : S20000x256.Idx) := by
    obtain ⟨e00, e01, e10, e11, e20, e21, e30, e40, e41, e50, e51, e60, e61⟩ := idx_facts t
    funext a; apply Fin.ext
    match a with
    | ⟨0, _⟩ => show win3_1.index t (0 : Fin 2) * 2000 + 1 * (y 0).val = t.val * 2000 + (y 0).val; omega
    | ⟨1, _⟩ => show win3_1.index t (1 : Fin 2) * 256 + 1 * k.val = k.val; omega
  show V c main_v21_1 (((cfg3.win 1).blk t).view.emb (Sage.rowAt y k)) = _
  rw [e]

/-- The left weights are staged whole: entry (k, q) of the block is entry (k, q) of the matrix. -/
theorem read2_at (c : Dev nD) (t : Fin cfg3.N) (y : S2000x256.Idx) (k : Fin 256) :
    iblk3 V c 2 t (Sage.colAt y k) = V c main_arg15 (Sage.colAt (outIdx t y) k) := by
  have e : ((cfg3.win 2).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win3_2.index t (0 : Fin 2) * 256 + 1 * k.val = k.val; omega
    | ⟨1, _⟩ => show win3_2.index t (1 : Fin 2) * 256 + 1 * (y 1).val = (y 1).val; omega
  show V c main_arg15 (((cfg3.win 2).blk t).view.emb (Sage.colAt y k)) = _
  rw [e]

/-- The right weights likewise. -/
theorem read4_at (c : Dev nD) (t : Fin cfg3.N) (y : S2000x256.Idx) (k : Fin 256) :
    iblk3 V c 4 t (Sage.colAt y k) = V c main_arg17 (Sage.colAt (outIdx t y) k) := by
  have e : ((cfg3.win 4).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win3_4.index t (0 : Fin 2) * 256 + 1 * k.val = k.val; omega
    | ⟨1, _⟩ => show win3_4.index t (1 : Fin 2) * 256 + 1 * (y 1).val = (y 1).val; omega
  show V c main_arg17 (((cfg3.win 4).blk t).view.emb (Sage.colAt y k)) = _
  rw [e]

/-- The bias is staged whole. -/
theorem read3_at (c : Dev nD) (t : Fin cfg3.N) (y : S2000x256.Idx) :
    iblk3 V c 3 t (Sage.biasAt y) = V c main_arg16 (Sage.biasAt (outIdx t y)) := by
  have e : ((cfg3.win 3).blk t).view.emb (Sage.biasAt y) = (Sage.biasAt (outIdx t y) : S256.Idx) := by
    obtain ⟨e00, e01, e10, e11, e20, e21, e30, e40, e41, e50, e51, e60, e61⟩ := idx_facts t
    funext a; apply Fin.ext
    match a with
    | ⟨0, _⟩ => show win3_3.index t (0 : Fin 1) * 256 + 1 * (y 1).val = (y 1).val; omega
  show V c main_arg16 (((cfg3.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg3.N) :
    (dat3 V c).flushed 5 t = ((cfg3.win 5).blk t).view.read (Elt Ideal) (Sage.act (n := 20000) (K := 256) (C := 256) (V c main_v42) (V c main_v21_1) (V c main_arg15) (V c main_arg17) (V c main_arg16)) := by
  show (cfg3.win 5).cut (grid3.coords t) ((dat3 V c).after 5 t) = _
  rw [after3_5]
  unfold out3_5
  rw [View.canon_unit_zero hz2]
  simp only [View.ld_unit_zero (S := S2000x256) hz2, View.ld_unit_zero (S := S256x256) hz2, View.ld_unit_zero (S := S256) hz1]
  funext y
  show k3_pay1 (iblk3 V c 0 t) (iblk3 V c 2 t) (iblk3 V c 1 t) (iblk3 V c 4 t) (iblk3 V c 3 t) y = Sage.act (n := 20000) (K := 256) (C := 256) (V c main_v42) (V c main_v21_1) (V c main_arg15) (V c main_arg17) (V c main_arg16) (((cfg3.win 5).blk t).view.emb y)
  rw [pay3_at, emb_out5, Sage.act_apply, Sage.lin_apply]
  simp only [read0_at, read1_at, read2_at, read4_at, read3_at]
  rw [Sage.regroup]

/-- What point `t` writes back through window 6 is block `t` of the layer's update of the arrays the region finds:
    rows `2000·t … 2000·t + 1999`, every column. -/
theorem flushed6 (c : Dev nD) (t : Fin cfg3.N) :
    (dat3 V c).flushed 6 t = ((cfg3.win 6).blk t).view.read (Elt Ideal) (Sage.act (n := 20000) (K := 256) (C := 256) (V c main_v42) (V c main_v21_1) (V c main_arg15) (V c main_arg17) (V c main_arg16)) := by
  show (cfg3.win 6).cut (grid3.coords t) ((dat3 V c).after 6 t) = _
  rw [after3_6]
  unfold out3_6
  rw [View.canon_unit_zero hz2]
  simp only [View.ld_unit_zero (S := S2000x256) hz2, View.ld_unit_zero (S := S256x256) hz2, View.ld_unit_zero (S := S256) hz1]
  funext y
  show k3_pay1 (iblk3 V c 0 t) (iblk3 V c 2 t) (iblk3 V c 1 t) (iblk3 V c 4 t) (iblk3 V c 3 t) y = Sage.act (n := 20000) (K := 256) (C := 256) (V c main_v42) (V c main_v21_1) (V c main_arg15) (V c main_arg17) (V c main_arg16) (((cfg3.win 6).blk t).view.emb y)
  rw [pay3_at, emb_out6, Sage.act_apply, Sage.lin_apply]
  simp only [read0_at, read1_at, read2_at, read4_at, read3_at]
  rw [Sage.regroup]

/-- An index of the result is in point `t`'s block iff its row is one of the point's 2000. -/
theorem mem_blk5 (t : Fin cfg3.N) (i : S20000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v43_0).slice (win3_5.rect t)).set ↔ _
  rw [View.set_slice_whole, Rect.mem_set_unit]
  exact Iff.rfl

/-- Every entry of the result lies in the block of the point its row falls to: point `row / 2000`. -/
theorem cover5 (i : S20000x256.Idx) : ∃ t : Fin cfg3.N, (cfg3.win 5).flush t = true ∧ i ∈ ((cfg3.win 5).blk t).view.set := by
  have h0 : (i 0).val < 20000 := (i 0).isLt
  have h1 : (i 1).val < 256 := (i 1).isLt
  let t : Fin cfg3.N := ⟨(i 0).val / 2000, lt_of_lt_of_eq (by omega : (i 0).val / 2000 < 10) N_3.symm⟩
  obtain ⟨e00, e01, e10, e11, e20, e21, e30, e40, e41, e50, e51, e60, e61⟩ := idx_facts t
  have ht : t.val = (i 0).val / 2000 := rfl
  refine ⟨t, flush3_5 t, ?_⟩
  rw [mem_blk5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- THE ARRAY behind window 5 after the region: the layer's update of the arrays the region finds. -/
theorem final5 (c : Dev nD) : (dat3 V c).arrAt 5 cfg3.N = Sage.act (n := 20000) (K := 256) (C := 256) (V c main_v42) (V c main_v21_1) (V c main_arg15) (V c main_arg17) (V c main_arg16) :=
  (dat3 V c).arrAt_eq_of_cover 5 _ (fun t _ => flushed5 V c t) cover5

/-- An index of the result is in point `t`'s block iff its row is one of the point's 2000. -/
theorem mem_blk6 (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v43_1).slice (win3_6.rect t)).set ↔ _
  rw [View.set_slice_whole, Rect.mem_set_unit]
  exact Iff.rfl

/-- Every entry of the result lies in the block of the point its row falls to: point `row / 2000`. -/
theorem cover6 (i : S20000x256.Idx) : ∃ t : Fin cfg3.N, (cfg3.win 6).flush t = true ∧ i ∈ ((cfg3.win 6).blk t).view.set := by
  have h0 : (i 0).val < 20000 := (i 0).isLt
  have h1 : (i 1).val < 256 := (i 1).isLt
  let t : Fin cfg3.N := ⟨(i 0).val / 2000, lt_of_lt_of_eq (by omega : (i 0).val / 2000 < 10) N_3.symm⟩
  obtain ⟨e00, e01, e10, e11, e20, e21, e30, e40, e41, e50, e51, e60, e61⟩ := idx_facts t
  have ht : t.val = (i 0).val / 2000 := rfl
  refine ⟨t, flush3_6 t, ?_⟩
  rw [mem_blk6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 256 ≤ (i 1).val ∧ (i 1).val < win3_6.index t (1 : Fin 2) * 256 + 256; omega

/-- THE ARRAY behind window 6 after the region: the layer's update of the arrays the region finds (the half-precision copy holds the same extended reals: a change of float format is the identity). -/
theorem final6 (c : Dev nD) : (dat3 V c).arrAt 6 cfg3.N = Sage.act (n := 20000) (K := 256) (C := 256) (V c main_v42) (V c main_v21_1) (V c main_arg15) (V c main_arg17) (V c main_arg16) :=
  (dat3 V c).arrAt_eq_of_cover 6 _ (fun t _ => flushed6 V c t) cover6

end Cert.KernelIdeal.Region3

end
-- ==== Proof.Region4.lean ====
/-
  Region 4: one SAGE layer's linear update with its activation over 8000 destination nodes and 256 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.act` —, the 4 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region4

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 4 grid points. -/
theorem t_lt (t : Fin cfg4.N) : t.val < 4 := lt_of_lt_of_eq t.isLt N_4

/-- Entry (p, q) of point `t`'s block, as an entry of the whole result: row 2000·t + p, column q. -/
def outIdx (t : Fin cfg4.N) (y : S2000x256.Idx) : (⟨2, ![8000, 256]⟩ : Shape).Idx :=
  ix2 (⟨t.val * 2000 + (y 0).val, by have h : (y 0).val < 2000 := (y 0).isLt; have := t_lt t; show _ < 8000; omega⟩ : Fin 8000) (⟨(y 1).val, (y 1).isLt⟩ : Fin 256)

/-- The index maps over the grid: the row-blocked windows (aggregate, destination features, results) sit at block
    row `t`, block column 0; the weights and the bias at block 0 throughout. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Entry (p, q) of window 5's block at point `t` is entry (2000·t + p, q) of the result. -/
theorem emb_out5 (t : Fin cfg4.N) (y : S2000x256.Idx) : ((cfg4.win 5).blk t).view.emb y = (outIdx t y : S8000x256.Idx) := by
  obtain ⟨e00, e01, e10, e11, e20, e21, e30, e40, e41, e50, e51, e60, e61⟩ := idx_facts t
  funext a; apply Fin.ext
  match a with
  | ⟨0, _⟩ => show win4_5.index t (0 : Fin 2) * 2000 + 1 * (y 0).val = t.val * 2000 + (y 0).val; omega
  | ⟨1, _⟩ => show win4_5.index t (1 : Fin 2) * 256 + 1 * (y 1).val = (y 1).val; omega

/-- Entry (p, q) of window 6's block at point `t` is entry (2000·t + p, q) of the result. -/
theorem emb_out6 (t : Fin cfg4.N) (y : S2000x256.Idx) : ((cfg4.win 6).blk t).view.emb y = (outIdx t y : S8000x256.Idx) := by
  obtain ⟨e00, e01, e10, e11, e20, e21, e30, e40, e41, e50, e51, e60, e61⟩ := idx_facts t
  funext a; apply Fin.ext
  match a with
  | ⟨0, _⟩ => show win4_6.index t (0 : Fin 2) * 2000 + 1 * (y 0).val = t.val * 2000 + (y 0).val; omega
  | ⟨1, _⟩ => show win4_6.index t (1 : Fin 2) * 256 + 1 * (y 1).val = (y 1).val; omega

/-- Entry (p, k) of the aggregate's block at point `t` is entry (2000·t + p, k) of the aggregate. -/
theorem read0_at (c : Dev nD) (t : Fin cfg4.N) (y : S2000x256.Idx) (k : Fin 256) :
    iblk4 V c 0 t (Sage.rowAt y k) = V c main_v53 (Sage.rowAt (n := 8000) (outIdx t y) k) := by
  have e : ((cfg4.win 0).blk t).view.emb (Sage.rowAt y k) = (Sage.rowAt (n := 8000) (outIdx t y) k : S8000x256.Idx) := by
    obtain ⟨e00, e01, e10, e11, e20, e21, e30, e40, e41, e50, e51, e60, e61⟩ := idx_facts t
    funext a; apply Fin.ext
    match a with
    | ⟨0, _⟩ => show win4_0.index t (0 : Fin 2) * 2000 + 1 * (y 0).val = t.val * 2000 + (y 0).val; omega
    | ⟨1, _⟩ => show win4_0.index t (1 : Fin 2) * 256 + 1 * k.val = k.val; omega
  show V c main_v53 (((cfg4.win 0).blk t).view.emb (Sage.rowAt y k)) = _
  rw [e]

/-- The same for the destination features' block. -/
theorem read1_at (c : Dev nD) (t : Fin cfg4.N) (y : S2000x256.Idx) (k : Fin 256) :
    iblk4 V c 1 t (Sage.rowAt y k) = V c main_v32_1 (Sage.rowAt (n := 8000) (outIdx t y) k) := by
  have e : ((cfg4.win 1).blk t).view.emb (Sage.rowAt y k) = (Sage.rowAt (n := 8000) (outIdx t y) k : S8000x256.Idx) := by
    obtain ⟨e00, e01, e10, e11, e20, e21, e30, e40, e41, e50, e51, e60, e61⟩ := idx_facts t
    funext a; apply Fin.ext
    match a with
    | ⟨0, _⟩ => show win4_1.index t (0 : Fin 2) * 2000 + 1 * (y 0).val = t.val * 2000 + (y 0).val; omega
    | ⟨1, _⟩ => show win4_1.index t (1 : Fin 2) * 256 + 1 * k.val = k.val; omega
  show V c main_v32_1 (((cfg4.win 1).blk t).view.emb (Sage.rowAt y k)) = _
  rw [e]

/-- The left weights are staged whole: entry (k, q) of the block is entry (k, q) of the matrix. -/
theorem read2_at (c : Dev nD) (t : Fin cfg4.N) (y : S2000x256.Idx) (k : Fin 256) :
    iblk4 V c 2 t (Sage.colAt y k) = V c main_arg12 (Sage.colAt (outIdx t y) k) := by
  have e : ((cfg4.win 2).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win4_2.index t (0 : Fin 2) * 256 + 1 * k.val = k.val; omega
    | ⟨1, _⟩ => show win4_2.index t (1 : Fin 2) * 256 + 1 * (y 1).val = (y 1).val; omega
  show V c main_arg12 (((cfg4.win 2).blk t).view.emb (Sage.colAt y k)) = _
  rw [e]

/-- The right weights likewise. -/
theorem read4_at (c : Dev nD) (t : Fin cfg4.N) (y : S2000x256.Idx) (k : Fin 256) :
    iblk4 V c 4 t (Sage.colAt y k) = V c main_arg14 (Sage.colAt (outIdx t y) k) := by
  have e : ((cfg4.win 4).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win4_4.index t (0 : Fin 2) * 256 + 1 * k.val = k.val; omega
    | ⟨1, _⟩ => show win4_4.index t (1 : Fin 2) * 256 + 1 * (y 1).val = (y 1).val; omega
  show V c main_arg14 (((cfg4.win 4).blk t).view.emb (Sage.colAt y k)) = _
  rw [e]

/-- The bias is staged whole. -/
theorem read3_at (c : Dev nD) (t : Fin cfg4.N) (y : S2000x256.Idx) :
    iblk4 V c 3 t (Sage.biasAt y) = V c main_arg13 (Sage.biasAt (outIdx t y)) := by
  have e : ((cfg4.win 3).blk t).view.emb (Sage.biasAt y) = (Sage.biasAt (outIdx t y) : S256.Idx) := by
    obtain ⟨e00, e01, e10, e11, e20, e21, e30, e40, e41, e50, e51, e60, e61⟩ := idx_facts t
    funext a; apply Fin.ext
    match a with
    | ⟨0, _⟩ => show win4_3.index t (0 : Fin 1) * 256 + 1 * (y 1).val = (y 1).val; omega
  show V c main_arg13 (((cfg4.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg4.N) :
    (dat4 V c).flushed 5 t = ((cfg4.win 5).blk t).view.read (Elt Ideal) (Sage.act (n := 8000) (K := 256) (C := 256) (V c main_v53) (V c main_v32_1) (V c main_arg12) (V c main_arg14) (V c main_arg13)) := by
  show (cfg4.win 5).cut (grid4.coords t) ((dat4 V c).after 5 t) = _
  rw [after4_5]
  unfold out4_5
  rw [View.canon_unit_zero hz2]
  simp only [View.ld_unit_zero (S := S2000x256) hz2, View.ld_unit_zero (S := S256x256) hz2, View.ld_unit_zero (S := S256) hz1]
  funext y
  show k4_pay1 (iblk4 V c 0 t) (iblk4 V c 2 t) (iblk4 V c 1 t) (iblk4 V c 4 t) (iblk4 V c 3 t) y = Sage.act (n := 8000) (K := 256) (C := 256) (V c main_v53) (V c main_v32_1) (V c main_arg12) (V c main_arg14) (V c main_arg13) (((cfg4.win 5).blk t).view.emb y)
  rw [pay4_at, emb_out5, Sage.act_apply, Sage.lin_apply]
  simp only [read0_at, read1_at, read2_at, read4_at, read3_at]
  rw [Sage.regroup]

/-- What point `t` writes back through window 6 is block `t` of the layer's update of the arrays the region finds:
    rows `2000·t … 2000·t + 1999`, every column. -/
theorem flushed6 (c : Dev nD) (t : Fin cfg4.N) :
    (dat4 V c).flushed 6 t = ((cfg4.win 6).blk t).view.read (Elt Ideal) (Sage.act (n := 8000) (K := 256) (C := 256) (V c main_v53) (V c main_v32_1) (V c main_arg12) (V c main_arg14) (V c main_arg13)) := by
  show (cfg4.win 6).cut (grid4.coords t) ((dat4 V c).after 6 t) = _
  rw [after4_6]
  unfold out4_6
  rw [View.canon_unit_zero hz2]
  simp only [View.ld_unit_zero (S := S2000x256) hz2, View.ld_unit_zero (S := S256x256) hz2, View.ld_unit_zero (S := S256) hz1]
  funext y
  show k4_pay1 (iblk4 V c 0 t) (iblk4 V c 2 t) (iblk4 V c 1 t) (iblk4 V c 4 t) (iblk4 V c 3 t) y = Sage.act (n := 8000) (K := 256) (C := 256) (V c main_v53) (V c main_v32_1) (V c main_arg12) (V c main_arg14) (V c main_arg13) (((cfg4.win 6).blk t).view.emb y)
  rw [pay4_at, emb_out6, Sage.act_apply, Sage.lin_apply]
  simp only [read0_at, read1_at, read2_at, read4_at, read3_at]
  rw [Sage.regroup]

/-- An index of the result is in point `t`'s block iff its row is one of the point's 2000. -/
theorem mem_blk5 (t : Fin cfg4.N) (i : S8000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v54_0).slice (win4_5.rect t)).set ↔ _
  rw [View.set_slice_whole, Rect.mem_set_unit]
  exact Iff.rfl

/-- Every entry of the result lies in the block of the point its row falls to: point `row / 2000`. -/
theorem cover5 (i : S8000x256.Idx) : ∃ t : Fin cfg4.N, (cfg4.win 5).flush t = true ∧ i ∈ ((cfg4.win 5).blk t).view.set := by
  have h0 : (i 0).val < 8000 := (i 0).isLt
  have h1 : (i 1).val < 256 := (i 1).isLt
  let t : Fin cfg4.N := ⟨(i 0).val / 2000, lt_of_lt_of_eq (by omega : (i 0).val / 2000 < 4) N_4.symm⟩
  obtain ⟨e00, e01, e10, e11, e20, e21, e30, e40, e41, e50, e51, e60, e61⟩ := idx_facts t
  have ht : t.val = (i 0).val / 2000 := rfl
  refine ⟨t, flush4_5 t, ?_⟩
  rw [mem_blk5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- THE ARRAY behind window 5 after the region: the layer's update of the arrays the region finds. -/
theorem final5 (c : Dev nD) : (dat4 V c).arrAt 5 cfg4.N = Sage.act (n := 8000) (K := 256) (C := 256) (V c main_v53) (V c main_v32_1) (V c main_arg12) (V c main_arg14) (V c main_arg13) :=
  (dat4 V c).arrAt_eq_of_cover 5 _ (fun t _ => flushed5 V c t) cover5

/-- An index of the result is in point `t`'s block iff its row is one of the point's 2000. -/
theorem mem_blk6 (t : Fin cfg4.N) (i : S8000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v54_1).slice (win4_6.rect t)).set ↔ _
  rw [View.set_slice_whole, Rect.mem_set_unit]
  exact Iff.rfl

/-- Every entry of the result lies in the block of the point its row falls to: point `row / 2000`. -/
theorem cover6 (i : S8000x256.Idx) : ∃ t : Fin cfg4.N, (cfg4.win 6).flush t = true ∧ i ∈ ((cfg4.win 6).blk t).view.set := by
  have h0 : (i 0).val < 8000 := (i 0).isLt
  have h1 : (i 1).val < 256 := (i 1).isLt
  let t : Fin cfg4.N := ⟨(i 0).val / 2000, lt_of_lt_of_eq (by omega : (i 0).val / 2000 < 4) N_4.symm⟩
  obtain ⟨e00, e01, e10, e11, e20, e21, e30, e40, e41, e50, e51, e60, e61⟩ := idx_facts t
  have ht : t.val = (i 0).val / 2000 := rfl
  refine ⟨t, flush4_6 t, ?_⟩
  rw [mem_blk6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 256 ≤ (i 1).val ∧ (i 1).val < win4_6.index t (1 : Fin 2) * 256 + 256; omega

/-- THE ARRAY behind window 6 after the region: the layer's update of the arrays the region finds (the half-precision copy holds the same extended reals: a change of float format is the identity). -/
theorem final6 (c : Dev nD) : (dat4 V c).arrAt 6 cfg4.N = Sage.act (n := 8000) (K := 256) (C := 256) (V c main_v53) (V c main_v32_1) (V c main_arg12) (V c main_arg14) (V c main_arg13) :=
  (dat4 V c).arrAt_eq_of_cover 6 _ (fun t _ => flushed6 V c t) cover6

end Cert.KernelIdeal.Region4

end
-- ==== Proof.Region5.lean ====
/-
  Region 5: one SAGE layer's linear update with its activation over 20000 destination nodes and 256 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.act` —, the 10 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region5

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 10 grid points. -/
theorem t_lt (t : Fin cfg5.N) : t.val < 10 := lt_of_lt_of_eq t.isLt N_5

/-- Entry (p, q) of point `t`'s block, as an entry of the whole result: row 2000·t + p, column q. -/
def outIdx (t : Fin cfg5.N) (y : S2000x256.Idx) : (⟨2, ![20000, 256]⟩ : Shape).Idx :=
  ix2 (⟨t.val * 2000 + (y 0).val, by have h : (y 0).val < 2000 := (y 0).isLt; have := t_lt t; show _ < 20000; omega⟩ : Fin 20000) (⟨(y 1).val, (y 1).isLt⟩ : Fin 256)

/-- The index maps over the grid: the row-blocked windows (aggregate, destination features, results) sit at block
    row `t`, block column 0; the weights and the bias at block 0 throughout. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Entry (p, q) of window 5's block at point `t` is entry (2000·t + p, q) of the result. -/
theorem emb_out5 (t : Fin cfg5.N) (y : S2000x256.Idx) : ((cfg5.win 5).blk t).view.emb y = (outIdx t y : S20000x256.Idx) := by
  obtain ⟨e00, e01, e10, e11, e20, e21, e30, e40, e41, e50, e51, e60, e61⟩ := idx_facts t
  funext a; apply Fin.ext
  match a with
  | ⟨0, _⟩ => show win5_5.index t (0 : Fin 2) * 2000 + 1 * (y 0).val = t.val * 2000 + (y 0).val; omega
  | ⟨1, _⟩ => show win5_5.index t (1 : Fin 2) * 256 + 1 * (y 1).val = (y 1).val; omega

/-- Entry (p, q) of window 6's block at point `t` is entry (2000·t + p, q) of the result. -/
theorem emb_out6 (t : Fin cfg5.N) (y : S2000x256.Idx) : ((cfg5.win 6).blk t).view.emb y = (outIdx t y : S20000x256.Idx) := by
  obtain ⟨e00, e01, e10, e11, e20, e21, e30, e40, e41, e50, e51, e60, e61⟩ := idx_facts t
  funext a; apply Fin.ext
  match a with
  | ⟨0, _⟩ => show win5_6.index t (0 : Fin 2) * 2000 + 1 * (y 0).val = t.val * 2000 + (y 0).val; omega
  | ⟨1, _⟩ => show win5_6.index t (1 : Fin 2) * 256 + 1 * (y 1).val = (y 1).val; omega

/-- Entry (p, k) of the aggregate's block at point `t` is entry (2000·t + p, k) of the aggregate. -/
theorem read0_at (c : Dev nD) (t : Fin cfg5.N) (y : S2000x256.Idx) (k : Fin 256) :
    iblk5 V c 0 t (Sage.rowAt y k) = V c main_v64 (Sage.rowAt (n := 20000) (outIdx t y) k) := by
  have e : ((cfg5.win 0).blk t).view.emb (Sage.rowAt y k) = (Sage.rowAt (n := 20000) (outIdx t y) k : S20000x256.Idx) := by
    obtain ⟨e00, e01, e10, e11, e20, e21, e30, e40, e41, e50, e51, e60, e61⟩ := idx_facts t
    funext a; apply Fin.ext
    match a with
    | ⟨0, _⟩ => show win5_0.index t (0 : Fin 2) * 2000 + 1 * (y 0).val = t.val * 2000 + (y 0).val; omega
    | ⟨1, _⟩ => show win5_0.index t (1 : Fin 2) * 256 + 1 * k.val = k.val; omega
  show V c main_v64 (((cfg5.win 0).blk t).view.emb (Sage.rowAt y k)) = _
  rw [e]

/-- The same for the destination features' block. -/
theorem read1_at (c : Dev nD) (t : Fin cfg5.N) (y : S2000x256.Idx) (k : Fin 256) :
    iblk5 V c 1 t (Sage.rowAt y k) = V c main_v43_1 (Sage.rowAt (n := 20000) (outIdx t y) k) := by
  have e : ((cfg5.win 1).blk t).view.emb (Sage.rowAt y k) = (Sage.rowAt (n := 20000) (outIdx t y) k : S20000x256.Idx) := by
    obtain ⟨e00, e01, e10, e11, e20, e21, e30, e40, e41, e50, e51, e60, e61⟩ := idx_facts t
    funext a; apply Fin.ext
    match a with
    | ⟨0, _⟩ => show win5_1.index t (0 : Fin 2) * 2000 + 1 * (y 0).val = t.val * 2000 + (y 0).val; omega
    | ⟨1, _⟩ => show win5_1.index t (1 : Fin 2) * 256 + 1 * k.val = k.val; omega
  show V c main_v43_1 (((cfg5.win 1).blk t).view.emb (Sage.rowAt y k)) = _
  rw [e]

/-- The left weights are staged whole: entry (k, q) of the block is entry (k, q) of the matrix. -/
theorem read2_at (c : Dev nD) (t : Fin cfg5.N) (y : S2000x256.Idx) (k : Fin 256) :
    iblk5 V c 2 t (Sage.colAt y k) = V c main_arg15 (Sage.colAt (outIdx t y) k) := by
  have e : ((cfg5.win 2).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win5_2.index t (0 : Fin 2) * 256 + 1 * k.val = k.val; omega
    | ⟨1, _⟩ => show win5_2.index t (1 : Fin 2) * 256 + 1 * (y 1).val = (y 1).val; omega
  show V c main_arg15 (((cfg5.win 2).blk t).view.emb (Sage.colAt y k)) = _
  rw [e]

/-- The right weights likewise. -/
theorem read4_at (c : Dev nD) (t : Fin cfg5.N) (y : S2000x256.Idx) (k : Fin 256) :
    iblk5 V c 4 t (Sage.colAt y k) = V c main_arg17 (Sage.colAt (outIdx t y) k) := by
  have e : ((cfg5.win 4).blk t).view.emb (Sage.colAt y k) = (Sage.colAt (outIdx t y) k : S256x256.Idx) := by
    obtain ⟨e00, e01, e10, e11, e20, e21, e30, e40, e41, e50, e51, e60, e61⟩ := idx_facts t
    funext a; apply Fin.ext
    match a with
    | ⟨0, _⟩ => show win5_4.index t (0 : Fin 2) * 256 + 1 * k.val = k.val; omega
    | ⟨1, _⟩ => show win5_4.index t (1 : Fin 2) * 256 + 1 * (y 1).val = (y 1).val; omega
  show V c main_arg17 (((cfg5.win 4).blk t).view.emb (Sage.colAt y k)) = _
  rw [e]

/-- The bias is staged whole. -/
theorem read3_at (c : Dev nD) (t : Fin cfg5.N) (y : S2000x256.Idx) :
    iblk5 V c 3 t (Sage.biasAt y) = V c main_arg16 (Sage.biasAt (outIdx t y)) := by
  have e : ((cfg5.win 3).blk t).view.emb (Sage.biasAt y) = (Sage.biasAt (outIdx t y) : S256.Idx) := by
    obtain ⟨e00, e01, e10, e11, e20, e21, e30, e40, e41, e50, e51, e60, e61⟩ := idx_facts t
    funext a; apply Fin.ext
    match a with
    | ⟨0, _⟩ => show win5_3.index t (0 : Fin 1) * 256 + 1 * (y 1).val = (y 1).val; omega
  show V c main_arg16 (((cfg5.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg5.N) :
    (dat5 V c).flushed 5 t = ((cfg5.win 5).blk t).view.read (Elt Ideal) (Sage.act (n := 20000) (K := 256) (C := 256) (V c main_v64) (V c main_v43_1) (V c main_arg15) (V c main_arg17) (V c main_arg16)) := by
  show (cfg5.win 5).cut (grid5.coords t) ((dat5 V c).after 5 t) = _
  rw [after5_5]
  unfold out5_5
  rw [View.canon_unit_zero hz2]
  simp only [View.ld_unit_zero (S := S2000x256) hz2, View.ld_unit_zero (S := S256x256) hz2, View.ld_unit_zero (S := S256) hz1]
  funext y
  show k5_pay1 (iblk5 V c 0 t) (iblk5 V c 2 t) (iblk5 V c 1 t) (iblk5 V c 4 t) (iblk5 V c 3 t) y = Sage.act (n := 20000) (K := 256) (C := 256) (V c main_v64) (V c main_v43_1) (V c main_arg15) (V c main_arg17) (V c main_arg16) (((cfg5.win 5).blk t).view.emb y)
  rw [pay5_at, emb_out5, Sage.act_apply, Sage.lin_apply]
  simp only [read0_at, read1_at, read2_at, read4_at, read3_at]
  rw [Sage.regroup]

/-- What point `t` writes back through window 6 is block `t` of the layer's update of the arrays the region finds:
    rows `2000·t … 2000·t + 1999`, every column. -/
theorem flushed6 (c : Dev nD) (t : Fin cfg5.N) :
    (dat5 V c).flushed 6 t = ((cfg5.win 6).blk t).view.read (Elt Ideal) (Sage.act (n := 20000) (K := 256) (C := 256) (V c main_v64) (V c main_v43_1) (V c main_arg15) (V c main_arg17) (V c main_arg16)) := by
  show (cfg5.win 6).cut (grid5.coords t) ((dat5 V c).after 6 t) = _
  rw [after5_6]
  unfold out5_6
  rw [View.canon_unit_zero hz2]
  simp only [View.ld_unit_zero (S := S2000x256) hz2, View.ld_unit_zero (S := S256x256) hz2, View.ld_unit_zero (S := S256) hz1]
  funext y
  show k5_pay1 (iblk5 V c 0 t) (iblk5 V c 2 t) (iblk5 V c 1 t) (iblk5 V c 4 t) (iblk5 V c 3 t) y = Sage.act (n := 20000) (K := 256) (C := 256) (V c main_v64) (V c main_v43_1) (V c main_arg15) (V c main_arg17) (V c main_arg16) (((cfg5.win 6).blk t).view.emb y)
  rw [pay5_at, emb_out6, Sage.act_apply, Sage.lin_apply]
  simp only [read0_at, read1_at, read2_at, read4_at, read3_at]
  rw [Sage.regroup]

/-- An index of the result is in point `t`'s block iff its row is one of the point's 2000. -/
theorem mem_blk5 (t : Fin cfg5.N) (i : S20000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v65_0).slice (win5_5.rect t)).set ↔ _
  rw [View.set_slice_whole, Rect.mem_set_unit]
  exact Iff.rfl

/-- Every entry of the result lies in the block of the point its row falls to: point `row / 2000`. -/
theorem cover5 (i : S20000x256.Idx) : ∃ t : Fin cfg5.N, (cfg5.win 5).flush t = true ∧ i ∈ ((cfg5.win 5).blk t).view.set := by
  have h0 : (i 0).val < 20000 := (i 0).isLt
  have h1 : (i 1).val < 256 := (i 1).isLt
  let t : Fin cfg5.N := ⟨(i 0).val / 2000, lt_of_lt_of_eq (by omega : (i 0).val / 2000 < 10) N_5.symm⟩
  obtain ⟨e00, e01, e10, e11, e20, e21, e30, e40, e41, e50, e51, e60, e61⟩ := idx_facts t
  have ht : t.val = (i 0).val / 2000 := rfl
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 256 ≤ (i 1).val ∧ (i 1).val < win5_5.index t (1 : Fin 2) * 256 + 256; omega

/-- THE ARRAY behind window 5 after the region: the layer's update of the arrays the region finds. -/
theorem final5 (c : Dev nD) : (dat5 V c).arrAt 5 cfg5.N = Sage.act (n := 20000) (K := 256) (C := 256) (V c main_v64) (V c main_v43_1) (V c main_arg15) (V c main_arg17) (V c main_arg16) :=
  (dat5 V c).arrAt_eq_of_cover 5 _ (fun t _ => flushed5 V c t) cover5

/-- An index of the result is in point `t`'s block iff its row is one of the point's 2000. -/
theorem mem_blk6 (t : Fin cfg5.N) (i : S20000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v65_1).slice (win5_6.rect t)).set ↔ _
  rw [View.set_slice_whole, Rect.mem_set_unit]
  exact Iff.rfl

/-- Every entry of the result lies in the block of the point its row falls to: point `row / 2000`. -/
theorem cover6 (i : S20000x256.Idx) : ∃ t : Fin cfg5.N, (cfg5.win 6).flush t = true ∧ i ∈ ((cfg5.win 6).blk t).view.set := by
  have h0 : (i 0).val < 20000 := (i 0).isLt
  have h1 : (i 1).val < 256 := (i 1).isLt
  let t : Fin cfg5.N := ⟨(i 0).val / 2000, lt_of_lt_of_eq (by omega : (i 0).val / 2000 < 10) N_5.symm⟩
  obtain ⟨e00, e01, e10, e11, e20, e21, e30, e40, e41, e50, e51, e60, e61⟩ := idx_facts t
  have ht : t.val = (i 0).val / 2000 := rfl
  refine ⟨t, flush5_6 t, ?_⟩
  rw [mem_blk6]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 256 ≤ (i 1).val ∧ (i 1).val < win5_6.index t (1 : Fin 2) * 256 + 256; omega

/-- THE ARRAY behind window 6 after the region: the layer's update of the arrays the region finds (the half-precision copy holds the same extended reals: a change of float format is the identity). -/
theorem final6 (c : Dev nD) : (dat5 V c).arrAt 6 cfg5.N = Sage.act (n := 20000) (K := 256) (C := 256) (V c main_v64) (V c main_v43_1) (V c main_arg15) (V c main_arg17) (V c main_arg16) :=
  (dat5 V c).arrAt_eq_of_cover 6 _ (fun t _ => flushed6 V c t) cover6

end Cert.KernelIdeal.Region5

end
-- ==== Proof.Region6.lean ====
/-
  Region 6: one SAGE layer's linear update over 8000 destination nodes and 256 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.lin` —, the 4 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region6

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 4 grid points. -/
theorem t_lt (t : Fin cfg6.N) : t.val < 4 := lt_of_lt_of_eq t.isLt N_6

/-- Entry (p, q) of point `t`'s block, as an entry of the whole result: row 2000·t + p, column q. -/
def outIdx (t : Fin cfg6.N) (y : S2000x256.Idx) : (⟨2, ![8000, 256]⟩ : Shape).Idx :=
  ix2 (⟨t.val * 2000 + (y 0).val, by have h : (y 0).val < 2000 := (y 0).isLt; have := t_lt t; show _ < 8000; omega⟩ : Fin 8000) (⟨(y 1).val, (y 1).isLt⟩ : Fin 256)

/-- The index maps over the grid: the row-blocked windows (aggregate, destination features, results) sit at block
    row `t`, block column 0; the weights and the bias at block 0 throughout. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Entry (p, q) of window 5's block at point `t` is entry (2000·t + p, q) of the result. -/
theorem emb_out5 (t : Fin cfg6.N) (y : S2000x256.Idx) : ((cfg6.win 5).blk t).view.emb y = (outIdx t y : S8000x256.Idx) := by
  obtain ⟨e00, e01, e10, e11, e20, e21, e30, e40, e41, e50, e51⟩ := idx_facts t
  funext a; apply Fin.ext
  match a with
  | ⟨0, _⟩ => show win6_5.index t (0 : Fin 2) * 2000 + 1 * (y 0).val = t.val * 2000 + (y 0).val; omega
  | ⟨1, _⟩ => show win6_5.index t (1 : Fin 2) * 256 + 1 * (y 1).val = (y 1).val; omega

/-- Entry (p, k) of the aggregate's block at point `t` is entry (2000·t + p, k) of the aggregate. -/
theorem read0_at (c : Dev nD) (t : Fin cfg6.N) (y : S2000x256.Idx) (k : Fin 256) :
    iblk6 V c 0 t (Sage.rowAt y k) = V c main_v75 (Sage.rowAt (n := 8000) (outIdx t y) k) := by
  have e : ((cfg6.win 0).blk t).view.emb (Sage.rowAt y k) = (Sage.rowAt (n := 8000) (outIdx t y) k : S8000x256.Idx) := by
    obtain ⟨e00, e01, e10, e11, e20, e21, e30, e40, e41, e50, e51⟩ := idx_facts t
    funext a; apply Fin.ext
    match a with
    | ⟨0, _⟩ => show win6_0.index t (0 : Fin 2) * 2000 + 1 * (y 0).val = t.val * 2000 + (y 0).val; omega
    | ⟨1, _⟩ => show win6_0.index t (1 : Fin 2) * 256 + 1 * k.val = k.val; omega
  show V c main_v75 (((cfg6.win 0).blk t).view.emb (Sage.rowAt y k)) = _
  rw [e]

/-- The same for the destination features' block. -/
theorem read1_at (c : Dev nD) (t : Fin cfg6.N) (y : S2000x256.Idx) (k : Fin 256) :
    iblk6 V c 1 t (Sage.rowAt y k) = V c main_v54_1 (Sage.rowAt (n := 8000) (outIdx t y) k) := by
  have e : ((cfg6.win 1).blk t).view.emb (Sage.rowAt y k) = (Sage.rowAt (n := 8000) (outIdx t y) k : S8000x256.Idx) := by
    obtain ⟨e00, e01, e10, e11, e20, e21, e30, e40, e41, e50, e51⟩ := idx_facts t
    funext a; apply Fin.ext
    match a with
    | ⟨0, _⟩ => show win6_1.index t (0 : Fin 2) * 2000 + 1 * (y 0).val = t.val * 2000 + (y 0).val; omega
    | ⟨1, _⟩ => show win6_1.index t (1 : Fin 2) * 256 + 1 * k.val = k.val; omega
  show V c main_v54_1 (((cfg6.win 1).blk t).view.emb (Sage.rowAt y k)) = _
  rw [e]

/-- The left weights are staged whole: entry (k, q) of the block is entry (k, q) of the matrix. -/
theorem read2_at (c : Dev nD) (t : Fin cfg6.N) (y : S2000x256.Idx) (k : Fin 256) :
    iblk6 V c 2 t (Sage.colAt y k) = V c main_arg18 (Sage.colAt (outIdx t y) k) := by
  have e : ((cfg6.win 2).blk t).view.emb (Sage.colAt y k) = (Sage.colAt (outIdx t y) k : S256x256.Idx) := by
    obtain ⟨e00, e01, e10, e11, e20, e21, e30, e40, e41, e50, e51⟩ := idx_facts t
    funext a; apply Fin.ext
    match a with
    | ⟨0, _⟩ => show win6_2.index t (0 : Fin 2) * 256 + 1 * k.val = k.val; omega
    | ⟨1, _⟩ => show win6_2.index t (1 : Fin 2) * 256 + 1 * (y 1).val = (y 1).val; omega
  show V c main_arg18 (((cfg6.win 2).blk t).view.emb (Sage.colAt y k)) = _
  rw [e]

/-- The right weights likewise. -/
theorem read4_at (c : Dev nD) (t : Fin cfg6.N) (y : S2000x256.Idx) (k : Fin 256) :
    iblk6 V c 4 t (Sage.colAt y k) = V c main_arg20 (Sage.colAt (outIdx t y) k) := by
  have e : ((cfg6.win 4).blk t).view.emb (Sage.colAt y k) = (Sage.colAt (outIdx t y) k : S256x256.Idx) := by
    obtain ⟨e00, e01, e10, e11, e20, e21, e30, e40, e41, e50, e51⟩ := idx_facts t
    funext a; apply Fin.ext
    match a with
    | ⟨0, _⟩ => show win6_4.index t (0 : Fin 2) * 256 + 1 * k.val = k.val; omega
    | ⟨1, _⟩ => show win6_4.index t (1 : Fin 2) * 256 + 1 * (y 1).val = (y 1).val; omega
  show V c main_arg20 (((cfg6.win 4).blk t).view.emb (Sage.colAt y k)) = _
  rw [e]

/-- The bias is staged whole. -/
theorem read3_at (c : Dev nD) (t : Fin cfg6.N) (y : S2000x256.Idx) :
    iblk6 V c 3 t (Sage.biasAt y) = V c main_arg19 (Sage.biasAt (outIdx t y)) := by
  have e : ((cfg6.win 3).blk t).view.emb (Sage.biasAt y) = (Sage.biasAt (outIdx t y) : S256.Idx) := by
    obtain ⟨e00, e01, e10, e11, e20, e21, e30, e40, e41, e50, e51⟩ := idx_facts t
    funext a; apply Fin.ext
    match a with
    | ⟨0, _⟩ => show win6_3.index t (0 : Fin 1) * 256 + 1 * (y 1).val = (y 1).val; omega
  show V c main_arg19 (((cfg6.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg6.N) :
    (dat6 V c).flushed 5 t = ((cfg6.win 5).blk t).view.read (Elt Ideal) (Sage.lin (n := 8000) (K := 256) (C := 256) (V c main_v75) (V c main_v54_1) (V c main_arg18) (V c main_arg20) (V c main_arg19)) := by
  show (cfg6.win 5).cut (grid6.coords t) ((dat6 V c).after 5 t) = _
  rw [after6_5]
  unfold out6_5
  rw [View.canon_unit_zero hz2]
  simp only [View.ld_unit_zero (S := S2000x256) hz2, View.ld_unit_zero (S := S256x256) hz2, View.ld_unit_zero (S := S256) hz1]
  funext y
  show k6_pay1 (iblk6 V c 0 t) (iblk6 V c 2 t) (iblk6 V c 1 t) (iblk6 V c 4 t) (iblk6 V c 3 t) y = Sage.lin (n := 8000) (K := 256) (C := 256) (V c main_v75) (V c main_v54_1) (V c main_arg18) (V c main_arg20) (V c main_arg19) (((cfg6.win 5).blk t).view.emb y)
  rw [pay6_at, emb_out5, Sage.lin_apply]
  simp only [read0_at, read1_at, read2_at, read4_at, read3_at]
  rw [Sage.regroup]

/-- An index of the result is in point `t`'s block iff its row is one of the point's 2000. -/
theorem mem_blk5 (t : Fin cfg6.N) (i : S8000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v76).slice (win6_5.rect t)).set ↔ _
  rw [View.set_slice_whole, Rect.mem_set_unit]
  exact Iff.rfl

/-- Every entry of the result lies in the block of the point its row falls to: point `row / 2000`. -/
theorem cover5 (i : S8000x256.Idx) : ∃ t : Fin cfg6.N, (cfg6.win 5).flush t = true ∧ i ∈ ((cfg6.win 5).blk t).view.set := by
  have h0 : (i 0).val < 8000 := (i 0).isLt
  have h1 : (i 1).val < 256 := (i 1).isLt
  let t : Fin cfg6.N := ⟨(i 0).val / 2000, lt_of_lt_of_eq (by omega : (i 0).val / 2000 < 4) N_6.symm⟩
  obtain ⟨e00, e01, e10, e11, e20, e21, e30, e40, e41, e50, e51⟩ := idx_facts t
  have ht : t.val = (i 0).val / 2000 := rfl
  refine ⟨t, flush6_5 t, ?_⟩
  rw [mem_blk5]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 256 ≤ (i 1).val ∧ (i 1).val < win6_5.index t (1 : Fin 2) * 256 + 256; omega

/-- THE ARRAY behind window 5 after the region: the layer's update of the arrays the region finds. -/
theorem final5 (c : Dev nD) : (dat6 V c).arrAt 5 cfg6.N = Sage.lin (n := 8000) (K := 256) (C := 256) (V c main_v75) (V c main_v54_1) (V c main_arg18) (V c main_arg20) (V c main_arg19) :=
  (dat6 V c).arrAt_eq_of_cover 5 _ (fun t _ => flushed5 V c t) cover5

end Cert.KernelIdeal.Region6

end
-- ==== Proof.Region7.lean ====
/-
  Region 7: one SAGE layer's linear update over 20000 destination nodes and 256 input features, 2000 rows
  per grid point.

  At grid point t the body reads rows 2000·t … 2000·t + 1999 of the aggregate and of the destination features, the
  whole of both weight matrices and of the bias, and writes the same rows of the result. So the block a point writes
  back is the restriction, to those rows, of ONE function of the arrays the region finds — the layer's update
  `Sage.lin` —, the 10 blocks tile the result, and the result array ends at that function.
-/
import proofs.«151185_j10496900071610_2_alg».proof.Proof.Gen.KernelIdeal.Frame
import proofs.«151185_j10496900071610_2_alg».proof.Proof.BlockDot
import proofs.«151185_j10496900071610_2_alg».proof.Proof.SageSpec
import Idealize.ShloMosaic.Lib.Pipeline.Value
import Idealize.ShloMosaic.Lib.ValueIdx

set_option maxRecDepth 16384

noncomputable section

namespace Cert.KernelIdeal.Region7

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 10 grid points. -/
theorem t_lt (t : Fin cfg7.N) : t.val < 10 := lt_of_lt_of_eq t.isLt N_7

/-- Entry (p, q) of point `t`'s block, as an entry of the whole result: row 2000·t + p, column q. -/
def outIdx (t : Fin cfg7.N) (y : S2000x256.Idx) : (⟨2, ![20000, 256]⟩ : Shape).Idx :=
  ix2 (⟨t.val * 2000 + (y 0).val, by have h : (y 0).val < 2000 := (y 0).isLt; have := t_lt t; show _ < 20000; omega⟩ : Fin 20000) (⟨(y 1).val, (y 1).isLt⟩ : Fin 256)

/-- The index maps over the grid: the row-blocked windows (aggregate, destination features, results) sit at block
    row `t`, block column 0; the weights and the bias at block 0 throughout. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 1) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Entry (p, q) of window 5's block at point `t` is entry (2000·t + p, q) of the result. -/
theorem emb_out5 (t : Fin cfg7.N) (y : S2000x256.Idx) : ((cfg7.win 5).blk t).view.emb y = (outIdx t y : S20000x256.Idx) := by
  obtain ⟨e00, e01, e10, e11, e20, e21, e30, e40, e41, e50, e51⟩ := idx_facts t
  funext a; apply Fin.ext
  match a with
  | ⟨0, _⟩ => show win7_5.index t (0 : Fin 2) * 2000 + 1 * (y 0).val = t.val * 2000 + (y 0).val; omega
  | ⟨1, _⟩ => show win7_5.index t (1 : Fin 2) * 256 + 1 * (y 1).val = (y 1).val; omega

/-- Entry (p, k) of the aggregate's block at point `t` is entry (2000·t + p, k) of the aggregate. -/
theorem read0_at (c : Dev nD) (t : Fin cfg7.N) (y : S2000x256.Idx) (k : Fin 256) :
    iblk7 V c 0 t (Sage.rowAt y k) = V c main_v86 (Sage.rowAt (n := 20000) (outIdx t y) k) := by
  have e : ((cfg7.win 0).blk t).view.emb (Sage.rowAt y k) = (Sage.rowAt (n := 20000) (outIdx t y) k : S20000x256.Idx) := by
    obtain ⟨e00, e01, e10, e11, e20, e21, e30, e40, e41, e50, e51⟩ := idx_facts t
    funext a; apply Fin.ext
    match a with
    | ⟨0, _⟩ => show win7_0.index t (0 : Fin 2) * 2000 + 1 * (y 0).val = t.val * 2000 + (y 0).val; omega
    | ⟨1, _⟩ => show win7_0.index t (1 : Fin 2) * 256 + 1 * k.val = k.val; omega
  show V c main_v86 (((cfg7.win 0).blk t).view.emb (Sage.rowAt y k)) = _
  rw [e]

/-- The same for the destination features' block. -/
theorem read1_at (c : Dev nD) (t : Fin cfg7.N) (y : S2000x256.Idx) (k : Fin 256) :
    iblk7 V c 1 t (Sage.rowAt y k) = V c main_v65_1 (Sage.rowAt (n := 20000) (outIdx t y) k) := by
  have e : ((cfg7.win 1).blk t).view.emb (Sage.rowAt y k) = (Sage.rowAt (n := 20000) (outIdx t y) k : S20000x256.Idx) := by
    obtain ⟨e00, e01, e10, e11, e20, e21, e30, e40, e41, e50, e51⟩ := idx_facts t
    funext a; apply Fin.ext
    match a with
    | ⟨0, _⟩ => show win7_1.index t (0 : Fin 2) * 2000 + 1 * (y 0).val = t.val * 2000 + (y 0).val; omega
    | ⟨1, _⟩ => show win7_1.index t (1 : Fin 2) * 256 + 1 * k.val = k.val; omega
  show V c main_v65_1 (((cfg7.win 1).blk t).view.emb (Sage.rowAt y k)) = _
  rw [e]

/-- The left weights are staged whole: entry (k, q) of the block is entry (k, q) of the matrix. -/
theorem read2_at (c : Dev nD) (t : Fin cfg7.N) (y : S2000x256.Idx) (k : Fin 256) :
    iblk7 V c 2 t (Sage.colAt y k) = V c main_arg21 (Sage.colAt (outIdx t y) k) := by
  have e : ((cfg7.win 2).blk t).view.emb (Sage.colAt y k) = (Sage.colAt (outIdx t y) k : S256x256.Idx) := by
    obtain ⟨e00, e01, e10, e11, e20, e21, e30, e40, e41, e50, e51⟩ := idx_facts t
    funext a; apply Fin.ext
    match a with
    | ⟨0, _⟩ => show win7_2.index t (0 : Fin 2) * 256 + 1 * k.val = k.val; omega
    | ⟨1, _⟩ => show win7_2.index t (1 : Fin 2) * 256 + 1 * (y 1).val = (y 1).val; omega
  show V c main_arg21 (((cfg7.win 2).blk t).view.emb (Sage.colAt y k)) = _
  rw [e]

/-- The right weights likewise. -/
theorem read4_at (c : Dev nD) (t : Fin cfg7.N) (y : S2000x256.Idx) (k : Fin 256) :
    iblk7 V c 4 t (Sage.colAt y k) = V c main_arg23 (Sage.colAt (outIdx t y) k) := by
  have e : ((cfg7.win 4).blk t).view.emb (Sage.colAt y k) = (Sage.colAt (outIdx t y) k : S256x256.Idx) := by
    obtain ⟨e00, e01, e10, e11, e20, e21, e30, e40, e41, e50, e51⟩ := idx_facts t
    funext a; apply Fin.ext
    match a with
    | ⟨0, _⟩ => show win7_4.index t (0 : Fin 2) * 256 + 1 * k.val = k.val; omega
    | ⟨1, _⟩ => show win7_4.index t (1 : Fin 2) * 256 + 1 * (y 1).val = (y 1).val; omega
  show V c main_arg23 (((cfg7.win 4).blk t).view.emb (Sage.colAt y k)) = _
  rw [e]

/-- The bias is staged whole. -/
theorem read3_at (c : Dev nD) (t : Fin cfg7.N) (y : S2000x256.Idx) :
    iblk7 V c 3 t (Sage.biasAt y) = V c main_arg22 (Sage.biasAt (outIdx t y)) := by
  have e : ((cfg7.win 3).blk t).view.emb (Sage.biasAt y) = (Sage.biasAt (outIdx t y) : S256.Idx) := by
    obtain ⟨e00, e01, e10, e11, e20, e21, e30, e40, e41, e50, e51⟩ := idx_facts t
    funext a; apply Fin.ext
    match a with
    | ⟨0, _⟩ => show win7_3.index t (0 : Fin 1) * 256 + 1 * (y 1).val = (y 1).val; omega
  show V c main_arg22 (((cfg7.win 3).blk t).view.emb (Sage.biasAt y)) = _
  rw [e]

/-- What point `t` writes back through window 5 is block `t` of the layer's update of the arrays the region finds:
    rows `2000·t … 2000·t + 1999`, every column. -/
theorem flushed5 (c : Dev nD) (t : Fin cfg7.N) :
    (dat7 V c).flushed 5 t = ((cfg7.win 5).blk t).view.read (Elt Ideal) (Sage.lin (n := 20000) (K := 256) (C := 256) (V c main_v86) (V c main_v65_1) (V c main_arg21) (V c main_arg23) (V c main_arg22)) := by
  show (cfg7.win 5).cut (grid7.coords t) ((dat7 V c).after 5 t) = _
  rw [after7_5]
  unfold out7_5
  rw [View.canon_unit_zero hz2]
  simp only [View.ld_unit_zero (S := S2000x256) hz2, View.ld_unit_zero (S := S256x256) hz2, View.ld_unit_zero (S := S256) hz1]
  funext y
  show k7_pay1 (iblk7 V c 0 t) (iblk7 V c 2 t) (iblk7 V c 1 t) (iblk7 V c 4 t) (iblk7 V c 3 t) y = Sage.lin (n := 20000) (K := 256) (C := 256) (V c main_v86) (V c main_v65_1) (V c main_arg21) (V c main_arg23) (V c main_arg22) (((cfg7.win 5).blk t).view.emb y)
  rw [pay7_at, emb_out5, Sage.lin_apply]
  simp only [read0_at, read1_at, read2_at, read4_at, read3_at]
  rw [Sage.regroup]

/-- An index of the result is in point `t`'s block iff its row is one of the point's 2000. -/
theorem mem_blk5 (t : Fin cfg7.N) (i : S20000x256.Idx) :
    i ∈ ((cfg7.win 5).blk t).view.set ↔ ∀ a : Fin 2, win7_5.index t a * S2000x256.size a ≤ (i a).val ∧ (i a).val < win7_5.index t a * S2000x256.size a + S2000x256.size a := by
  show i ∈ ((View.whole main_v87).slice (win7_5.rect t)).set ↔ _
  rw [View.set_slice_whole, Rect.mem_set_unit]
  exact Iff.rfl

/-- Every entry of the result lies in the block of the point its row falls to: point `row / 2000`. -/
theorem cover5 (i : S20000x256.Idx) : ∃ t : Fin cfg7.N, (cfg7.win 5).flush t = true ∧ i ∈ ((cfg7.win 5).blk t).view.set := by
  have h0 : (i 0).val < 20000 := (i 0).isLt
  have h1 : (i 1).val < 256 := (i 1).isLt
  let t : Fin cfg7.N := ⟨(i 0).val / 2000, lt_of_lt_of_eq (by omega : (i 0).val / 2000 < 10) N_7.symm⟩
  obtain ⟨e00, e01, e10, e11, e20, e21, e30, e40, e41, e50, e51⟩ := idx_facts t
  have ht : t.val = (i 0).val / 2000 := rfl
  refine ⟨t, flush7_5 t, ?_⟩
  rw [mem_blk5]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 256 ≤ (i 1).val ∧ (i 1).val < win7_5.index t (1 : Fin 2) * 256 + 256; omega

/-- THE ARRAY behind window 5 after the region: the layer's update of the arrays the region finds. -/
theorem final5 (c : Dev nD) : (dat7 V c).arrAt 5 cfg7.N = Sage.lin (n := 20000) (K := 256) (C := 256) (V c main_v86) (V c main_v65_1) (V c main_arg21) (V c main_arg23) (V c main_arg22) :=
  (dat7 V c).arrAt_eq_of_cover 5 _ (fun t _ => flushed5 V c t) cover5

end Cert.KernelIdeal.Region7

end
-- ==== Proof.KernelValue.lean ====
/-
  The idealized kernel's buffers, boundary by boundary, as the reference's own terms of the launch arguments.

  Induction along the program: a host stretch applies the reference's aggregation stage to a buffer already
  identified; a region leaves in its result windows the layer's update of the arrays it finds (its aggregate just
  identified, its destination features identified one block earlier and unchanged since, its weights and bias the
  launch arguments), which is the reference's layer by the layer lemmas. Sixteen steps reach the two embedding
  tables; the decoder's steps follow in their own module.
-/
import proofs.«151185_j10496900071610_2_alg».proof.Proof.Keep
import proofs.«151185_j10496900071610_2_alg».proof.Proof.HostReads
import proofs.«151185_j10496900071610_2_alg».proof.Proof.RefLayers
import proofs.«151185_j10496900071610_2_alg».proof.Proof.RefStages
import proofs.«151185_j10496900071610_2_alg».proof.Proof.Region0
import proofs.«151185_j10496900071610_2_alg».proof.Proof.Region1
import proofs.«151185_j10496900071610_2_alg».proof.Proof.Region2
import proofs.«151185_j10496900071610_2_alg».proof.Proof.Region3
import proofs.«151185_j10496900071610_2_alg».proof.Proof.Region4
import proofs.«151185_j10496900071610_2_alg».proof.Proof.Region5
import proofs.«151185_j10496900071610_2_alg».proof.Proof.Region6
import proofs.«151185_j10496900071610_2_alg».proof.Proof.Region7

set_option maxRecDepth 16384

noncomputable section

namespace Cert.KernelIdeal.Value

open Cert.KernelIdeal Cert.KernelIdeal.Gen Cert.KernelIdeal.Fold
open Idealize.ShloMosaic Idealize.ShloMosaic.TcCoe Idealize.SL.Sem

variable (m : (ℓ : Loc nD τ sig) → Buf (Elt Ideal) ℓ) (ρ : Dev nD → PrngReg) (c : Dev nD)

/-- Boundary 1: the aggregate of block 0, dp. -/
theorem k_main_v9 : W1 m ρ c (Proc.devRef .tc main_v9) = Cert.ReferenceIdeal.Read.val_main_v9 (F := Ideal) (m ((c : Thread nD τ).loc main_arg0)) (m ((c : Thread nD τ).loc main_arg2)) (m ((c : Thread nD τ).loc main_arg3)) := by
  have h := HostReads.agg0 (W0 m ρ c)
  rw [argsAt0 m ρ c main_arg0 (by decide), argsAt0 m ρ c main_arg2 (by decide), argsAt0 m ρ c main_arg3 (by decide)] at h
  exact h

/-- Boundary 2: region 0's result. -/
theorem k_main_v10_0 : W2 m ρ c (Proc.devRef .tc main_v10_0) = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have hagg : V1 m ρ c main_v9 = Cert.ReferenceIdeal.Read.val_main_v9 (F := Ideal) (m ((c : Thread nD τ).loc main_arg0)) (m ((c : Thread nD τ).loc main_arg2)) (m ((c : Thread nD τ).loc main_arg3)) := k_main_v9 m ρ c
  have hxd : V1 m ρ c main_arg1 = (m ((c : Thread nD τ).loc main_arg1)) := argsAt1 m ρ c main_arg1 (by decide)
  have hwl : V1 m ρ c main_arg6 = (m ((c : Thread nD τ).loc main_arg6)) := argsAt1 m ρ c main_arg6 (by decide)
  have hwr : V1 m ρ c main_arg8 = (m ((c : Thread nD τ).loc main_arg8)) := argsAt1 m ρ c main_arg8 (by decide)
  have hbl : V1 m ρ c main_arg7 = (m ((c : Thread nD τ).loc main_arg7)) := argsAt1 m ρ c main_arg7 (by decide)
  calc W2 m ρ c (Proc.devRef .tc main_v10_0)
      = (dat0 (V1 m ρ) c).arrAt 5 cfg0.N := W2_arr m ρ c 5
    _ = Sage.act (n := 8000) (K := 128) (C := 256) (V1 m ρ c main_v9) (V1 m ρ c main_arg1) (V1 m ρ c main_arg6) (V1 m ρ c main_arg8) (V1 m ρ c main_arg7) := Region0.final5 (V1 m ρ) c
    _ = Sage.act (n := 8000) (K := 128) (C := 256) (Cert.ReferenceIdeal.Read.val_main_v9 (F := Ideal) (m ((c : Thread nD τ).loc main_arg0)) (m ((c : Thread nD τ).loc main_arg2)) (m ((c : Thread nD τ).loc main_arg3))) (m ((c : Thread nD τ).loc main_arg1)) (m ((c : Thread nD τ).loc main_arg6)) (m ((c : Thread nD τ).loc main_arg8)) (m ((c : Thread nD τ).loc main_arg7)) := by rw [hagg, hxd, hwl, hwr, hbl]
    _ = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := (Cert.ReferenceIdeal.Layers.act_v33 _ _ _ _ _ _ _).symm

/-- Boundary 2: region 0's result (half-precision copy). -/
theorem k_main_v10_1 : W2 m ρ c (Proc.devRef .tc main_v10_1) = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have hagg : V1 m ρ c main_v9 = Cert.ReferenceIdeal.Read.val_main_v9 (F := Ideal) (m ((c : Thread nD τ).loc main_arg0)) (m ((c : Thread nD τ).loc main_arg2)) (m ((c : Thread nD τ).loc main_arg3)) := k_main_v9 m ρ c
  have hxd : V1 m ρ c main_arg1 = (m ((c : Thread nD τ).loc main_arg1)) := argsAt1 m ρ c main_arg1 (by decide)
  have hwl : V1 m ρ c main_arg6 = (m ((c : Thread nD τ).loc main_arg6)) := argsAt1 m ρ c main_arg6 (by decide)
  have hwr : V1 m ρ c main_arg8 = (m ((c : Thread nD τ).loc main_arg8)) := argsAt1 m ρ c main_arg8 (by decide)
  have hbl : V1 m ρ c main_arg7 = (m ((c : Thread nD τ).loc main_arg7)) := argsAt1 m ρ c main_arg7 (by decide)
  calc W2 m ρ c (Proc.devRef .tc main_v10_1)
      = (dat0 (V1 m ρ) c).arrAt 6 cfg0.N := W2_arr m ρ c 6
    _ = Sage.act (n := 8000) (K := 128) (C := 256) (V1 m ρ c main_v9) (V1 m ρ c main_arg1) (V1 m ρ c main_arg6) (V1 m ρ c main_arg8) (V1 m ρ c main_arg7) := Region0.final6 (V1 m ρ) c
    _ = Sage.act (n := 8000) (K := 128) (C := 256) (Cert.ReferenceIdeal.Read.val_main_v9 (F := Ideal) (m ((c : Thread nD τ).loc main_arg0)) (m ((c : Thread nD τ).loc main_arg2)) (m ((c : Thread nD τ).loc main_arg3))) (m ((c : Thread nD τ).loc main_arg1)) (m ((c : Thread nD τ).loc main_arg6)) (m ((c : Thread nD τ).loc main_arg8)) (m ((c : Thread nD τ).loc main_arg7)) := by rw [hagg, hxd, hwl, hwr, hbl]
    _ = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := (Cert.ReferenceIdeal.Layers.act_v33 _ _ _ _ _ _ _).symm

/-- Boundary 3: the aggregate of block 0, pd. -/
theorem k_main_v20 : W3 m ρ c (Proc.devRef .tc main_v20) = Cert.ReferenceIdeal.Read.val_main_v25 (F := Ideal) (m ((c : Thread nD τ).loc main_arg1)) (m ((c : Thread nD τ).loc main_arg2)) (m ((c : Thread nD τ).loc main_arg3)) := by
  have h := HostReads.agg1 (W2 m ρ c)
  rw [argsAt2 m ρ c main_arg1 (by decide), argsAt2 m ρ c main_arg2 (by decide), argsAt2 m ρ c main_arg3 (by decide)] at h
  exact h

/-- Boundary 4: region 1's result. -/
theorem k_main_v21_0 : W4 m ρ c (Proc.devRef .tc main_v21_0) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := by
  have hagg : V3 m ρ c main_v20 = Cert.ReferenceIdeal.Read.val_main_v25 (F := Ideal) (m ((c : Thread nD τ).loc main_arg1)) (m ((c : Thread nD τ).loc main_arg2)) (m ((c : Thread nD τ).loc main_arg3)) := k_main_v20 m ρ c
  have hxd : V3 m ρ c main_arg0 = (m ((c : Thread nD τ).loc main_arg0)) := argsAt3 m ρ c main_arg0 (by decide)
  have hwl : V3 m ρ c main_arg9 = (m ((c : Thread nD τ).loc main_arg9)) := argsAt3 m ρ c main_arg9 (by decide)
  have hwr : V3 m ρ c main_arg11 = (m ((c : Thread nD τ).loc main_arg11)) := argsAt3 m ρ c main_arg11 (by decide)
  have hbl : V3 m ρ c main_arg10 = (m ((c : Thread nD τ).loc main_arg10)) := argsAt3 m ρ c main_arg10 (by decide)
  calc W4 m ρ c (Proc.devRef .tc main_v21_0)
      = (dat1 (V3 m ρ) c).arrAt 5 cfg1.N := W4_arr m ρ c 5
    _ = Sage.act (n := 20000) (K := 128) (C := 256) (V3 m ρ c main_v20) (V3 m ρ c main_arg0) (V3 m ρ c main_arg9) (V3 m ρ c main_arg11) (V3 m ρ c main_arg10) := Region1.final5 (V3 m ρ) c
    _ = Sage.act (n := 20000) (K := 128) (C := 256) (Cert.ReferenceIdeal.Read.val_main_v25 (F := Ideal) (m ((c : Thread nD τ).loc main_arg1)) (m ((c : Thread nD τ).loc main_arg2)) (m ((c : Thread nD τ).loc main_arg3))) (m ((c : Thread nD τ).loc main_arg0)) (m ((c : Thread nD τ).loc main_arg9)) (m ((c : Thread nD τ).loc main_arg11)) (m ((c : Thread nD τ).loc main_arg10)) := by rw [hagg, hxd, hwl, hwr, hbl]
    _ = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := (Cert.ReferenceIdeal.Layers.act_v32 _ _ _ _ _ _ _).symm

/-- Boundary 4: region 1's result (half-precision copy). -/
theorem k_main_v21_1 : W4 m ρ c (Proc.devRef .tc main_v21_1) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := by
  have hagg : V3 m ρ c main_v20 = Cert.ReferenceIdeal.Read.val_main_v25 (F := Ideal) (m ((c : Thread nD τ).loc main_arg1)) (m ((c : Thread nD τ).loc main_arg2)) (m ((c : Thread nD τ).loc main_arg3)) := k_main_v20 m ρ c
  have hxd : V3 m ρ c main_arg0 = (m ((c : Thread nD τ).loc main_arg0)) := argsAt3 m ρ c main_arg0 (by decide)
  have hwl : V3 m ρ c main_arg9 = (m ((c : Thread nD τ).loc main_arg9)) := argsAt3 m ρ c main_arg9 (by decide)
  have hwr : V3 m ρ c main_arg11 = (m ((c : Thread nD τ).loc main_arg11)) := argsAt3 m ρ c main_arg11 (by decide)
  have hbl : V3 m ρ c main_arg10 = (m ((c : Thread nD τ).loc main_arg10)) := argsAt3 m ρ c main_arg10 (by decide)
  calc W4 m ρ c (Proc.devRef .tc main_v21_1)
      = (dat1 (V3 m ρ) c).arrAt 6 cfg1.N := W4_arr m ρ c 6
    _ = Sage.act (n := 20000) (K := 128) (C := 256) (V3 m ρ c main_v20) (V3 m ρ c main_arg0) (V3 m ρ c main_arg9) (V3 m ρ c main_arg11) (V3 m ρ c main_arg10) := Region1.final6 (V3 m ρ) c
    _ = Sage.act (n := 20000) (K := 128) (C := 256) (Cert.ReferenceIdeal.Read.val_main_v25 (F := Ideal) (m ((c : Thread nD τ).loc main_arg1)) (m ((c : Thread nD τ).loc main_arg2)) (m ((c : Thread nD τ).loc main_arg3))) (m ((c : Thread nD τ).loc main_arg0)) (m ((c : Thread nD τ).loc main_arg9)) (m ((c : Thread nD τ).loc main_arg11)) (m ((c : Thread nD τ).loc main_arg10)) := by rw [hagg, hxd, hwl, hwr, hbl]
    _ = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := (Cert.ReferenceIdeal.Layers.act_v32 _ _ _ _ _ _ _).symm

/-- Boundary 5: the aggregate of block 1, dp. -/
theorem k_main_v31 : W5 m ρ c (Proc.devRef .tc main_v31) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := by
  have h := HostReads.agg2 (W4 m ρ c)
  rw [k_main_v21_0 m ρ c, argsAt4 m ρ c main_arg2 (by decide), argsAt4 m ρ c main_arg3 (by decide)] at h
  exact h.trans (Cert.ReferenceIdeal.Stages.stage_v43 _ _ _ _ _ _ _).symm

/-- Boundary 6: region 2's result. -/
theorem k_main_v32_0 : W6 m ρ c (Proc.devRef .tc main_v32_0) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have hagg : V5 m ρ c main_v31 = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := k_main_v31 m ρ c
  have hxd : V5 m ρ c main_v10_1 = (Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := (main_v10_1_at5 m ρ c).trans (k_main_v10_1 m ρ c)
  have hwl : V5 m ρ c main_arg12 = (m ((c : Thread nD τ).loc main_arg12)) := argsAt5 m ρ c main_arg12 (by decide)
  have hwr : V5 m ρ c main_arg14 = (m ((c : Thread nD τ).loc main_arg14)) := argsAt5 m ρ c main_arg14 (by decide)
  have hbl : V5 m ρ c main_arg13 = (m ((c : Thread nD τ).loc main_arg13)) := argsAt5 m ρ c main_arg13 (by decide)
  calc W6 m ρ c (Proc.devRef .tc main_v32_0)
      = (dat2 (V5 m ρ) c).arrAt 5 cfg2.N := W6_arr m ρ c 5
    _ = Sage.act (n := 8000) (K := 256) (C := 256) (V5 m ρ c main_v31) (V5 m ρ c main_v10_1) (V5 m ρ c main_arg12) (V5 m ρ c main_arg14) (V5 m ρ c main_arg13) := Region2.final5 (V5 m ρ) c
    _ = Sage.act (n := 8000) (K := 256) (C := 256) (Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) (Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg12)) (m ((c : Thread nD τ).loc main_arg14)) (m ((c : Thread nD τ).loc main_arg13)) := by rw [hagg, hxd, hwl, hwr, hbl]
    _ = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := (Cert.ReferenceIdeal.Layers.act_v67 _ _ _ _ _ _ _ _ _ _ _ _ _).symm

/-- Boundary 6: region 2's result (half-precision copy). -/
theorem k_main_v32_1 : W6 m ρ c (Proc.devRef .tc main_v32_1) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have hagg : V5 m ρ c main_v31 = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := k_main_v31 m ρ c
  have hxd : V5 m ρ c main_v10_1 = (Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := (main_v10_1_at5 m ρ c).trans (k_main_v10_1 m ρ c)
  have hwl : V5 m ρ c main_arg12 = (m ((c : Thread nD τ).loc main_arg12)) := argsAt5 m ρ c main_arg12 (by decide)
  have hwr : V5 m ρ c main_arg14 = (m ((c : Thread nD τ).loc main_arg14)) := argsAt5 m ρ c main_arg14 (by decide)
  have hbl : V5 m ρ c main_arg13 = (m ((c : Thread nD τ).loc main_arg13)) := argsAt5 m ρ c main_arg13 (by decide)
  calc W6 m ρ c (Proc.devRef .tc main_v32_1)
      = (dat2 (V5 m ρ) c).arrAt 6 cfg2.N := W6_arr m ρ c 6
    _ = Sage.act (n := 8000) (K := 256) (C := 256) (V5 m ρ c main_v31) (V5 m ρ c main_v10_1) (V5 m ρ c main_arg12) (V5 m ρ c main_arg14) (V5 m ρ c main_arg13) := Region2.final6 (V5 m ρ) c
    _ = Sage.act (n := 8000) (K := 256) (C := 256) (Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) (Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg12)) (m ((c : Thread nD τ).loc main_arg14)) (m ((c : Thread nD τ).loc main_arg13)) := by rw [hagg, hxd, hwl, hwr, hbl]
    _ = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := (Cert.ReferenceIdeal.Layers.act_v67 _ _ _ _ _ _ _ _ _ _ _ _ _).symm

/-- Boundary 7: the aggregate of block 1, pd. -/
theorem k_main_v42 : W7 m ρ c (Proc.devRef .tc main_v42) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have h := HostReads.agg3 (W6 m ρ c)
  rw [main_v10_0_at6 m ρ c, k_main_v10_0 m ρ c, argsAt6 m ρ c main_arg2 (by decide), argsAt6 m ρ c main_arg3 (by decide)] at h
  exact h.trans (Cert.ReferenceIdeal.Stages.stage_v59 _ _ _ _ _ _ _).symm

/-- Boundary 8: region 3's result. -/
theorem k_main_v43_0 : W8 m ρ c (Proc.devRef .tc main_v43_0) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  have hagg : V7 m ρ c main_v42 = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := k_main_v42 m ρ c
  have hxd : V7 m ρ c main_v21_1 = (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) := (main_v21_1_at7 m ρ c).trans (k_main_v21_1 m ρ c)
  have hwl : V7 m ρ c main_arg15 = (m ((c : Thread nD τ).loc main_arg15)) := argsAt7 m ρ c main_arg15 (by decide)
  have hwr : V7 m ρ c main_arg17 = (m ((c : Thread nD τ).loc main_arg17)) := argsAt7 m ρ c main_arg17 (by decide)
  have hbl : V7 m ρ c main_arg16 = (m ((c : Thread nD τ).loc main_arg16)) := argsAt7 m ρ c main_arg16 (by decide)
  calc W8 m ρ c (Proc.devRef .tc main_v43_0)
      = (dat3 (V7 m ρ) c).arrAt 5 cfg3.N := W8_arr m ρ c 5
    _ = Sage.act (n := 20000) (K := 256) (C := 256) (V7 m ρ c main_v42) (V7 m ρ c main_v21_1) (V7 m ρ c main_arg15) (V7 m ρ c main_arg17) (V7 m ρ c main_arg16) := Region3.final5 (V7 m ρ) c
    _ = Sage.act (n := 20000) (K := 256) (C := 256) (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) (m ((c : Thread nD τ).loc main_arg15)) (m ((c : Thread nD τ).loc main_arg17)) (m ((c : Thread nD τ).loc main_arg16)) := by rw [hagg, hxd, hwl, hwr, hbl]
    _ = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := (Cert.ReferenceIdeal.Layers.act_v66 _ _ _ _ _ _ _ _ _ _ _ _ _).symm

/-- Boundary 8: region 3's result (half-precision copy). -/
theorem k_main_v43_1 : W8 m ρ c (Proc.devRef .tc main_v43_1) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  have hagg : V7 m ρ c main_v42 = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := k_main_v42 m ρ c
  have hxd : V7 m ρ c main_v21_1 = (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) := (main_v21_1_at7 m ρ c).trans (k_main_v21_1 m ρ c)
  have hwl : V7 m ρ c main_arg15 = (m ((c : Thread nD τ).loc main_arg15)) := argsAt7 m ρ c main_arg15 (by decide)
  have hwr : V7 m ρ c main_arg17 = (m ((c : Thread nD τ).loc main_arg17)) := argsAt7 m ρ c main_arg17 (by decide)
  have hbl : V7 m ρ c main_arg16 = (m ((c : Thread nD τ).loc main_arg16)) := argsAt7 m ρ c main_arg16 (by decide)
  calc W8 m ρ c (Proc.devRef .tc main_v43_1)
      = (dat3 (V7 m ρ) c).arrAt 6 cfg3.N := W8_arr m ρ c 6
    _ = Sage.act (n := 20000) (K := 256) (C := 256) (V7 m ρ c main_v42) (V7 m ρ c main_v21_1) (V7 m ρ c main_arg15) (V7 m ρ c main_arg17) (V7 m ρ c main_arg16) := Region3.final6 (V7 m ρ) c
    _ = Sage.act (n := 20000) (K := 256) (C := 256) (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) (m ((c : Thread nD τ).loc main_arg15)) (m ((c : Thread nD τ).loc main_arg17)) (m ((c : Thread nD τ).loc main_arg16)) := by rw [hagg, hxd, hwl, hwr, hbl]
    _ = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := (Cert.ReferenceIdeal.Layers.act_v66 _ _ _ _ _ _ _ _ _ _ _ _ _).symm

/-- Boundary 9: the aggregate of block 2, dp. -/
theorem k_main_v53 : W9 m ρ c (Proc.devRef .tc main_v53) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  have h := HostReads.agg4 (W8 m ρ c)
  rw [k_main_v43_0 m ρ c, argsAt8 m ρ c main_arg2 (by decide), argsAt8 m ρ c main_arg3 (by decide)] at h
  exact h.trans (Cert.ReferenceIdeal.Stages.stage_v77 _ _ _ _ _ _ _ _ _ _ _ _ _).symm

/-- Boundary 10: region 4's result. -/
theorem k_main_v54_0 : W10 m ρ c (Proc.devRef .tc main_v54_0) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hagg : V9 m ρ c main_v53 = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := k_main_v53 m ρ c
  have hxd : V9 m ρ c main_v32_1 = (Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := (main_v32_1_at9 m ρ c).trans (k_main_v32_1 m ρ c)
  have hwl : V9 m ρ c main_arg12 = (m ((c : Thread nD τ).loc main_arg12)) := argsAt9 m ρ c main_arg12 (by decide)
  have hwr : V9 m ρ c main_arg14 = (m ((c : Thread nD τ).loc main_arg14)) := argsAt9 m ρ c main_arg14 (by decide)
  have hbl : V9 m ρ c main_arg13 = (m ((c : Thread nD τ).loc main_arg13)) := argsAt9 m ρ c main_arg13 (by decide)
  calc W10 m ρ c (Proc.devRef .tc main_v54_0)
      = (dat4 (V9 m ρ) c).arrAt 5 cfg4.N := W10_arr m ρ c 5
    _ = Sage.act (n := 8000) (K := 256) (C := 256) (V9 m ρ c main_v53) (V9 m ρ c main_v32_1) (V9 m ρ c main_arg12) (V9 m ρ c main_arg14) (V9 m ρ c main_arg13) := Region4.final5 (V9 m ρ) c
    _ = Sage.act (n := 8000) (K := 256) (C := 256) (Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) (Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg12)) (m ((c : Thread nD τ).loc main_arg14)) (m ((c : Thread nD τ).loc main_arg13)) := by rw [hagg, hxd, hwl, hwr, hbl]
    _ = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := (Cert.ReferenceIdeal.Layers.act_v101 _ _ _ _ _ _ _ _ _ _ _ _ _ _ _ _).symm

/-- Boundary 10: region 4's result (half-precision copy). -/
theorem k_main_v54_1 : W10 m ρ c (Proc.devRef .tc main_v54_1) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hagg : V9 m ρ c main_v53 = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := k_main_v53 m ρ c
  have hxd : V9 m ρ c main_v32_1 = (Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := (main_v32_1_at9 m ρ c).trans (k_main_v32_1 m ρ c)
  have hwl : V9 m ρ c main_arg12 = (m ((c : Thread nD τ).loc main_arg12)) := argsAt9 m ρ c main_arg12 (by decide)
  have hwr : V9 m ρ c main_arg14 = (m ((c : Thread nD τ).loc main_arg14)) := argsAt9 m ρ c main_arg14 (by decide)
  have hbl : V9 m ρ c main_arg13 = (m ((c : Thread nD τ).loc main_arg13)) := argsAt9 m ρ c main_arg13 (by decide)
  calc W10 m ρ c (Proc.devRef .tc main_v54_1)
      = (dat4 (V9 m ρ) c).arrAt 6 cfg4.N := W10_arr m ρ c 6
    _ = Sage.act (n := 8000) (K := 256) (C := 256) (V9 m ρ c main_v53) (V9 m ρ c main_v32_1) (V9 m ρ c main_arg12) (V9 m ρ c main_arg14) (V9 m ρ c main_arg13) := Region4.final6 (V9 m ρ) c
    _ = Sage.act (n := 8000) (K := 256) (C := 256) (Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) (Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg12)) (m ((c : Thread nD τ).loc main_arg14)) (m ((c : Thread nD τ).loc main_arg13)) := by rw [hagg, hxd, hwl, hwr, hbl]
    _ = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := (Cert.ReferenceIdeal.Layers.act_v101 _ _ _ _ _ _ _ _ _ _ _ _ _ _ _ _).symm

/-- Boundary 11: the aggregate of block 2, pd. -/
theorem k_main_v64 : W11 m ρ c (Proc.devRef .tc main_v64) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h := HostReads.agg5 (W10 m ρ c)
  rw [main_v32_0_at10 m ρ c, k_main_v32_0 m ρ c, argsAt10 m ρ c main_arg2 (by decide), argsAt10 m ρ c main_arg3 (by decide)] at h
  exact h.trans (Cert.ReferenceIdeal.Stages.stage_v93 _ _ _ _ _ _ _ _ _ _ _ _ _).symm

/-- Boundary 12: region 5's result. -/
theorem k_main_v65_0 : W12 m ρ c (Proc.devRef .tc main_v65_0) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hagg : V11 m ρ c main_v64 = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := k_main_v64 m ρ c
  have hxd : V11 m ρ c main_v43_1 = (Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) := (main_v43_1_at11 m ρ c).trans (k_main_v43_1 m ρ c)
  have hwl : V11 m ρ c main_arg15 = (m ((c : Thread nD τ).loc main_arg15)) := argsAt11 m ρ c main_arg15 (by decide)
  have hwr : V11 m ρ c main_arg17 = (m ((c : Thread nD τ).loc main_arg17)) := argsAt11 m ρ c main_arg17 (by decide)
  have hbl : V11 m ρ c main_arg16 = (m ((c : Thread nD τ).loc main_arg16)) := argsAt11 m ρ c main_arg16 (by decide)
  calc W12 m ρ c (Proc.devRef .tc main_v65_0)
      = (dat5 (V11 m ρ) c).arrAt 5 cfg5.N := W12_arr m ρ c 5
    _ = Sage.act (n := 20000) (K := 256) (C := 256) (V11 m ρ c main_v64) (V11 m ρ c main_v43_1) (V11 m ρ c main_arg15) (V11 m ρ c main_arg17) (V11 m ρ c main_arg16) := Region5.final5 (V11 m ρ) c
    _ = Sage.act (n := 20000) (K := 256) (C := 256) (Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) (m ((c : Thread nD τ).loc main_arg15)) (m ((c : Thread nD τ).loc main_arg17)) (m ((c : Thread nD τ).loc main_arg16)) := by rw [hagg, hxd, hwl, hwr, hbl]
    _ = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := (Cert.ReferenceIdeal.Layers.act_v100 _ _ _ _ _ _ _ _ _ _ _ _ _ _ _ _).symm

/-- Boundary 12: region 5's result (half-precision copy). -/
theorem k_main_v65_1 : W12 m ρ c (Proc.devRef .tc main_v65_1) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hagg : V11 m ρ c main_v64 = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := k_main_v64 m ρ c
  have hxd : V11 m ρ c main_v43_1 = (Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) := (main_v43_1_at11 m ρ c).trans (k_main_v43_1 m ρ c)
  have hwl : V11 m ρ c main_arg15 = (m ((c : Thread nD τ).loc main_arg15)) := argsAt11 m ρ c main_arg15 (by decide)
  have hwr : V11 m ρ c main_arg17 = (m ((c : Thread nD τ).loc main_arg17)) := argsAt11 m ρ c main_arg17 (by decide)
  have hbl : V11 m ρ c main_arg16 = (m ((c : Thread nD τ).loc main_arg16)) := argsAt11 m ρ c main_arg16 (by decide)
  calc W12 m ρ c (Proc.devRef .tc main_v65_1)
      = (dat5 (V11 m ρ) c).arrAt 6 cfg5.N := W12_arr m ρ c 6
    _ = Sage.act (n := 20000) (K := 256) (C := 256) (V11 m ρ c main_v64) (V11 m ρ c main_v43_1) (V11 m ρ c main_arg15) (V11 m ρ c main_arg17) (V11 m ρ c main_arg16) := Region5.final6 (V11 m ρ) c
    _ = Sage.act (n := 20000) (K := 256) (C := 256) (Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) (m ((c : Thread nD τ).loc main_arg15)) (m ((c : Thread nD τ).loc main_arg17)) (m ((c : Thread nD τ).loc main_arg16)) := by rw [hagg, hxd, hwl, hwr, hbl]
    _ = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := (Cert.ReferenceIdeal.Layers.act_v100 _ _ _ _ _ _ _ _ _ _ _ _ _ _ _ _).symm

/-- Boundary 13: the aggregate of block 3, dp. -/
theorem k_main_v75 : W13 m ρ c (Proc.devRef .tc main_v75) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have h := HostReads.agg6 (W12 m ρ c)
  rw [k_main_v65_0 m ρ c, argsAt12 m ρ c main_arg2 (by decide), argsAt12 m ρ c main_arg3 (by decide)] at h
  exact h.trans (Cert.ReferenceIdeal.Stages.stage_v111 _ _ _ _ _ _ _ _ _ _ _ _ _ _ _ _).symm

/-- Boundary 14: region 6's result. -/
theorem k_main_v76 : W14 m ρ c (Proc.devRef .tc main_v76) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have hagg : V13 m ρ c main_v75 = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := k_main_v75 m ρ c
  have hxd : V13 m ρ c main_v54_1 = (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := (main_v54_1_at13 m ρ c).trans (k_main_v54_1 m ρ c)
  have hwl : V13 m ρ c main_arg18 = (m ((c : Thread nD τ).loc main_arg18)) := argsAt13 m ρ c main_arg18 (by decide)
  have hwr : V13 m ρ c main_arg20 = (m ((c : Thread nD τ).loc main_arg20)) := argsAt13 m ρ c main_arg20 (by decide)
  have hbl : V13 m ρ c main_arg19 = (m ((c : Thread nD τ).loc main_arg19)) := argsAt13 m ρ c main_arg19 (by decide)
  calc W14 m ρ c (Proc.devRef .tc main_v76)
      = (dat6 (V13 m ρ) c).arrAt 5 cfg6.N := W14_arr m ρ c 5
    _ = Sage.lin (n := 8000) (K := 256) (C := 256) (V13 m ρ c main_v75) (V13 m ρ c main_v54_1) (V13 m ρ c main_arg18) (V13 m ρ c main_arg20) (V13 m ρ c main_arg19) := Region6.final5 (V13 m ρ) c
    _ = Sage.lin (n := 8000) (K := 256) (C := 256) (Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (m ((c : Thread nD τ).loc main_arg18)) (m ((c : Thread nD τ).loc main_arg20)) (m ((c : Thread nD τ).loc main_arg19)) := by rw [hagg, hxd, hwl, hwr, hbl]
    _ = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := (Cert.ReferenceIdeal.Layers.lin_v117 _ _ _ _ _ _ _ _ _ _ _ _ _ _ _ _ _ _ _).symm

/-- Boundary 15: the aggregate of block 3, pd. -/
theorem k_main_v86 : W15 m ρ c (Proc.devRef .tc main_v86) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have h := HostReads.agg7 (W14 m ρ c)
  rw [main_v54_0_at14 m ρ c, k_main_v54_0 m ρ c, argsAt14 m ρ c main_arg2 (by decide), argsAt14 m ρ c main_arg3 (by decide)] at h
  exact h.trans (Cert.ReferenceIdeal.Stages.stage_v127 _ _ _ _ _ _ _ _ _ _ _ _ _ _ _ _).symm

/-- Boundary 16: region 7's result. -/
theorem k_main_v87 : W16 m ρ c (Proc.devRef .tc main_v87) = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg21)) (m ((c : Thread nD τ).loc main_arg22)) (m ((c : Thread nD τ).loc main_arg23)) := by
  have hagg : V15 m ρ c main_v86 = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := k_main_v86 m ρ c
  have hxd : V15 m ρ c main_v65_1 = (Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := (main_v65_1_at15 m ρ c).trans (k_main_v65_1 m ρ c)
  have hwl : V15 m ρ c main_arg21 = (m ((c : Thread nD τ).loc main_arg21)) := argsAt15 m ρ c main_arg21 (by decide)
  have hwr : V15 m ρ c main_arg23 = (m ((c : Thread nD τ).loc main_arg23)) := argsAt15 m ρ c main_arg23 (by decide)
  have hbl : V15 m ρ c main_arg22 = (m ((c : Thread nD τ).loc main_arg22)) := argsAt15 m ρ c main_arg22 (by decide)
  calc W16 m ρ c (Proc.devRef .tc main_v87)
      = (dat7 (V15 m ρ) c).arrAt 5 cfg7.N := W16_arr m ρ c 5
    _ = Sage.lin (n := 20000) (K := 256) (C := 256) (V15 m ρ c main_v86) (V15 m ρ c main_v65_1) (V15 m ρ c main_arg21) (V15 m ρ c main_arg23) (V15 m ρ c main_arg22) := Region7.final5 (V15 m ρ) c
    _ = Sage.lin (n := 20000) (K := 256) (C := 256) (Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (m ((c : Thread nD τ).loc main_arg21)) (m ((c : Thread nD τ).loc main_arg23)) (m ((c : Thread nD τ).loc main_arg22)) := by rw [hagg, hxd, hwl, hwr, hbl]
    _ = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg21)) (m ((c : Thread nD τ).loc main_arg22)) (m ((c : Thread nD τ).loc main_arg23)) := (Cert.ReferenceIdeal.Layers.lin_v133 _ _ _ _ _ _ _ _ _ _ _ _ _ _ _ _ _ _ _).symm

/-! ## The two embedding tables at the end of the run -/

/-- The drug embeddings end at the reference's. -/
theorem result_zd : W19 m ρ c (Proc.devRef .tc main_v87) = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg21)) (m ((c : Thread nD τ).loc main_arg22)) (m ((c : Thread nD τ).loc main_arg23)) :=
  (main_v87_at19 m ρ c).trans (k_main_v87 m ρ c)

/-- The protein embeddings end at the reference's. -/
theorem result_zp : W19 m ρ c (Proc.devRef .tc main_v76) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (main_v76_at19 m ρ c).trans (k_main_v76 m ρ c)

end Cert.KernelIdeal.Value

end
-- ==== Proof.DecSpec.lean ====
/-
  The edge decoder, read entry by entry on the extended reals.

  For an edge l with gathered endpoint embeddings zd[l, ·] and zp[l, ·] (256 features each), the decoder's hidden
  unit j is  h[l, j] = max(pre[l, j], 0)  and the score is  Σ_j h[l, j] · W2[j] + b2.  The two programs differ only in
  how `pre` is summed:
    * `decOut`   (the reference's form): pre = Σ_{k < 512} cat[l, k] · W1[k, j] + b1[j], cat the concatenation of the two
                 embeddings along the feature axis;
    * `decBlock` (the fused form): pre = (Σ_{k < 256} zd[l, k] · W1a[k, j] + Σ_{k < 256} zp[l, k] · W1b[k, j]) + b1[j],
                 with W1a, W1b the upper and lower halves of W1 and the second layer's weights laid out as one row.
  A sum over 512 = 256 + 256 indices splits into the two halves (addition of extended reals is commutative and
  associative), which is the bridge between them; it is proved where the two are used.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The fused form, as a [L, 1] column: split first layer, second layer as a row of weights. -/
def decBlock {L : ℕ} (zd zp : (⟨2, ![L, 256]⟩ : Shape).Idx → EReal) (W1a W1b : (⟨2, ![256, 256]⟩ : Shape).Idx → EReal)
    (b1 : (⟨1, ![256]⟩ : Shape).Idx → EReal) (w2row : (⟨2, ![1, 256]⟩ : Shape).Idx → EReal) (b2 : (⟨1, ![1]⟩ : Shape).Idx → EReal) :
    (⟨2, ![L, 1]⟩ : Shape).Idx → EReal :=
  fun i => (∑ j : Fin 256,
      max (((∑ k : Fin 256, zd (ix2 (⟨(i 0).val, (i 0).isLt⟩ : Fin L) k) * W1a (ix2 k j))
            + ∑ k : Fin 256, zp (ix2 (⟨(i 0).val, (i 0).isLt⟩ : Fin L) k) * W1b (ix2 k j)) + b1 (ix1 j)) 0
        * w2row (ix2 (0 : Fin 1) j))
    + b2 (ix1 (0 : Fin 1))

/-- The plain form, as a [L] vector: one first layer over the 512 concatenated features. -/
def decOut {L : ℕ} (zd zp : (⟨2, ![L, 256]⟩ : Shape).Idx → EReal) (W1 : (⟨2, ![512, 256]⟩ : Shape).Idx → EReal)
    (b1 : (⟨1, ![256]⟩ : Shape).Idx → EReal) (W2 : (⟨2, ![256, 1]⟩ : Shape).Idx → EReal) (b2 : (⟨1, ![1]⟩ : Shape).Idx → EReal) :
    (⟨1, ![L]⟩ : Shape).Idx → EReal :=
  fun i => (∑ j : Fin 256,
      max ((∑ k : Fin 512, (if h : k.val < 256 then zd (ix2 (⟨(i 0).val, (i 0).isLt⟩ : Fin L) (⟨k.val, h⟩ : Fin 256))
                            else zp (ix2 (⟨(i 0).val, (i 0).isLt⟩ : Fin L) (⟨k.val - 256, by have := k.isLt; omega⟩ : Fin 256))) * W1 (ix2 k j))
            + b1 (ix1 j)) 0
        * W2 (ix2 j (0 : Fin 1)))
    + b2 (ix1 (0 : Fin 1))

end Cert.Sage

end
-- ==== Proof.Region8.lean ====
/-
  Region 8: the edge decoder over 200000 edges, 4000 edges per grid point, 50 points.

  At grid point t the body reads rows 4000·t … 4000·t + 3999 of the two gathered embeddings (256 features each), the
  whole of the first layer's two [256, 256] weight matrices, its bias, the second layer's weights as one row of 256 and
  the last bias, and writes the same 4000 rows of the [200000, 1] result. At the entry (p, 0) of the block the body's
  value is
      Σ_j max((Σ_k zd[p,k]·W1a[k,j] + Σ_k zp[p,k]·W1b[k,j]) + b1[j], 0) · w2row[0,j]  +  b2[0]:
  the changes of float format are the identity on extended reals, a matrix product into a zero accumulator is the plain
  sum of products, a broadcast bias reads the bias at the column, the maximum against a zero splat is the maximum with
  0, and the sum along the lanes from the initial value 0 is the sum of the row's 256 entries. So the block a point
  writes back is the restriction, to its rows, of ONE function of the arrays the region finds — the fused decoder
  `Sage.decBlock` —, the 50 blocks tile the result, and the result array ends at that function.
-/
import proofs.«151185_j10496900071610_2_alg».proof.Proof.Gen.KernelIdeal.Frame
import proofs.«151185_j10496900071610_2_alg».proof.Proof.DecSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region8

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's arithmetic at one entry of its block -/

theorem dot_lhs0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dot_lhs1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem dot_rhs0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem dot_rhs1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A [4000, 256] block times a [256, 256] matrix into a zero accumulator, read at the entry (p, j): the sum over the
    256 contracted positions of the products. -/
theorem dot_at (a : FVec Ideal S4000x256 .bf16) (b : FVec Ideal S256x256 .bf16) (p : Fin 4000) (j : Fin 256) :
    matmul dot_S4000x256_S256x256_S4000x256_1_0_0_1_n_n none a b (constant S4000x256 .f32 0x00000000#32) (ix2 p j)
      = ∑ k : Fin 256, a (ix2 p k) * b (ix2 k j) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p j) ((contrEquiv1 dot_S4000x256_S256x256_S4000x256_1_0_0_1_n_n 256 rfl rfl).symm k) = ix2 p k := funext fun ax => Fin.ext (by
    match ax with
    | ⟨0, _⟩ => exact dot_lhs0 _ _
    | ⟨1, _⟩ => exact (dot_lhs1 _ _).trans hk)
  have er : dot_S4000x256_S256x256_S4000x256_1_0_0_1_n_n.rhsIdx (ix2 p j) ((contrEquiv1 dot_S4000x256_S256x256_S4000x256_1_0_0_1_n_n 256 rfl rfl).symm k) = ix2 k j := funext fun ax => Fin.ext (by
    match ax with
    | ⟨0, _⟩ => exact (dot_rhs0 _ _).trans hk
    | ⟨1, _⟩ => exact dot_rhs1 _ _)
  rw [el, er]

/-- The first bias, cast to one row and broadcast along the 4000 rows, reads the bias vector at the entry's column. -/
theorem bias_at (v : Vec Ideal S256 .f32) (p : Fin 4000) (j : Fin 256) :
    broadcastTo S4000x256 (shapeCast S1x256 v shapeCasts_S256_S1x256) broadcasts_S1x256_S4000x256 (ix2 p j) = v (ix1 j) :=
  (broadcastTo_1b_ab_apply (a := 4000) (b := 256) _ broadcasts_S1x256_S4000x256 p j).trans
    (shapeCast_a_1a_apply (a := 256) v shapeCasts_S256_S1x256 (0 : Fin 1) j)

/-- The second layer's weights, one row broadcast along the 4000 rows, read that row at the entry's column. -/
theorem row_at (v : Vec Ideal S1x256 .f32) (p : Fin 4000) (j : Fin 256) :
    broadcastTo S4000x256 (shapeCast S1x256 v shapeCasts_S1x256_S1x256) broadcasts_S1x256_S4000x256 (ix2 p j) = v (ix2 (0 : Fin 1) j) := by
  rw [shapeCast_self]
  exact broadcastTo_1b_ab_apply (a := 4000) (b := 256) v broadcasts_S1x256_S4000x256 p j

/-- The last bias, one number cast to a [1, 1] array and broadcast down the column, is that number at every row. -/
theorem last_at (v : Vec Ideal S1 .f32) (p : Fin 4000) :
    broadcastTo S4000x1 (shapeCast S1x1 v shapeCasts_S1_S1x1) broadcasts_S1x1_S4000x1 (ix2 p (0 : Fin 1)) = v (ix1 (0 : Fin 1)) :=
  (broadcastTo_1b_ab_apply (a := 4000) (b := 1) _ broadcasts_S1x1_S4000x1 p (0 : Fin 1)).trans
    (shapeCast_a_1a_apply (a := 1) v shapeCasts_S1_S1x1 (0 : Fin 1) (0 : Fin 1))

/-- A vector of 4000 entries cast to a column reads, at (p, 0), its entry p. -/
theorem col_at (v : FVec Ideal S4000 .f32) (p : Fin 4000) :
    shapeCast S4000x1 v shapeCasts_S4000_S4000x1 (ix2 p (0 : Fin 1)) = v (ix1 p) :=
  shapeCast_apply v shapeCasts_S4000_S4000x1 _ _ (by
    rw [Shape.rowMajor_val_two, Shape.rowMajor_val_one]
    show p.val = p.val * 1 + 0
    omega)

/-- The reduced index p with the lane j put back is (p, j). -/
theorem lift_at (p : Fin 4000) (k : Fin (S4000x256.size 1)) :
    reduces_S4000x256_S4000.lift (ix1 p) k = ix2 p (⟨k.val, k.isLt⟩ : Fin 256) := by
  funext c; apply Fin.ext
  fin_cases c <;> rfl

/-- The sum along the lanes from the initial value 0, read at row p: the sum of the row's 256 entries. -/
theorem lanesum_at (x : FVec Ideal S4000x256 .f32) (p : Fin 4000) :
    multiReduction .add [1] S4000 x 0x00000000#32 reduces_S4000x256_S4000 (.inl rfl) rfl (ix1 p) = ∑ j : Fin 256, x (ix2 p j) :=
  (Ideal.multiReduction_add_single x 0x00000000#32 reduces_S4000x256_S4000 (.inl rfl) rfl (ix1 p)).trans
    (Finset.sum_congr rfl fun k _ => congrArg x (lift_at p k))

/-- The decoder's body at the entry (p, 0) of its block: the two first-layer products summed, the bias, the maximum
    with zero, the product with the second layer's row summed along the lanes, and the last bias. -/
theorem pay8_at (v0 v6 : Vec Ideal S4000x256 .bf16) (v2 v8 : Vec Ideal S256x256 .f32) (v13 : Vec Ideal S256 .f32)
    (v19 : Vec Ideal S1x256 .f32) (v25 : Vec Ideal S1 .f32) (p : Fin 4000) :
    k8_pay1 v0 v2 v6 v8 v13 v19 v25 (ix2 p (0 : Fin 1))
      = (∑ j : Fin 256,
          max (((∑ k : Fin 256, v0 (ix2 p k) * v2 (ix2 k j)) + ∑ k : Fin 256, v6 (ix2 p k) * v8 (ix2 k j)) + v13 (ix1 j)) 0
            * v19 (ix2 (0 : Fin 1) j))
        + v25 (ix1 (0 : Fin 1)) := by
  unfold k8_pay1
  show shapeCast S4000x1 (multiReduction (F := Ideal) .add [1] S4000 _ 0x00000000#32 reduces_S4000x256_S4000 (.inl rfl) rfl) shapeCasts_S4000_S4000x1 (ix2 p (0 : Fin 1))
      + broadcastTo S4000x1 (shapeCast S1x1 v25 shapeCasts_S1_S1x1) broadcasts_S1x1_S4000x1 (ix2 p (0 : Fin 1)) = _
  rw [col_at, last_at, lanesum_at]
  refine congrArg (· + v25 (ix1 (0 : Fin 1))) (Finset.sum_congr rfl fun j _ => ?_)
  show max ((matmul (F := Ideal) dot_S4000x256_S256x256_S4000x256_1_0_0_1_n_n none _ _ (constant S4000x256 .f32 0x00000000#32) (ix2 p j)
        + matmul (F := Ideal) dot_S4000x256_S256x256_S4000x256_1_0_0_1_n_n none _ _ (constant S4000x256 .f32 0x00000000#32) (ix2 p j))
        + broadcastTo S4000x256 (shapeCast S1x256 v13 shapeCasts_S256_S1x256) broadcasts_S1x256_S4000x256 (ix2 p j))
      (Ideal.ofBits .f32 0x00000000#32)
      * broadcastTo S4000x256 (shapeCast S1x256 v19 shapeCasts_S1x256_S1x256) broadcasts_S1x256_S4000x256 (ix2 p j) = _
  rw [dot_at, dot_at, bias_at, row_at, Ideal.ofBits_zero_f32]
  simp only [shapeCast_self]
  rfl

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two embeddings' windows and the result's sit at block row `t`, block column 0;
    both weight matrices, both biases and the second layer's row at block 0 throughout. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 1) = 0
    ∧ win8_5.index t (0 : Fin 2) = 0 ∧ win8_5.index t (1 : Fin 2) = 0
    ∧ win8_6.index t (0 : Fin 1) = 0
    ∧ win8_7.index t (0 : Fin 2) = t.val ∧ win8_7.index t (1 : Fin 2) = 0 :=
  (by decide +kernel : ∀ t : Fin grid8.N, _)

/-- Row p of point t's block is row 4000·t + p of the 200000 edges. -/
theorem row_lt (t : Fin cfg8.N) (p : Fin 4000) : t.val * 4000 + p.val < 200000 := by
  have hp := p.isLt
  have ht : t.val < 50 := Nat.lt_of_lt_of_eq t.isLt N_8
  omega

/-- Entry (p, k) of the first embedding's block at point `t` is entry (4000·t + p, k) of the array. -/
theorem emb8_0 (t : Fin cfg8.N) (p : Fin 4000) (k : Fin 256) :
    ((cfg8.win 0).blk t).view.emb (ix2 p k : S4000x256.Idx) = (ix2 (⟨t.val * 4000 + p.val, row_lt t p⟩ : Fin 200000) k : S200000x256.Idx) := by
  obtain ⟨e00, e01, e10, e11, e20, e21, e30, e31, e40, e50, e51, e60, e70, e71⟩ := idx_facts t
  funext a; apply Fin.ext
  match a with
  | ⟨0, _⟩ => show win8_0.index t (0 : Fin 2) * 4000 + 1 * p.val = t.val * 4000 + p.val; omega
  | ⟨1, _⟩ => show win8_0.index t (1 : Fin 2) * 256 + 1 * k.val = k.val; omega

/-- The same for the second embedding's block. -/
theorem emb8_1 (t : Fin cfg8.N) (p : Fin 4000) (k : Fin 256) :
    ((cfg8.win 1).blk t).view.emb (ix2 p k : S4000x256.Idx) = (ix2 (⟨t.val * 4000 + p.val, row_lt t p⟩ : Fin 200000) k : S200000x256.Idx) := by
  obtain ⟨e00, e01, e10, e11, e20, e21, e30, e31, e40, e50, e51, e60, e70, e71⟩ := idx_facts t
  funext a; apply Fin.ext
  match a with
  | ⟨0, _⟩ => show win8_1.index t (0 : Fin 2) * 4000 + 1 * p.val = t.val * 4000 + p.val; omega
  | ⟨1, _⟩ => show win8_1.index t (1 : Fin 2) * 256 + 1 * k.val = k.val; omega

/-- The first layer's two weight matrices are staged whole: entry (k, j) of the block is entry (k, j) of the matrix. -/
theorem emb8_2 (t : Fin cfg8.N) (k j : Fin 256) :
    ((cfg8.win 2).blk t).view.emb (ix2 k j : S256x256.Idx) = (ix2 k j : S256x256.Idx) := by
  obtain ⟨e00, e01, e10, e11, e20, e21, e30, e31, e40, e50, e51, e60, e70, e71⟩ := idx_facts t
  funext a; apply Fin.ext
  match a with
  | ⟨0, _⟩ => show win8_2.index t (0 : Fin 2) * 256 + 1 * k.val = k.val; omega
  | ⟨1, _⟩ => show win8_2.index t (1 : Fin 2) * 256 + 1 * j.val = j.val; omega

theorem emb8_3 (t : Fin cfg8.N) (k j : Fin 256) :
    ((cfg8.win 3).blk t).view.emb (ix2 k j : S256x256.Idx) = (ix2 k j : S256x256.Idx) := by
  obtain ⟨e00, e01, e10, e11, e20, e21, e30, e31, e40, e50, e51, e60, e70, e71⟩ := idx_facts t
  funext a; apply Fin.ext
  match a with
  | ⟨0, _⟩ => show win8_3.index t (0 : Fin 2) * 256 + 1 * k.val = k.val; omega
  | ⟨1, _⟩ => show win8_3.index t (1 : Fin 2) * 256 + 1 * j.val = j.val; omega

/-- The first bias is staged whole. -/
theorem emb8_4 (t : Fin cfg8.N) (j : Fin 256) :
    ((cfg8.win 4).blk t).view.emb (ix1 j : S256.Idx) = (ix1 j : S256.Idx) := by
  obtain ⟨e00, e01, e10, e11, e20, e21, e30, e31, e40, e50, e51, e60, e70, e71⟩ := idx_facts t
  funext a; apply Fin.ext
  match a with
  | ⟨0, _⟩ => show win8_4.index t (0 : Fin 1) * 256 + 1 * j.val = j.val; omega

/-- The second layer's row of weights is staged whole. -/
theorem emb8_5 (t : Fin cfg8.N) (j : Fin 256) :
    ((cfg8.win 5).blk t).view.emb (ix2 (0 : Fin 1) j : S1x256.Idx) = (ix2 (0 : Fin 1) j : S1x256.Idx) := by
  obtain ⟨e00, e01, e10, e11, e20, e21, e30, e31, e40, e50, e51, e60, e70, e71⟩ := idx_facts t
  funext a; apply Fin.ext
  match a with
  | ⟨0, _⟩ => show win8_5.index t (0 : Fin 2) * 1 + 1 * 0 = 0; omega
  | ⟨1, _⟩ => show win8_5.index t (1 : Fin 2) * 256 + 1 * j.val = j.val; omega

/-- The last bias is staged whole. -/
theorem emb8_6 (t : Fin cfg8.N) :
    ((cfg8.win 6).blk t).view.emb (ix1 (0 : Fin 1) : S1.Idx) = (ix1 (0 : Fin 1) : S1.Idx) := by
  obtain ⟨e00, e01, e10, e11, e20, e21, e30, e31, e40, e50, e51, e60, e70, e71⟩ := idx_facts t
  funext a; apply Fin.ext
  match a with
  | ⟨0, _⟩ => show win8_6.index t (0 : Fin 1) * 1 + 1 * 0 = 0; omega

/-- Entry (p, 0) of the result's block at point `t` is entry (4000·t + p, 0) of the result. -/
theorem emb8_7 (t : Fin cfg8.N) (p : Fin 4000) :
    ((cfg8.win 7).blk t).view.emb (ix2 p (0 : Fin 1) : S4000x1.Idx) = (ix2 (⟨t.val * 4000 + p.val, row_lt t p⟩ : Fin 200000) (0 : Fin 1) : S200000x1.Idx) := by
  obtain ⟨e00, e01, e10, e11, e20, e21, e30, e31, e40, e50, e51, e60, e70, e71⟩ := idx_facts t
  funext a; apply Fin.ext
  match a with
  | ⟨0, _⟩ => show win8_7.index t (0 : Fin 2) * 4000 + 1 * p.val = t.val * 4000 + p.val; omega
  | ⟨1, _⟩ => show win8_7.index t (1 : Fin 2) * 1 + 1 * 0 = 0; omega

/-- The fused decoder at the entry (r, 0), from numbers that are entry by entry the arrays' at row r. -/
theorem dec_of_entries {L : ℕ} (zd zp : (⟨2, ![L, 256]⟩ : Shape).Idx → EReal) (W1a W1b : (⟨2, ![256, 256]⟩ : Shape).Idx → EReal)
    (b1 : (⟨1, ![256]⟩ : Shape).Idx → EReal) (w2row : (⟨2, ![1, 256]⟩ : Shape).Idx → EReal) (b2 : (⟨1, ![1]⟩ : Shape).Idx → EReal)
    (r : Fin L) (a0 a1 : Fin 256 → EReal) (a2 a3 : Fin 256 → Fin 256 → EReal) (a4 a5 : Fin 256 → EReal) (a6 : EReal)
    (h0 : ∀ k, a0 k = zd (ix2 r k)) (h1 : ∀ k, a1 k = zp (ix2 r k))
    (h2 : ∀ k j, a2 k j = W1a (ix2 k j)) (h3 : ∀ k j, a3 k j = W1b (ix2 k j))
    (h4 : ∀ j, a4 j = b1 (ix1 j)) (h5 : ∀ j, a5 j = w2row (ix2 (0 : Fin 1) j)) (h6 : a6 = b2 (ix1 (0 : Fin 1))) :
    (∑ j : Fin 256, max (((∑ k : Fin 256, a0 k * a2 k j) + ∑ k : Fin 256, a1 k * a3 k j) + a4 j) 0 * a5 j) + a6
      = Sage.decBlock zd zp W1a W1b b1 w2row b2 (ix2 r (0 : Fin 1)) := by
  simp only [h0, h1, h2, h3, h4, h5, h6]
  rfl

/-- What point `t` writes back through the result's window is block `t` of the fused decoder of the arrays the region
    finds: rows `4000·t … 4000·t + 3999` of the one column. -/
theorem flushed8_7 (c : Dev nD) (t : Fin cfg8.N) :
    (dat8 V c).flushed 7 t = ((cfg8.win 7).blk t).view.read (Elt Ideal)
      (Sage.decBlock (L := 200000) (V c main_v96) (V c main_v103) (V c main_v104) (V c main_v105) (V c main_arg25) (V c main_v106) (V c main_arg27)) := by
  show (cfg8.win 7).cut (grid8.coords t) ((dat8 V c).after 7 t) = _
  rw [after8_7]
  unfold out8_7
  rw [View.canon_unit_zero hz2]
  simp only [View.ld_unit_zero (S := S4000x256) hz2, View.ld_unit_zero (S := S256x256) hz2, View.ld_unit_zero (S := S256) hz1,
    View.ld_unit_zero (S := S1x256) hz2, View.ld_unit_zero (S := S1) hz1]
  refine funext fun (y : S4000x1.Idx) => ?_
  obtain ⟨p, q, rfl⟩ : ∃ (p : Fin 4000) (q : Fin 1), y = ix2 p q := ⟨y 0, y 1, eq_ix2 y⟩
  obtain rfl : q = 0 := Subsingleton.elim _ _
  refine (pay8_at (iblk8 V c 0 t) (iblk8 V c 1 t) (iblk8 V c 2 t) (iblk8 V c 3 t) (iblk8 V c 4 t) (iblk8 V c 5 t) (iblk8 V c 6 t) p).trans ?_
  show _ = Sage.decBlock (L := 200000) (V c main_v96) (V c main_v103) (V c main_v104) (V c main_v105) (V c main_arg25) (V c main_v106) (V c main_arg27)
      (((cfg8.win 7).blk t).view.emb (ix2 p (0 : Fin 1)))
  rw [emb8_7 t p]
  exact dec_of_entries (V c main_v96) (V c main_v103) (V c main_v104) (V c main_v105) (V c main_arg25) (V c main_v106) (V c main_arg27)
    (⟨t.val * 4000 + p.val, row_lt t p⟩ : Fin 200000)
    (fun k => iblk8 V c 0 t (ix2 p k)) (fun k => iblk8 V c 1 t (ix2 p k))
    (fun k j => iblk8 V c 2 t (ix2 k j)) (fun k j => iblk8 V c 3 t (ix2 k j))
    (fun j => iblk8 V c 4 t (ix1 j)) (fun j => iblk8 V c 5 t (ix2 (0 : Fin 1) j)) (iblk8 V c 6 t (ix1 (0 : Fin 1)))
    (fun k => congrArg (V c main_v96) (emb8_0 t p k)) (fun k => congrArg (V c main_v103) (emb8_1 t p k))
    (fun k j => congrArg (V c main_v104) (emb8_2 t k j)) (fun k j => congrArg (V c main_v105) (emb8_3 t k j))
    (fun j => congrArg (V c main_arg25) (emb8_4 t j)) (fun j => congrArg (V c main_v106) (emb8_5 t j))
    (congrArg (V c main_arg27) (emb8_6 t))

/-- An index of the result is in point `t`'s block iff its row is one of the point's 4000. -/
theorem mem_blk7 (t : Fin cfg8.N) (i : S200000x1.Idx) :
    i ∈ ((cfg8.win 7).blk t).view.set ↔ ∀ a : Fin 2, win8_7.index t a * S4000x1.size a ≤ (i a).val ∧ (i a).val < win8_7.index t a * S4000x1.size a + S4000x1.size a := by
  show i ∈ ((View.whole main_v107).slice (win8_7.rect t)).set ↔ _
  rw [View.set_slice_whole, Rect.mem_set_unit]
  exact Iff.rfl

/-- Every entry of the result lies in the block of the point its row falls to: point `row / 4000`. -/
theorem cover7 (i : S200000x1.Idx) : ∃ t : Fin cfg8.N, (cfg8.win 7).flush t = true ∧ i ∈ ((cfg8.win 7).blk t).view.set := by
  have h0 : (i 0).val < 200000 := (i 0).isLt
  have h1 : (i 1).val < 1 := (i 1).isLt
  let t : Fin cfg8.N := ⟨(i 0).val / 4000, by rw [show cfg8.N = 50 from N_8]; omega⟩
  obtain ⟨e00, e01, e10, e11, e20, e21, e30, e31, e40, e50, e51, e60, e70, e71⟩ := idx_facts t
  have ht : t.val = (i 0).val / 4000 := rfl
  refine ⟨t, flush8_7 t, ?_⟩
  rw [mem_blk7]
  intro a
  match a with
  | ⟨0, _⟩ => show win8_7.index t (0 : Fin 2) * 4000 ≤ (i 0).val ∧ (i 0).val < win8_7.index t (0 : Fin 2) * 4000 + 4000; omega
  | ⟨1, _⟩ => show win8_7.index t (1 : Fin 2) * 1 ≤ (i 1).val ∧ (i 1).val < win8_7.index t (1 : Fin 2) * 1 + 1; omega

/-- THE RESULT ARRAY after the region: the fused decoder of the arrays the region finds, as a [200000, 1] column. -/
theorem final7 (c : Dev nD) : (dat8 V c).arrAt 7 cfg8.N
    = Sage.decBlock (L := 200000) (V c main_v96) (V c main_v103) (V c main_v104) (V c main_v105) (V c main_arg25) (V c main_v106) (V c main_arg27) :=
  (dat8 V c).arrAt_eq_of_cover 7 _ (fun t _ => flushed8_7 V c t) cover7

end Cert.KernelIdeal.Region8

end
-- ==== Proof.RefDecoder.lean ====
/-
  The reference's edge decoder, as the plain decoder `Sage.decOut` of the two gathered embeddings.

  The reference concatenates the two gathered [200000, 256] embeddings along the feature axis, multiplies by the
  [512, 256] first-layer weights, adds the doubly broadcast bias, takes the maximum with a zero splat, multiplies by the
  [256, 1] second-layer weights, adds the doubly broadcast last bias and reshapes the [200000, 1] column to a vector.
  Read at the edge l: the reshape reads the column at (l, 0); the second product is the sum over the 256 hidden units j;
  the maximum is with 0; the first product is the sum over the 512 concatenated features k, and the concatenation at
  (l, k) is the first embedding at (l, k) when k < 256 and the second at (l, k − 256) otherwise. That is
  `Sage.decOut` entry by entry. The two gathered embeddings stay opaque throughout.
-/
import proofs.«151185_j10496900071610_2_alg».proof.Proof.Gen.ReferenceIdeal.Read
import proofs.«151185_j10496900071610_2_alg».proof.Proof.DecSpec

set_option maxRecDepth 16384

noncomputable section

namespace Cert.ReferenceIdeal.Decoder

open Cert.ReferenceIdeal Cert.ReferenceIdeal.Gen Idealize.ShloMosaic Idealize.ShloMosaic.ValueIdx

/-- The two embeddings joined along the feature axis, read at (l, k): the first one's entry (l, k) in the first 256
    columns, the second one's entry (l, k − 256) in the last 256. -/
theorem cat_at (zd zp : (⟨S200000x256, .f32⟩ : BufTy).Contents (Elt Ideal)) (l : Fin 200000) (k : Fin 512) :
    concatenate S200000x512 1 [⟨S200000x256, zd⟩, ⟨S200000x256, zp⟩] concatenates_S200000x256_S200000x256_S200000x512_d1 (ix2 l k)
      = if h : k.val < 256 then zd (ix2 l (⟨k.val, h⟩ : Fin 256))
        else zp (ix2 l (⟨k.val - 256, by have := k.isLt; omega⟩ : Fin 256)) := by
  by_cases h : k.val < 256
  · rw [dif_pos h]
    exact concatenate_pair_apply_left (1 : Fin S200000x512.rank) zd zp concatenates_S200000x256_S200000x256_S200000x512_d1 (ix2 l k) rfl
      (ix2 l (⟨k.val, h⟩ : Fin 256)) (fun b => match b with
        | ⟨0, _⟩ => rfl
        | ⟨1, _⟩ => rfl)
  · rw [dif_neg h]
    exact concatenate_pair_apply_right (1 : Fin S200000x512.rank) zd zp concatenates_S200000x256_S200000x256_S200000x512_d1 (ix2 l k) rfl rfl
      (ix2 l (⟨k.val - 256, by have := k.isLt; omega⟩ : Fin 256)) (fun b hb => match b, hb with
        | ⟨0, _⟩, _ => rfl
        | ⟨1, _⟩, hb => absurd rfl hb)
      (by show k.val - 256 + 256 = k.val; omega)

/-- The last bias, broadcast twice, is the one number at every edge. -/
theorem last_at (x27 : (⟨S1, .f32⟩ : BufTy).Contents (Elt Ideal)) (l : Fin 200000) :
    Read.val_main_v156 (F := Ideal) x27 (ix2 l (0 : Fin 1)) = x27 (ix1 (0 : Fin 1)) :=
  (Read.val_main_v156_apply x27 _).trans ((Read.val_main_v155_apply x27 _).trans (congrArg x27 (funext fun a => Fin.ext (by
    match a with
    | ⟨0, _⟩ => rfl))))

/-- The first bias, broadcast twice, reads the bias vector at the hidden unit. -/
theorem bias_at (x25 : (⟨S256, .f32⟩ : BufTy).Contents (Elt Ideal)) (l : Fin 200000) (j : Fin 256) :
    Read.val_main_v151 (F := Ideal) x25 (ix2 l j) = x25 (ix1 j) :=
  (Read.val_main_v151_apply x25 _).trans ((Read.val_main_v150_apply x25 _).trans (congrArg x25 (funext fun a => Fin.ext (by
    match a with
    | ⟨0, _⟩ => rfl))))

/-- The zero splat the maximum is taken against is 0 at every entry. -/
theorem zero_at (i : S200000x256.Idx) : Read.val_main_call0_v0 (F := Ideal) i = 0 :=
  (Read.val_main_call0_v0_apply i).trans ((Read.val_main_call0_cst_apply _).trans Ideal.ofBits_zero_f32)

/-- The first layer's product at (l, j): the sum over the 512 concatenated features. -/
theorem first_at (x0 : (⟨S20000x128, .f32⟩ : BufTy).Contents (Elt Ideal)) (x1 : (⟨S8000x128, .f32⟩ : BufTy).Contents (Elt Ideal)) (x2 x3 : (⟨S640000, .i32⟩ : BufTy).Contents (Elt Ideal)) (x4 x5 : (⟨S200000, .i32⟩ : BufTy).Contents (Elt Ideal)) (x6 : (⟨S128x256, .f32⟩ : BufTy).Contents (Elt Ideal)) (x7 : (⟨S256, .f32⟩ : BufTy).Contents (Elt Ideal)) (x8 x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 x15 : (⟨S256x256, .f32⟩ : BufTy).Contents (Elt Ideal)) (x16 : (⟨S256, .f32⟩ : BufTy).Contents (Elt Ideal)) (x17 x18 : (⟨S256x256, .f32⟩ : BufTy).Contents (Elt Ideal)) (x19 : (⟨S256, .f32⟩ : BufTy).Contents (Elt Ideal)) (x20 x21 : (⟨S256x256, .f32⟩ : BufTy).Contents (Elt Ideal)) (x22 : (⟨S256, .f32⟩ : BufTy).Contents (Elt Ideal)) (x23 : (⟨S256x256, .f32⟩ : BufTy).Contents (Elt Ideal)) (x24 : (⟨S512x256, .f32⟩ : BufTy).Contents (Elt Ideal)) (l : Fin 200000) (j : Fin 256) :
    Read.val_main_v149 (F := Ideal) x0 x1 x2 x3 x4 x5 x6 x7 x8 x9 x10 x11 x12 x13 x14 x15 x16 x17 x18 x19 x20 x21 x22 x23 x24 (ix2 l j)
      = ∑ k : Fin 512, (if h : k.val < 256 then (Read.val_main_v140 (F := Ideal) x0 x1 x2 x3 x4 x6 x7 x8 x9 x10 x11 x12 x13 x14 x15 x16 x17 x21 x22 x23) (ix2 l (⟨k.val, h⟩ : Fin 256))
          else (Read.val_main_v147 (F := Ideal) x0 x1 x2 x3 x5 x6 x7 x8 x9 x10 x11 x12 x13 x14 x15 x16 x17 x18 x19 x20) (ix2 l (⟨k.val - 256, by have := k.isLt; omega⟩ : Fin 256))) * x24 (ix2 k j) := by
  refine (Read.val_main_v149_apply x0 x1 x2 x3 x4 x5 x6 x7 x8 x9 x10 x11 x12 x13 x14 x15 x16 x17 x18 x19 x20 x21 x22 x23 x24 (ix2 l j)).trans (Finset.sum_congr rfl fun k _ => ?_)
  have hl : Read.lidx_main_v149 (ix2 l j) k = ix2 l k := funext fun a => Fin.ext (by
    match a with
    | ⟨0, _⟩ => rfl
    | ⟨1, _⟩ => rfl)
  have hr : Read.ridx_main_v149 (ix2 l j) k = ix2 k j := funext fun a => Fin.ext (by
    match a with
    | ⟨0, _⟩ => rfl
    | ⟨1, _⟩ => rfl)
  exact congrArg₂ (· * ·)
    ((congrArg (Read.val_main_v148 (F := Ideal) x0 x1 x2 x3 x4 x5 x6 x7 x8 x9 x10 x11 x12 x13 x14 x15 x16 x17 x18 x19 x20 x21 x22 x23) hl).trans (cat_at (Read.val_main_v140 (F := Ideal) x0 x1 x2 x3 x4 x6 x7 x8 x9 x10 x11 x12 x13 x14 x15 x16 x17 x21 x22 x23) (Read.val_main_v147 (F := Ideal) x0 x1 x2 x3 x5 x6 x7 x8 x9 x10 x11 x12 x13 x14 x15 x16 x17 x18 x19 x20) l k))
    (congrArg x24 hr)

/-- The hidden unit j of edge l: the first layer's product plus its bias, then the maximum with 0. -/
theorem hidden_at (x0 : (⟨S20000x128, .f32⟩ : BufTy).Contents (Elt Ideal)) (x1 : (⟨S8000x128, .f32⟩ : BufTy).Contents (Elt Ideal)) (x2 x3 : (⟨S640000, .i32⟩ : BufTy).Contents (Elt Ideal)) (x4 x5 : (⟨S200000, .i32⟩ : BufTy).Contents (Elt Ideal)) (x6 : (⟨S128x256, .f32⟩ : BufTy).Contents (Elt Ideal)) (x7 : (⟨S256, .f32⟩ : BufTy).Contents (Elt Ideal)) (x8 x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 x15 : (⟨S256x256, .f32⟩ : BufTy).Contents (Elt Ideal)) (x16 : (⟨S256, .f32⟩ : BufTy).Contents (Elt Ideal)) (x17 x18 : (⟨S256x256, .f32⟩ : BufTy).Contents (Elt Ideal)) (x19 : (⟨S256, .f32⟩ : BufTy).Contents (Elt Ideal)) (x20 x21 : (⟨S256x256, .f32⟩ : BufTy).Contents (Elt Ideal)) (x22 : (⟨S256, .f32⟩ : BufTy).Contents (Elt Ideal)) (x23 : (⟨S256x256, .f32⟩ : BufTy).Contents (Elt Ideal)) (x24 : (⟨S512x256, .f32⟩ : BufTy).Contents (Elt Ideal)) (x25 : (⟨S256, .f32⟩ : BufTy).Contents (Elt Ideal)) (l : Fin 200000) (j : Fin 256) :
    Read.val_main_v153 (F := Ideal) x0 x1 x2 x3 x4 x5 x6 x7 x8 x9 x10 x11 x12 x13 x14 x15 x16 x17 x18 x19 x20 x21 x22 x23 x24 x25 (ix2 l j)
      = max ((∑ k : Fin 512, (if h : k.val < 256 then (Read.val_main_v140 (F := Ideal) x0 x1 x2 x3 x4 x6 x7 x8 x9 x10 x11 x12 x13 x14 x15 x16 x17 x21 x22 x23) (ix2 l (⟨k.val, h⟩ : Fin 256))
          else (Read.val_main_v147 (F := Ideal) x0 x1 x2 x3 x5 x6 x7 x8 x9 x10 x11 x12 x13 x14 x15 x16 x17 x18 x19 x20) (ix2 l (⟨k.val - 256, by have := k.isLt; omega⟩ : Fin 256))) * x24 (ix2 k j)) + x25 (ix1 j)) 0 := by
  refine (Read.val_main_v153_apply x0 x1 x2 x3 x4 x5 x6 x7 x8 x9 x10 x11 x12 x13 x14 x15 x16 x17 x18 x19 x20 x21 x22 x23 x24 x25 (ix2 l j)).trans ?_
  show max (Read.val_main_v152 (F := Ideal) x0 x1 x2 x3 x4 x5 x6 x7 x8 x9 x10 x11 x12 x13 x14 x15 x16 x17 x18 x19 x20 x21 x22 x23 x24 x25 (ix2 l j)) (Read.val_main_call0_v0 (F := Ideal) (ix2 l j)) = _
  rw [zero_at, Read.val_main_v152_apply]
  show max (Read.val_main_v149 (F := Ideal) x0 x1 x2 x3 x4 x5 x6 x7 x8 x9 x10 x11 x12 x13 x14 x15 x16 x17 x18 x19 x20 x21 x22 x23 x24 (ix2 l j) + Read.val_main_v151 (F := Ideal) x25 (ix2 l j)) 0 = _
  rw [first_at, bias_at]

/-- THE REFERENCE'S SCORES: the plain decoder of the two gathered embeddings, the first layer's [512, 256] weights and
    bias, the second layer's [256, 1] weights and bias. -/
theorem dec_v158 (x0 : (⟨S20000x128, .f32⟩ : BufTy).Contents (Elt Ideal)) (x1 : (⟨S8000x128, .f32⟩ : BufTy).Contents (Elt Ideal)) (x2 x3 : (⟨S640000, .i32⟩ : BufTy).Contents (Elt Ideal)) (x4 x5 : (⟨S200000, .i32⟩ : BufTy).Contents (Elt Ideal)) (x6 : (⟨S128x256, .f32⟩ : BufTy).Contents (Elt Ideal)) (x7 : (⟨S256, .f32⟩ : BufTy).Contents (Elt Ideal)) (x8 x9 : (⟨S128x256, .f32⟩ : BufTy).Contents (Elt Ideal)) (x10 : (⟨S256, .f32⟩ : BufTy).Contents (Elt Ideal)) (x11 : (⟨S128x256, .f32⟩ : BufTy).Contents (Elt Ideal)) (x12 : (⟨S256x256, .f32⟩ : BufTy).Contents (Elt Ideal)) (x13 : (⟨S256, .f32⟩ : BufTy).Contents (Elt Ideal)) (x14 x15 : (⟨S256x256, .f32⟩ : BufTy).Contents (Elt Ideal)) (x16 : (⟨S256, .f32⟩ : BufTy).Contents (Elt Ideal)) (x17 x18 : (⟨S256x256, .f32⟩ : BufTy).Contents (Elt Ideal)) (x19 : (⟨S256, .f32⟩ : BufTy).Contents (Elt Ideal)) (x20 x21 : (⟨S256x256, .f32⟩ : BufTy).Contents (Elt Ideal)) (x22 : (⟨S256, .f32⟩ : BufTy).Contents (Elt Ideal)) (x23 : (⟨S256x256, .f32⟩ : BufTy).Contents (Elt Ideal)) (x24 : (⟨S512x256, .f32⟩ : BufTy).Contents (Elt Ideal)) (x25 : (⟨S256, .f32⟩ : BufTy).Contents (Elt Ideal)) (x26 : (⟨S256x1, .f32⟩ : BufTy).Contents (Elt Ideal)) (x27 : (⟨S1, .f32⟩ : BufTy).Contents (Elt Ideal)) :
    Read.val_main_v158 (F := Ideal) x0 x1 x2 x3 x4 x5 x6 x7 x8 x9 x10 x11 x12 x13 x14 x15 x16 x17 x18 x19 x20 x21 x22 x23 x24 x25 x26 x27
      = Sage.decOut (L := 200000) (Read.val_main_v140 (F := Ideal) x0 x1 x2 x3 x4 x6 x7 x8 x9 x10 x11 x12 x13 x14 x15 x16 x17 x21 x22 x23) (Read.val_main_v147 (F := Ideal) x0 x1 x2 x3 x5 x6 x7 x8 x9 x10 x11 x12 x13 x14 x15 x16 x17 x18 x19 x20) x24 x25 x26 x27 := by
  funext i
  obtain ⟨l, rfl⟩ : ∃ l : Fin 200000, i = ix1 l := ⟨i 0, eq_ix1 i⟩
  have hrow : Read.idx_main_v158 (ix1 l) = ix2 l (0 : Fin 1) := funext fun a => Fin.ext (by
    match a with
    | ⟨0, _⟩ => exact Nat.div_one _
    | ⟨1, _⟩ => rfl)
  rw [Read.val_main_v158_apply, hrow, Read.val_main_v157_apply]
  show Read.val_main_v154 (F := Ideal) x0 x1 x2 x3 x4 x5 x6 x7 x8 x9 x10 x11 x12 x13 x14 x15 x16 x17 x18 x19 x20 x21 x22 x23 x24 x25 x26 (ix2 l (0 : Fin 1)) + Read.val_main_v156 (F := Ideal) x27 (ix2 l (0 : Fin 1)) = _
  rw [last_at, Read.val_main_v154_apply]
  unfold Sage.decOut
  refine congrArg (· + x27 (ix1 (0 : Fin 1))) (Finset.sum_congr rfl fun j _ => ?_)
  have hl : Read.lidx_main_v154 (ix2 l (0 : Fin 1)) j = ix2 l j := funext fun a => Fin.ext (by
    match a with
    | ⟨0, _⟩ => rfl
    | ⟨1, _⟩ => rfl)
  have hr : Read.ridx_main_v154 (ix2 l (0 : Fin 1)) j = ix2 j (0 : Fin 1) := funext fun a => Fin.ext (by
    match a with
    | ⟨0, _⟩ => rfl
    | ⟨1, _⟩ => rfl)
  rw [hl, hr, hidden_at]

end Cert.ReferenceIdeal.Decoder

end
-- ==== Proof.DecBridge.lean ====
/-
  The two arrangements of the edge decoder give the same score.

  The plain decoder multiplies the 512 concatenated features of an edge (the drug embedding's 256, then the protein
  embedding's 256) by one [512, 256] matrix; the fused one multiplies each embedding by its own [256, 256] half of that
  matrix and adds the two products. A sum over 512 = 256 + 256 indices is the sum over the first 256 plus the sum over
  the last 256, the first half of the concatenation reads the first embedding and the second half the second one at
  the index less 256: so the two first layers agree entry by entry. Only commutativity and associativity of the
  extended reals' addition are used (they hold at the infinities too), so no entry needs to be finite. The rest of
  the decoder — bias, maximum with zero, the second layer's weights read as a column or as a row, the last bias — is
  the same expression on both sides.
-/
import proofs.«151185_j10496900071610_2_alg».proof.Proof.DecSpec
import Mathlib.Algebra.BigOperators.Fin

noncomputable section

namespace Cert.Sage

open Idealize.ShloMosaic Idealize.ShloMosaic.ValueIdx

/-- A sum over 512 = 256 + 256 indices is the sum over the first 256 plus the sum over the last 256. -/
theorem sum_halves (g : Fin 512 → EReal) :
    ∑ k : Fin 512, g k
      = (∑ k : Fin 256, g (⟨k.val, by omega⟩ : Fin 512)) + ∑ k : Fin 256, g (⟨256 + k.val, by omega⟩ : Fin 512) :=
  Fin.sum_univ_add (M := EReal) (a := 256) (b := 256) (fun k => g k)

/-- The first layer over the concatenated features: the terms with k < 256 read the first embedding, the others
    the second one shifted by 256, so the sum is the two half sums against the upper and the lower rows of the weights. -/
theorem sum_cat (a b : Fin 256 → EReal) (w : Fin 512 → EReal) :
    ∑ k : Fin 512, (if h : k.val < 256 then a (⟨k.val, h⟩ : Fin 256)
                      else b (⟨k.val - 256, by have := k.isLt; omega⟩ : Fin 256)) * w k
      = (∑ k : Fin 256, a k * w (⟨k.val, by omega⟩ : Fin 512))
        + ∑ k : Fin 256, b k * w (⟨256 + k.val, by omega⟩ : Fin 512) := by
  rw [sum_halves]
  refine congrArg₂ (· + ·) (Finset.sum_congr rfl fun k _ => ?_) (Finset.sum_congr rfl fun k _ => ?_)
  · have hk : (⟨k.val, by omega⟩ : Fin 512).val < 256 := k.isLt
    rw [dif_pos hk]
  · have hk : ¬ (⟨256 + k.val, by omega⟩ : Fin 512).val < 256 := Nat.not_lt.mpr (Nat.le_add_right 256 k.val)
    rw [dif_neg hk]
    have e : (⟨(⟨256 + k.val, by omega⟩ : Fin 512).val - 256, by have := k.isLt; show 256 + k.val - 256 < 256; omega⟩ : Fin 256) = k :=
      Fin.ext (show 256 + k.val - 256 = k.val from Nat.add_sub_cancel_left 256 k.val)
    exact congrArg (fun t => b t * w (⟨256 + k.val, by omega⟩ : Fin 512)) e

/-- The fused decoder at the entry (l, 0) is the plain decoder at l, when W1a and W1b are the upper and lower halves
    of W1 and w2row is W2 written as a row: only the first layer's sum is arranged differently. -/
theorem dec_bridge {L : ℕ} (zd zp : (⟨2, ![L, 256]⟩ : Shape).Idx → EReal)
    (W1 : (⟨2, ![512, 256]⟩ : Shape).Idx → EReal) (b1 : (⟨1, ![256]⟩ : Shape).Idx → EReal)
    (W2 : (⟨2, ![256, 1]⟩ : Shape).Idx → EReal) (b2 : (⟨1, ![1]⟩ : Shape).Idx → EReal)
    (W1a W1b : (⟨2, ![256, 256]⟩ : Shape).Idx → EReal) (w2row : (⟨2, ![1, 256]⟩ : Shape).Idx → EReal)
    (h1a : ∀ (k j : Fin 256), W1a (ix2 k j) = W1 (ix2 (⟨k.val, by omega⟩ : Fin 512) j))
    (h1b : ∀ (k j : Fin 256), W1b (ix2 k j) = W1 (ix2 (⟨256 + k.val, by omega⟩ : Fin 512) j))
    (h2 : ∀ j : Fin 256, w2row (ix2 (0 : Fin 1) j) = W2 (ix2 j (0 : Fin 1)))
    (l : Fin L) :
    decBlock zd zp W1a W1b b1 w2row b2 (ix2 l (0 : Fin 1)) = decOut zd zp W1 b1 W2 b2 (ix1 l) := by
  unfold decBlock decOut
  refine congrArg (· + b2 (ix1 (0 : Fin 1))) (Finset.sum_congr rfl fun j _ => ?_)
  rw [h2 j]
  refine congrArg (fun x => max (x + b1 (ix1 j)) 0 * W2 (ix2 j (0 : Fin 1))) ?_
  -- the row coordinate of both entries is l
  refine Eq.trans ?_ (sum_cat (fun k => zd (ix2 l k)) (fun k => zp (ix2 l k)) (fun k => W1 (ix2 k j))).symm
  refine congrArg₂ (· + ·) (Finset.sum_congr rfl fun k _ => ?_) (Finset.sum_congr rfl fun k _ => ?_)
  · exact congrArg (fun t => zd (ix2 l k) * t) (h1a k j)
  · exact congrArg (fun t => zp (ix2 l k) * t) (h1b k j)

end Cert.Sage

end
-- ==== Proof.DecoderValue.lean ====
/-
  The decoder's steps of the induction, and the edge scores at the end of the run.

  Before the last region the program gathers the two endpoint embeddings of every labelled edge (the reference's own
  gathers, of embedding tables already identified), halves the first layer's weights and lays the second layer's
  weights out as a row. The region leaves the fused decoder's column of scores; the last stretch flattens it. Read at
  an edge the flattened column is the column's entry, the two halves of W1 are its upper and lower 256 rows and the row
  of second-layer weights is W2's column, so the fused score is the plain one by the bridge between the two forms.
-/
import proofs.«151185_j10496900071610_2_alg».proof.Proof.KernelValue
import proofs.«151185_j10496900071610_2_alg».proof.Proof.Region8
import proofs.«151185_j10496900071610_2_alg».proof.Proof.RefDecoder
import proofs.«151185_j10496900071610_2_alg».proof.Proof.DecBridge
import Idealize.ShloMosaic.Lib.Pipeline.Value
import Idealize.ShloMosaic.Lib.ValueIdx

set_option maxRecDepth 16384

noncomputable section

namespace Cert.KernelIdeal.Value

open Cert.KernelIdeal Cert.KernelIdeal.Gen Cert.KernelIdeal.Fold
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Boundary 17: the drug endpoint embeddings of the labelled edges. -/
theorem k_main_v96 : W17 m ρ c (Proc.devRef .tc main_v96) = Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg21)) (m ((c : Thread nD τ).loc main_arg22)) (m ((c : Thread nD τ).loc main_arg23)) := by
  have h := HostReads.dec_zd (W16 m ρ c)
  rw [k_main_v87 m ρ c, argsAt16 m ρ c main_arg4 (by decide)] at h
  exact h.trans (Cert.ReferenceIdeal.Stages.stage_v140 _ _ _ _ _ _ _ _ _ _ _ _ _ _ _ _ _ _ _ _).symm

/-- Boundary 17: the protein endpoint embeddings. -/
theorem k_main_v103 : W17 m ρ c (Proc.devRef .tc main_v103) = Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h := HostReads.dec_zp (W16 m ρ c)
  rw [main_v76_at16 m ρ c, k_main_v76 m ρ c, argsAt16 m ρ c main_arg5 (by decide)] at h
  exact h.trans (Cert.ReferenceIdeal.Stages.stage_v147 _ _ _ _ _ _ _ _ _ _ _ _ _ _ _ _ _ _ _ _).symm

/-- Boundary 17: the halves of the first layer's weights and the second layer's weights as a row. -/
theorem k_main_v104 : W17 m ρ c (Proc.devRef .tc main_v104) = extractStridedSlice S256x256 ![0, 0] (m ((c : Thread nD τ).loc main_arg24)) slices_S512x256_S256x256_0_0 := by
  have h := HostReads.dec_w1a (W16 m ρ c)
  rw [argsAt16 m ρ c main_arg24 (by decide)] at h
  exact h
theorem k_main_v105 : W17 m ρ c (Proc.devRef .tc main_v105) = extractStridedSlice S256x256 ![256, 0] (m ((c : Thread nD τ).loc main_arg24)) slices_S512x256_S256x256_256_0 := by
  have h := HostReads.dec_w1b (W16 m ρ c)
  rw [argsAt16 m ρ c main_arg24 (by decide)] at h
  exact h
theorem k_main_v106 : W17 m ρ c (Proc.devRef .tc main_v106) = shapeCast S1x256 (m ((c : Thread nD τ).loc main_arg26)) shapeCasts_S256x1_S1x256 := by
  have h := HostReads.dec_w2row (W16 m ρ c)
  rw [argsAt16 m ρ c main_arg26 (by decide)] at h
  exact h

/-- Boundary 18: the fused decoder's column of scores. -/
theorem k_main_v107 : W18 m ρ c (Proc.devRef .tc main_v107)
    = Sage.decBlock (L := 200000) (Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg21)) (m ((c : Thread nD τ).loc main_arg22)) (m ((c : Thread nD τ).loc main_arg23))) (Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
        (extractStridedSlice S256x256 ![0, 0] (m ((c : Thread nD τ).loc main_arg24)) slices_S512x256_S256x256_0_0)
        (extractStridedSlice S256x256 ![256, 0] (m ((c : Thread nD τ).loc main_arg24)) slices_S512x256_S256x256_256_0)
        (m ((c : Thread nD τ).loc main_arg25)) (shapeCast S1x256 (m ((c : Thread nD τ).loc main_arg26)) shapeCasts_S256x1_S1x256) (m ((c : Thread nD τ).loc main_arg27)) := by
  have h0 : V17 m ρ c main_v96 = Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg21)) (m ((c : Thread nD τ).loc main_arg22)) (m ((c : Thread nD τ).loc main_arg23)) := k_main_v96 m ρ c
  have h1 : V17 m ρ c main_v103 = Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := k_main_v103 m ρ c
  have h2 : V17 m ρ c main_v104 = _ := k_main_v104 m ρ c
  have h3 : V17 m ρ c main_v105 = _ := k_main_v105 m ρ c
  have h4 : V17 m ρ c main_arg25 = (m ((c : Thread nD τ).loc main_arg25)) := argsAt17 m ρ c main_arg25 (by decide)
  have h5 : V17 m ρ c main_v106 = _ := k_main_v106 m ρ c
  have h6 : V17 m ρ c main_arg27 = (m ((c : Thread nD τ).loc main_arg27)) := argsAt17 m ρ c main_arg27 (by decide)
  calc W18 m ρ c (Proc.devRef .tc main_v107)
      = (dat8 (V17 m ρ) c).arrAt 7 cfg8.N := W18_arr m ρ c 7
    _ = Sage.decBlock (L := 200000) (V17 m ρ c main_v96) (V17 m ρ c main_v103) (V17 m ρ c main_v104) (V17 m ρ c main_v105) (V17 m ρ c main_arg25) (V17 m ρ c main_v106) (V17 m ρ c main_arg27) := Region8.final7 (V17 m ρ) c
    _ = _ := by rw [h0, h1, h2, h3, h4, h5, h6]

/-- The edge scores end at the reference's. -/
theorem result_out : W19 m ρ c (Proc.devRef .tc main_v108) = Cert.ReferenceIdeal.Read.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  have h := HostReads.out9 (W18 m ρ c)
  rw [k_main_v107 m ρ c] at h
  rw [Cert.ReferenceIdeal.Decoder.dec_v158]
  refine h.trans ?_
  funext i
  obtain ⟨l, rfl⟩ : ∃ l : Fin 200000, i = ix1 l := ⟨i 0, eq_ix1 i⟩
  rw [shapeCast_apply _ shapeCasts_S200000x1_S200000 (ix1 l) (ix2 l (0 : Fin 1)) (by
    rw [Shape.rowMajor_val_two, Shape.rowMajor_val_one]
    show l.val * 1 + 0 = l.val
    omega)]
  refine Sage.dec_bridge _ _ _ _ _ _ _ _ _ (fun k j => ?_) (fun k j => ?_) (fun j => ?_) l
  · exact extractStridedSlice_apply _ _ slices_S512x256_S256x256_0_0 (ix2 k j) _ (fun a => by
      match a with
      | ⟨0, _⟩ => show k.val = 0 + k.val; omega
      | ⟨1, _⟩ => show j.val = 0 + j.val; omega)
  · exact extractStridedSlice_apply _ _ slices_S512x256_S256x256_256_0 (ix2 k j) _ (fun a => by
      match a with
      | ⟨0, _⟩ => show 256 + k.val = 256 + k.val; rfl
      | ⟨1, _⟩ => show j.val = 0 + j.val; omega)
  · exact shapeCast_apply _ shapeCasts_S256x1_S1x256 (ix2 (0 : Fin 1) j) (ix2 j (0 : Fin 1)) (by
      rw [Shape.rowMajor_val_two, Shape.rowMajor_val_two]
      show j.val * 1 + 0 = 0 * 256 + j.val
      omega)

end Cert.KernelIdeal.Value

end
-- ==== Proof.lean ====
/-
  The certificate: a four-layer heterogeneous SAGE network with an edge decoder, fused kernels against a plain whole-array reference.

  Both programs aggregate along the edges with the same gathers and scatter-adds. They differ in the dense parts:
  the kernels compute each layer's update as (agg · Wl + x_dst · Wr) + bl on blocks of 2000 rows, through changes of
  float format that are the identity on extended reals, where the reference computes (agg · Wl + bl) + x_dst · Wr on
  whole arrays; and the fused decoder splits the first layer's contraction over the concatenated endpoint embeddings
  into its two halves and takes the second layer as a lane sum. Addition of extended reals is commutative and
  associative, so every entry agrees: no finiteness of the inputs is used.
  The three frames are the generated ones (the reference's from its generated run); nothing was rewritten by the
  idealization, so the kernel's idealization is its own text; the value claim is assembled from the kernel's run with
  its results named (Proof/KernelRun.lean), the induction along the program (Proof/KernelValue.lean,
  Proof/DecoderValue.lean) and the reference's generated run.
-/
import proofs.«151185_j10496900071610_2_alg».proof.Defs
import proofs.«151185_j10496900071610_2_alg».proof.Proof.Gen.Kernel
import proofs.«151185_j10496900071610_2_alg».proof.Proof.Gen.Kernel.Frame
import proofs.«151185_j10496900071610_2_alg».proof.Proof.Gen.KernelIdeal
import proofs.«151185_j10496900071610_2_alg».proof.Proof.Gen.KernelIdeal.Frame
import proofs.«151185_j10496900071610_2_alg».proof.Proof.Gen.ReferenceIdeal
import proofs.«151185_j10496900071610_2_alg».proof.Proof.Gen.Pre_finite_inputs
import proofs.«151185_j10496900071610_2_alg».proof.Proof.Gen.ReferenceIdeal.Read
import proofs.«151185_j10496900071610_2_alg».proof.Proof.KernelRun
import proofs.«151185_j10496900071610_2_alg».proof.Proof.KernelValue
import proofs.«151185_j10496900071610_2_alg».proof.Proof.DecoderValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs run, and end with the same drug embeddings, protein
    embeddings and edge scores: the kernel's results are the reference's own terms of the launch arguments. -/
theorem algebraic : Cert.algebraic_KernelIdeal_ReferenceIdeal := by
  intro m ρ m' ρ' _ hagree
  refine ⟨fun c => Cert.KernelIdeal.Gen.W19 m ρ c (Proc.devRef .tc Cert.KernelIdeal.main_v87),
    fun c => Cert.KernelIdeal.Gen.W19 m ρ c (Proc.devRef .tc Cert.KernelIdeal.main_v76),
    fun c => Cert.KernelIdeal.Gen.W19 m ρ c (Proc.devRef .tc Cert.KernelIdeal.main_v108),
    Cert.KernelIdeal.Fold.run_results m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27⟩ := hagree c
  refine ⟨(h c).1.trans ?_, (h c).2.1.trans ?_, (h c).2.2.1.trans ?_, (h c).2.2.2⟩
  · rw [Cert.ReferenceIdeal.Read.val_main_v133_eq, a0, a1, a2, a3, a6, a7, a8, a9, a10, a11, a12, a13, a14, a15, a16, a17, a21, a22, a23]
    exact (Cert.KernelIdeal.Value.result_zd m ρ c).symm
  · rw [Cert.ReferenceIdeal.Read.val_main_v117_eq, a0, a1, a2, a3, a6, a7, a8, a9, a10, a11, a12, a13, a14, a15, a16, a17, a18, a19, a20]
    exact (Cert.KernelIdeal.Value.result_zp m ρ c).symm
  · rw [Cert.ReferenceIdeal.Read.val_main_v158_eq, a0, a1, a2, a3, a4, a5, a6, a7, a8, a9, a10, a11, a12, a13, a14, a15, a16, a17, a18, a19, a20, a21, a22, a23, a24, a25, a26, a27]
    exact (Cert.KernelIdeal.Value.result_out m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
